-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_1023" .f32 0x3A802008#32 ((1 / 1023 : ℝ) : EReal)
  ∧ IdealRules.named_const.Statement Cert.KernelIdeal.κ "inv_255" .f32 0x3B808081#32 ((1 / 255 : ℝ) : EReal)
  ∧ IdealRules.named_const.Statement Cert.KernelIdeal.κ "inv_1023" .f32 0x3A802008#32 ((1 / 1023 : ℝ) : EReal)
  ∧ IdealRules.named_const.Statement Cert.KernelIdeal.κ "inv_255" .f32 0x3B808081#32 ((1 / 255 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x32x32 : Shape := ⟨4, ![32, 64, 32, 32]⟩
abbrev S32x128x16x16 : Shape := ⟨4, ![32, 128, 16, 16]⟩
abbrev S32x32x32x32 : Shape := ⟨4, ![32, 32, 32, 32]⟩
abbrev S32x64x16x16 : Shape := ⟨4, ![32, 64, 16, 16]⟩
abbrev S32 : Shape := ⟨1, ![32]⟩
abbrev S_ : Shape := ⟨0, ![]⟩

class Facts : Prop where
  bcast_S_S32x64x32x32 : S_.BroadcastsInDim S32x64x32x32 (![] : Fin 0 → Fin S32x64x32x32.rank)
  reducesTo_S32x64x32x32_S_d0_1_2_3 : S32x64x32x32.ReducesTo [0, 1, 2, 3] S_
  h_S_ : 0 < S_.numel
  bcast_S_S32x128x16x16 : S_.BroadcastsInDim S32x128x16x16 (![] : Fin 0 → Fin S32x128x16x16.rank)
  reducesTo_S32x128x16x16_S_d0_1_2_3 : S32x128x16x16.ReducesTo [0, 1, 2, 3] S_
  bcast_S_S32x32x32x32 : S_.BroadcastsInDim S32x32x32x32 (![] : Fin 0 → Fin S32x32x32x32.rank)
  reducesTo_S32x32x32x32_S_d0_1_2_3 : S32x32x32x32.ReducesTo [0, 1, 2, 3] S_
  bcast_S_S32x64x16x16 : S_.BroadcastsInDim S32x64x16x16 (![] : Fin 0 → Fin S32x64x16x16.rank)
  reducesTo_S32x64x16x16_S_d0_1_2_3 : S32x64x16x16.ReducesTo [0, 1, 2, 3] S_

variable [Facts]

def fn_part1 {F : FTy → Type} [FloatOps F] (main_v13 : IVec S_ 1) (main_v16 : IVec S32x64x16x16 1) : IVec S_ 1 :=
  let main_c_5 : IVec S_ 1 := constantI S_ 1 1#1
  let main_v17 : IVec S_ 1 := (fun x v => Host.reduce IntOp.andi x v reducesTo_S32x64x16x16_S_d0_1_2_3 h_S_) main_v16 main_c_5
  let main_v18 : IVec S_ 1 := andi main_v13 main_v17
  main_v18

def fn {F : FTy → Type} [FloatOps F] (main_arg0 : FVec F S32x64x32x32 .f32) (main_arg1 : FVec F S32x128x16x16 .f32) (main_arg2 : FVec F S32x32x32x32 .f32) (main_arg3 : FVec F S32x64x16x16 .f32) (main_arg4 : IVec S32 32) : IVec S_ 1 :=
  let main_v0 : FVec F S32x64x32x32 .f32 := Host.absf main_arg0
  let main_cst : FVec F S_ .f32 := constant S_ .f32 0x7F800000#32
  let main_v1 : FVec F S32x64x32x32 .f32 := broadcastInDim S32x64x32x32 ![] bcast_S_S32x64x32x32 main_cst
  let main_v2 : IVec S32x64x32x32 1 := cmpf .olt main_v0 main_v1
  let main_c : IVec S_ 1 := constantI S_ 1 1#1
  let main_v3 : IVec S_ 1 := (fun x v => Host.reduce IntOp.andi x v reducesTo_S32x64x32x32_S_d0_1_2_3 h_S_) main_v2 main_c
  let main_v4 : FVec F S32x128x16x16 .f32 := Host.absf main_arg1
  let main_cst_0 : FVec F S_ .f32 := constant S_ .f32 0x7F800000#32
  let main_v5 : FVec F S32x128x16x16 .f32 := broadcastInDim S32x128x16x16 ![] bcast_S_S32x128x16x16 main_cst_0
  let main_v6 : IVec S32x128x16x16 1 := cmpf .olt main_v4 main_v5
  let main_c_1 : IVec S_ 1 := constantI S_ 1 1#1
  let main_v7 : IVec S_ 1 := (fun x v => Host.reduce IntOp.andi x v reducesTo_S32x128x16x16_S_d0_1_2_3 h_S_) main_v6 main_c_1
  let main_v8 : IVec S_ 1 := andi main_v3 main_v7
  let main_v9 : FVec F S32x32x32x32 .f32 := Host.absf main_arg2
  let main_cst_2 : FVec F S_ .f32 := constant S_ .f32 0x7F800000#32
  let main_v10 : FVec F S32x32x32x32 .f32 := broadcastInDim S32x32x32x32 ![] bcast_S_S32x32x32x32 main_cst_2
  let main_v11 : IVec S32x32x32x32 1 := cmpf .olt main_v9 main_v10
  let main_c_3 : IVec S_ 1 := constantI S_ 1 1#1
  let main_v12 : IVec S_ 1 := (fun x v => Host.reduce IntOp.andi x v reducesTo_S32x32x32x32_S_d0_1_2_3 h_S_) main_v11 main_c_3
  let main_v13 : IVec S_ 1 := andi main_v8 main_v12
  let main_v14 : FVec F S32x64x16x16 .f32 := Host.absf main_arg3
  let main_cst_4 : FVec F S_ .f32 := constant S_ .f32 0x7F800000#32
  let main_v15 : FVec F S32x64x16x16 .f32 := broadcastInDim S32x64x16x16 ![] bcast_S_S32x64x16x16 main_cst_4
  let main_v16 : IVec S32x64x16x16 1 := cmpf .olt main_v14 main_v15
  fn_part1 (F := F) main_v13 main_v16
-- ==== Kernel.lean ====
abbrev S32x64x32x32 : Shape := ⟨4, ![32, 64, 32, 32]⟩
abbrev S32x128x16x16 : Shape := ⟨4, ![32, 128, 16, 16]⟩
abbrev S32x32x32x32 : Shape := ⟨4, ![32, 32, 32, 32]⟩
abbrev S32x64x16x16 : Shape := ⟨4, ![32, 64, 16, 16]⟩
abbrev S32 : Shape := ⟨1, ![32]⟩
abbrev S32x64x1024 : Shape := ⟨3, ![32, 64, 1024]⟩
abbrev S32x1024 : Shape := ⟨2, ![32, 1024]⟩
abbrev S8x64x1024 : Shape := ⟨3, ![8, 64, 1024]⟩
abbrev S8x1024 : Shape := ⟨2, ![8, 1024]⟩
abbrev S8 : Shape := ⟨1, ![8]⟩
abbrev S8x1 : Shape := ⟨2, ![8, 1]⟩
abbrev S32x1024x1 : Shape := ⟨3, ![32, 1024, 1]⟩
abbrev S32x1x1024 : Shape := ⟨3, ![32, 1, 1024]⟩
abbrev S32x1024x1024 : Shape := ⟨3, ![32, 1024, 1024]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S32x128x256 : Shape := ⟨3, ![32, 128, 256]⟩
abbrev S32x256 : Shape := ⟨2, ![32, 256]⟩
abbrev S8x128x256 : Shape := ⟨3, ![8, 128, 256]⟩
abbrev S8x256 : Shape := ⟨2, ![8, 256]⟩
abbrev S32x256x1 : Shape := ⟨3, ![32, 256, 1]⟩
abbrev S32x1x256 : Shape := ⟨3, ![32, 1, 256]⟩
abbrev S32x256x256 : Shape := ⟨3, ![32, 256, 256]⟩
abbrev S1x256x1 : Shape := ⟨3, ![1, 256, 1]⟩
abbrev S1x1x256 : Shape := ⟨3, ![1, 1, 256]⟩
abbrev S1x256x256 : Shape := ⟨3, ![1, 256, 256]⟩
abbrev S32x32x1024 : Shape := ⟨3, ![32, 32, 1024]⟩
abbrev S8x32x1024 : Shape := ⟨3, ![8, 32, 1024]⟩
abbrev S32x64x256 : Shape := ⟨3, ![32, 64, 256]⟩
abbrev S8x64x256 : Shape := ⟨3, ![8, 64, 256]⟩

abbrev nBuf : Space → Nat
  | .hbm => 25
  | .vmem => 40
  | .smem => 0
  | _ => 0

abbrev bufTy : (tb : Table) → Fin (tcTables nBuf tb) → BufTy
  | .hbm, ⟨0, _⟩ => ⟨S32x64x32x32, .f32⟩
  | .hbm, ⟨1, _⟩ => ⟨S32x128x16x16, .f32⟩
  | .hbm, ⟨2, _⟩ => ⟨S32x32x32x32, .f32⟩
  | .hbm, ⟨3, _⟩ => ⟨S32x64x16x16, .f32⟩
  | .hbm, ⟨4, _⟩ => ⟨S32, .i32⟩
  | .hbm, ⟨5, _⟩ => ⟨S32x64x1024, .f32⟩
  | .hbm, ⟨6, _⟩ => ⟨S32x1024, .f32⟩
  | .hbm, ⟨7, _⟩ => ⟨S32x1024x1, .f32⟩
  | .hbm, ⟨8, _⟩ => ⟨S32x1x1024, .f32⟩
  | .hbm, ⟨9, _⟩ => ⟨S32x1024x1024, .f32⟩
  | .hbm, ⟨10, _⟩ => ⟨S32x128x256, .f32⟩
  | .hbm, ⟨11, _⟩ => ⟨S32x256, .f32⟩
  | .hbm, ⟨12, _⟩ => ⟨S32x256x1, .f32⟩
  | .hbm, ⟨13, _⟩ => ⟨S32x1x256, .f32⟩
  | .hbm, ⟨14, _⟩ => ⟨S32x256x256, .f32⟩
  | .hbm, ⟨15, _⟩ => ⟨S32x32x1024, .f32⟩
  | .hbm, ⟨16, _⟩ => ⟨S32x1024, .f32⟩
  | .hbm, ⟨17, _⟩ => ⟨S32x1024x1, .f32⟩
  | .hbm, ⟨18, _⟩ => ⟨S32x1x1024, .f32⟩
  | .hbm, ⟨19, _⟩ => ⟨S32x1024x1024, .f32⟩
  | .hbm, ⟨20, _⟩ => ⟨S32x64x256, .f32⟩
  | .hbm, ⟨21, _⟩ => ⟨S32x256, .f32⟩
  | .hbm, ⟨22, _⟩ => ⟨S32x256x1, .f32⟩
  | .hbm, ⟨23, _⟩ => ⟨S32x1x256, .f32⟩
  | .hbm, ⟨24, _⟩ => ⟨S32x256x256, .f32⟩
  | .local _ .vmem, ⟨0, _⟩ => ⟨S8x64x1024, .f32⟩
  | .local _ .vmem, ⟨1, _⟩ => ⟨S8x64x1024, .f32⟩
  | .local _ .vmem, ⟨2, _⟩ => ⟨S8x1024, .f32⟩
  | .local _ .vmem, ⟨3, _⟩ => ⟨S8x1024, .f32⟩
  | .local _ .vmem, ⟨4, _⟩ => ⟨S1x1024x1, .f32⟩
  | .local _ .vmem, ⟨5, _⟩ => ⟨S1x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S8x128x256, .f32⟩
  | .local _ .vmem, ⟨11, _⟩ => ⟨S8x128x256, .f32⟩
  | .local _ .vmem, ⟨12, _⟩ => ⟨S8x256, .f32⟩
  | .local _ .vmem, ⟨13, _⟩ => ⟨S8x256, .f32⟩
  | .local _ .vmem, ⟨14, _⟩ => ⟨S1x256x1, .f32⟩
  | .local _ .vmem, ⟨15, _⟩ => ⟨S1x256x1, .f32⟩
  | .local _ .vmem, ⟨16, _⟩ => ⟨S1x1x256, .f32⟩
  | .local _ .vmem, ⟨17, _⟩ => ⟨S1x1x256, .f32⟩
  | .local _ .vmem, ⟨18, _⟩ => ⟨S1x256x256, .f32⟩
  | .local _ .vmem, ⟨19, _⟩ => ⟨S1x256x256, .f32⟩
  | .local _ .vmem, ⟨20, _⟩ => ⟨S8x32x1024, .f32⟩
  | .local _ .vmem, ⟨21, _⟩ => ⟨S8x32x1024, .f32⟩
  | .local _ .vmem, ⟨22, _⟩ => ⟨S8x1024, .f32⟩
  | .local _ .vmem, ⟨23, _⟩ => ⟨S8x1024, .f32⟩
  | .local _ .vmem, ⟨24, _⟩ => ⟨S1x1024x1, .f32⟩
  | .local _ .vmem, ⟨25, _⟩ => ⟨S1x1024x1, .f32⟩
  | .local _ .vmem, ⟨26, _⟩ => ⟨S1x1x1024, .f32⟩
  | .local _ .vmem, ⟨27, _⟩ => ⟨S1x1x1024, .f32⟩
  | .local _ .vmem, ⟨28, _⟩ => ⟨S1x1024x1024, .f32⟩
  | .local _ .vmem, ⟨29, _⟩ => ⟨S1x1024x1024, .f32⟩
  | .local _ .vmem, ⟨30, _⟩ => ⟨S8x64x256, .f32⟩
  | .local _ .vmem, ⟨31, _⟩ => ⟨S8x64x256, .f32⟩
  | .local _ .vmem, ⟨32, _⟩ => ⟨S8x256, .f32⟩
  | .local _ .vmem, ⟨33, _⟩ => ⟨S8x256, .f32⟩
  | .local _ .vmem, ⟨34, _⟩ => ⟨S1x256x1, .f32⟩
  | .local _ .vmem, ⟨35, _⟩ => ⟨S1x256x1, .f32⟩
  | .local _ .vmem, ⟨36, _⟩ => ⟨S1x1x256, .f32⟩
  | .local _ .vmem, ⟨37, _⟩ => ⟨S1x1x256, .f32⟩
  | .local _ .vmem, ⟨38, _⟩ => ⟨S1x256x256, .f32⟩
  | .local _ .vmem, ⟨39, _⟩ => ⟨S1x256x256, .f32⟩
  | _, _ => ⟨S32x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg1_1 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc5_sem0_0 : DmaSem sig := 24
abbrev cc5_sem0_1 : DmaSem sig := 25
abbrev cc5_sem1_0 : DmaSem sig := 26
abbrev cc5_sem1_1 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc7_sem0_0 : DmaSem sig := 34
abbrev cc7_sem0_1 : DmaSem sig := 35
abbrev cc7_sem1_0 : DmaSem sig := 36
abbrev cc7_sem1_1 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x128x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8x32x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![32], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1024x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![4], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8x64x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![32], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x256x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x256x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  shapeCasts_S32x64x32x32_S32x64x1024 : S32x64x32x32.ShapeCasts S32x64x1024
  inb_S8x64x1024_S8x64x1024_0_0_0 : ∀ a, (![0, 0, 0] : Fin 3 → Nat) a + S8x64x1024.size a ≤ S8x64x1024.size a
  h_S8x64x1024 : 0 < S8x64x1024.numel
  shapeCasts_S8x64x1024_S8x64x1024 : S8x64x1024.ShapeCasts S8x64x1024
  reduces_S8x64x1024_S8x1024 : S8x64x1024.Reduces [1] S8x1024
  reduces_S8x1024_S8 : S8x1024.Reduces [1] S8
  shapeCasts_S8_S8x1 : S8.ShapeCasts S8x1
  broadcasts_S8x1_S8x1024 : S8x1.Broadcasts S8x1024
  inb_S8x1024_S8x1024_0_0 : ∀ a, (![0, 0] : Fin 2 → Nat) a + S8x1024.size a ≤ S8x1024.size a
  h_S8x1024 : 0 < S8x1024.numel
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  broadcasts_S1x1024x1_S1x1024x1024 : S1x1024x1.Broadcasts S1x1024x1024
  broadcasts_S1x1x1024_S1x1024x1024 : S1x1x1024.Broadcasts S1x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S32x128x16x16_S32x128x256 : S32x128x16x16.ShapeCasts S32x128x256
  inb_S8x128x256_S8x128x256_0_0_0 : ∀ a, (![0, 0, 0] : Fin 3 → Nat) a + S8x128x256.size a ≤ S8x128x256.size a
  h_S8x128x256 : 0 < S8x128x256.numel
  shapeCasts_S8x128x256_S8x128x256 : S8x128x256.ShapeCasts S8x128x256
  reduces_S8x128x256_S8x256 : S8x128x256.Reduces [1] S8x256
  reduces_S8x256_S8 : S8x256.Reduces [1] S8
  broadcasts_S8x1_S8x256 : S8x1.Broadcasts S8x256
  inb_S8x256_S8x256_0_0 : ∀ a, (![0, 0] : Fin 2 → Nat) a + S8x256.size a ≤ S8x256.size a
  h_S8x256 : 0 < S8x256.numel
  bcast_S32x256_S32x256x1_0_1 : S32x256.BroadcastsInDim S32x256x1 (![0, 1] : Fin 2 → Fin S32x256x1.rank)
  bcast_S32x256_S32x1x256_0_2 : S32x256.BroadcastsInDim S32x1x256 (![0, 2] : Fin 2 → Fin S32x1x256.rank)
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  broadcasts_S1x256x1_S1x256x256 : S1x256x1.Broadcasts S1x256x256
  broadcasts_S1x1x256_S1x256x256 : S1x1x256.Broadcasts S1x256x256
  inb_S1x256x256_S1x256x256_0_0_0 : ∀ a, (![0, 0, 0] : Fin 3 → Nat) a + S1x256x256.size a ≤ S1x256x256.size a
  h_S1x256x256 : 0 < S1x256x256.numel
  shapeCasts_S32x32x32x32_S32x32x1024 : S32x32x32x32.ShapeCasts S32x32x1024
  inb_S8x32x1024_S8x32x1024_0_0_0 : ∀ a, (![0, 0, 0] : Fin 3 → Nat) a + S8x32x1024.size a ≤ S8x32x1024.size a
  h_S8x32x1024 : 0 < S8x32x1024.numel
  shapeCasts_S8x32x1024_S8x32x1024 : S8x32x1024.ShapeCasts S8x32x1024
  reduces_S8x32x1024_S8x1024 : S8x32x1024.Reduces [1] S8x1024
  shapeCasts_S32x64x16x16_S32x64x256 : S32x64x16x16.ShapeCasts S32x64x256
  inb_S8x64x256_S8x64x256_0_0_0 : ∀ a, (![0, 0, 0] : Fin 3 → Nat) a + S8x64x256.size a ≤ S8x64x256.size a
  h_S8x64x256 : 0 < S8x64x256.numel
  shapeCasts_S8x64x256_S8x64x256 : S8x64x256.ShapeCasts S8x64x256
  reduces_S8x64x256_S8x256 : S8x64x256.Reduces [1] S8x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x1024.size a ≤ S32x64x1024.size a
  hwx0_0 : ∀ i : grid0.Coords, EltTy.bits .f32 = 32 ∨ (Rect.block (s := S32x64x1024) S8x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S32x1024.size a
  hwx0_1 : ∀ i : grid0.Coords, EltTy.bits .f32 = 32 ∨ (Rect.block (s := S32x1024) S8x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1.size a ≤ S32x1024x1.size a
  hwx1_0 : ∀ i : grid1.Coords, EltTy.bits .f32 = 32 ∨ (Rect.block (s := S32x1024x1) S1x1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S32x1x1024.size a
  hwx1_1 : ∀ i : grid1.Coords, EltTy.bits .f32 = 32 ∨ (Rect.block (s := S32x1x1024) S1x1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S32x1024x1024.size a
  hwx1_2 : ∀ i : grid1.Coords, EltTy.bits .f32 = 32 ∨ (Rect.block (s := S32x1024x1024) S1x1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x128x256.size a ≤ S32x128x256.size a
  hwx2_0 : ∀ i : grid2.Coords, EltTy.bits .f32 = 32 ∨ (Rect.block (s := S32x128x256) S8x128x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x256.size a ≤ S32x256.size a
  hwx2_1 : ∀ i : grid2.Coords, EltTy.bits .f32 = 32 ∨ (Rect.block (s := S32x256) S8x256.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1.size a ≤ S32x256x1.size a
  hwx3_0 : ∀ i : grid3.Coords, EltTy.bits .f32 = 32 ∨ (Rect.block (s := S32x256x1) S1x256x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x256.size a ≤ S32x1x256.size a
  hwx3_1 : ∀ i : grid3.Coords, EltTy.bits .f32 = 32 ∨ (Rect.block (s := S32x1x256) S1x1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256x256.size a ≤ S32x256x256.size a
  hwx3_2 : ∀ i : grid3.Coords, EltTy.bits .f32 = 32 ∨ (Rect.block (s := S32x256x256) S1x256x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x32x1024.size a ≤ S32x32x1024.size a
  hwx4_0 : ∀ i : grid4.Coords, EltTy.bits .f32 = 32 ∨ (Rect.block (s := S32x32x1024) S8x32x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8x1024.size a ≤ S32x1024.size a
  hwx4_1 : ∀ i : grid4.Coords, EltTy.bits .f32 = 32 ∨ (Rect.block (s := S32x1024) S8x1024.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x1024x1.size a ≤ S32x1024x1.size a
  hwx5_0 : ∀ i : grid5.Coords, EltTy.bits .f32 = 32 ∨ (Rect.block (s := S32x1024x1) S1x1024x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x1024.size a ≤ S32x1x1024.size a
  hwx5_1 : ∀ i : grid5.Coords, EltTy.bits .f32 = 32 ∨ (Rect.block (s := S32x1x1024) S1x1x1024.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1024x1024.size a ≤ S32x1024x1024.size a
  hwx5_2 : ∀ i : grid5.Coords, EltTy.bits .f32 = 32 ∨ (Rect.block (s := S32x1024x1024) S1x1024x1024.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8x64x256.size a ≤ S32x64x256.size a
  hwx6_0 : ∀ i : grid6.Coords, EltTy.bits .f32 = 32 ∨ (Rect.block (s := S32x64x256) S8x64x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8x256.size a ≤ S32x256.size a
  hwx6_1 : ∀ i : grid6.Coords, EltTy.bits .f32 = 32 ∨ (Rect.block (s := S32x256) S8x256.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x256x1.size a ≤ S32x256x1.size a
  hwx7_0 : ∀ i : grid7.Coords, EltTy.bits .f32 = 32 ∨ (Rect.block (s := S32x256x1) S1x256x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x1x256.size a ≤ S32x1x256.size a
  hwx7_1 : ∀ i : grid7.Coords, EltTy.bits .f32 = 32 ∨ (Rect.block (s := S32x1x256) S1x1x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x256x256.size a ≤ S32x256x256.size a
  hwx7_2 : ∀ i : grid7.Coords, EltTy.bits .f32 = 32 ∨ (Rect.block (s := S32x256x256) S1x256x256.size (cc7_transform_2 i) (hinb7_2 i)).WholeWords (EltTy.packing .f32)

variable [Facts₀]

abbrev win0_0 : Pipeline.Window sig grid0 :=
  Pipeline.Window.ofSpec (Memref.whole main_v0) S8x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S1x1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v5) S8x128x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S8x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v7) S1x256x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S1x1x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S1x256x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v10) S8x32x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S8x1024.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v12) S1x1024x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v13) S1x1x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v14) S1x1024x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v15) S8x64x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v16) S8x256.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_v17) S1x256x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v18) S1x1x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v19) S1x256x256.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S32x64x32x32 : Shape := ⟨4, ![32, 64, 32, 32]⟩
abbrev S32x128x16x16 : Shape := ⟨4, ![32, 128, 16, 16]⟩
abbrev S32x32x32x32 : Shape := ⟨4, ![32, 32, 32, 32]⟩
abbrev S32x64x16x16 : Shape := ⟨4, ![32, 64, 16, 16]⟩
abbrev S32 : Shape := ⟨1, ![32]⟩
abbrev S_ : Shape := ⟨0, ![]⟩
abbrev S32x32x32 : Shape := ⟨3, ![32, 32, 32]⟩
abbrev S32x1024 : Shape := ⟨2, ![32, 1024]⟩
abbrev S32x1024x1 : Shape := ⟨3, ![32, 1024, 1]⟩
abbrev S32x1x1024 : Shape := ⟨3, ![32, 1, 1024]⟩
abbrev S32x1024x1024 : Shape := ⟨3, ![32, 1024, 1024]⟩
abbrev S32x16x16 : Shape := ⟨3, ![32, 16, 16]⟩
abbrev S32x256 : Shape := ⟨2, ![32, 256]⟩
abbrev S32x256x1 : Shape := ⟨3, ![32, 256, 1]⟩
abbrev S32x1x256 : Shape := ⟨3, ![32, 1, 256]⟩
abbrev S32x256x256 : Shape := ⟨3, ![32, 256, 256]⟩

abbrev nBuf : Space → Nat
  | .hbm => 97
  | .vmem => 0
  | .smem => 0
  | _ => 0

abbrev bufTy : (tb : Table) → Fin (tcTables nBuf tb) → BufTy
  | .hbm, ⟨0, _⟩ => ⟨S32x64x32x32, .f32⟩
  | .hbm, ⟨1, _⟩ => ⟨S32x128x16x16, .f32⟩
  | .hbm, ⟨2, _⟩ => ⟨S32x32x32x32, .f32⟩
  | .hbm, ⟨3, _⟩ => ⟨S32x64x16x16, .f32⟩
  | .hbm, ⟨4, _⟩ => ⟨S32, .i32⟩
  | .hbm, ⟨5, _⟩ => ⟨S_, .f32⟩
  | .hbm, ⟨6, _⟩ => ⟨S32x32x32, .f32⟩
  | .hbm, ⟨7, _⟩ => ⟨S_, .f32⟩
  | .hbm, ⟨8, _⟩ => ⟨S32x32x32, .f32⟩
  | .hbm, ⟨9, _⟩ => ⟨S32x32x32, .f32⟩
  | .hbm, ⟨10, _⟩ => ⟨S32x1024, .f32⟩
  | .hbm, ⟨11, _⟩ => ⟨S32x1024x1, .f32⟩
  | .hbm, ⟨12, _⟩ => ⟨S32x1x1024, .f32⟩
  | .hbm, ⟨13, _⟩ => ⟨S32x1024x1024, .f32⟩
  | .hbm, ⟨14, _⟩ => ⟨S32x1024x1024, .f32⟩
  | .hbm, ⟨15, _⟩ => ⟨S32x1024x1024, .f32⟩
  | .hbm, ⟨16, _⟩ => ⟨S_, .f32⟩
  | .hbm, ⟨17, _⟩ => ⟨S32x1024, .f32⟩
  | .hbm, ⟨18, _⟩ => ⟨S32x1024x1, .f32⟩
  | .hbm, ⟨19, _⟩ => ⟨S_, .f32⟩
  | .hbm, ⟨20, _⟩ => ⟨S32x1024x1, .f32⟩
  | .hbm, ⟨21, _⟩ => ⟨S32x1024x1, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S_, .f32⟩
  | .hbm, ⟨26, _⟩ => ⟨S32x1024x1024, .f32⟩
  | .hbm, ⟨27, _⟩ => ⟨S32x1024x1024, .f32⟩
  | .hbm, ⟨28, _⟩ => ⟨S_, .f32⟩
  | .hbm, ⟨29, _⟩ => ⟨S32x16x16, .f32⟩
  | .hbm, ⟨30, _⟩ => ⟨S_, .f32⟩
  | .hbm, ⟨31, _⟩ => ⟨S32x16x16, .f32⟩
  | .hbm, ⟨32, _⟩ => ⟨S32x16x16, .f32⟩
  | .hbm, ⟨33, _⟩ => ⟨S32x256, .f32⟩
  | .hbm, ⟨34, _⟩ => ⟨S32x256x1, .f32⟩
  | .hbm, ⟨35, _⟩ => ⟨S32x1x256, .f32⟩
  | .hbm, ⟨36, _⟩ => ⟨S32x256x256, .f32⟩
  | .hbm, ⟨37, _⟩ => ⟨S32x256x256, .f32⟩
  | .hbm, ⟨38, _⟩ => ⟨S32x256x256, .f32⟩
  | .hbm, ⟨39, _⟩ => ⟨S_, .f32⟩
  | .hbm, ⟨40, _⟩ => ⟨S32x256, .f32⟩
  | .hbm, ⟨41, _⟩ => ⟨S32x256x1, .f32⟩
  | .hbm, ⟨42, _⟩ => ⟨S_, .f32⟩
  | .hbm, ⟨43, _⟩ => ⟨S32x256x1, .f32⟩
  | .hbm, ⟨44, _⟩ => ⟨S32x256x1, .f32⟩
  | .hbm, ⟨45, _⟩ => ⟨S32x256x256, .f32⟩
  | .hbm, ⟨46, _⟩ => ⟨S32x256x256, .f32⟩
  | .hbm, ⟨47, _⟩ => ⟨S32x256x256, .f32⟩
  | .hbm, ⟨48, _⟩ => ⟨S_, .f32⟩
  | .hbm, ⟨49, _⟩ => ⟨S32x256x256, .f32⟩
  | .hbm, ⟨50, _⟩ => ⟨S32x256x256, .f32⟩
  | .hbm, ⟨51, _⟩ => ⟨S_, .f32⟩
  | .hbm, ⟨52, _⟩ => ⟨S32x32x32, .f32⟩
  | .hbm, ⟨53, _⟩ => ⟨S_, .f32⟩
  | .hbm, ⟨54, _⟩ => ⟨S32x32x32, .f32⟩
  | .hbm, ⟨55, _⟩ => ⟨S32x32x32, .f32⟩
  | .hbm, ⟨56, _⟩ => ⟨S32x1024, .f32⟩
  | .hbm, ⟨57, _⟩ => ⟨S32x1024x1, .f32⟩
  | .hbm, ⟨58, _⟩ => ⟨S32x1x1024, .f32⟩
  | .hbm, ⟨59, _⟩ => ⟨S32x1024x1024, .f32⟩
  | .hbm, ⟨60, _⟩ => ⟨S32x1024x1024, .f32⟩
  | .hbm, ⟨61, _⟩ => ⟨S32x1024x1024, .f32⟩
  | .hbm, ⟨62, _⟩ => ⟨S_, .f32⟩
  | .hbm, ⟨63, _⟩ => ⟨S32x1024, .f32⟩
  | .hbm, ⟨64, _⟩ => ⟨S32x1024x1, .f32⟩
  | .hbm, ⟨65, _⟩ => ⟨S_, .f32⟩
  | .hbm, ⟨66, _⟩ => ⟨S32x1024x1, .f32⟩
  | .hbm, ⟨67, _⟩ => ⟨S32x1024x1, .f32⟩
  | .hbm, ⟨68, _⟩ => ⟨S32x1024x1024, .f32⟩
  | .hbm, ⟨69, _⟩ => ⟨S32x1024x1024, .f32⟩
  | .hbm, ⟨70, _⟩ => ⟨S32x1024x1024, .f32⟩
  | .hbm, ⟨71, _⟩ => ⟨S_, .f32⟩
  | .hbm, ⟨72, _⟩ => ⟨S32x1024x1024, .f32⟩
  | .hbm, ⟨73, _⟩ => ⟨S32x1024x1024, .f32⟩
  | .hbm, ⟨74, _⟩ => ⟨S_, .f32⟩
  | .hbm, ⟨75, _⟩ => ⟨S32x16x16, .f32⟩
  | .hbm, ⟨76, _⟩ => ⟨S_, .f32⟩
  | .hbm, ⟨77, _⟩ => ⟨S32x16x16, .f32⟩
  | .hbm, ⟨78, _⟩ => ⟨S32x16x16, .f32⟩
  | .hbm, ⟨79, _⟩ => ⟨S32x256, .f32⟩
  | .hbm, ⟨80, _⟩ => ⟨S32x256x1, .f32⟩
  | .hbm, ⟨81, _⟩ => ⟨S32x1x256, .f32⟩
  | .hbm, ⟨82, _⟩ => ⟨S32x256x256, .f32⟩
  | .hbm, ⟨83, _⟩ => ⟨S32x256x256, .f32⟩
  | .hbm, ⟨84, _⟩ => ⟨S32x256x256, .f32⟩
  | .hbm, ⟨85, _⟩ => ⟨S_, .f32⟩
  | .hbm, ⟨86, _⟩ => ⟨S32x256, .f32⟩
  | .hbm, ⟨87, _⟩ => ⟨S32x256x1, .f32⟩
  | .hbm, ⟨88, _⟩ => ⟨S_, .f32⟩
  | .hbm, ⟨89, _⟩ => ⟨S32x256x1, .f32⟩
  | .hbm, ⟨90, _⟩ => ⟨S32x256x1, .f32⟩
  | .hbm, ⟨91, _⟩ => ⟨S32x256x256, .f32⟩
  | .hbm, ⟨92, _⟩ => ⟨S32x256x256, .f32⟩
  | .hbm, ⟨93, _⟩ => ⟨S32x256x256, .f32⟩
  | .hbm, ⟨94, _⟩ => ⟨S_, .f32⟩
  | .hbm, ⟨95, _⟩ => ⟨S32x256x256, .f32⟩
  | .hbm, ⟨96, _⟩ => ⟨S32x256x256, .f32⟩
  | _, _ => ⟨S32x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_18 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]

class Facts₀ : Prop where
  reducesTo_S32x64x32x32_S32x32x32_d1 : S32x64x32x32.ReducesTo [1] S32x32x32
  h_S_ : 0 < S_.numel
  bcast_S_S32x32x32 : S_.BroadcastsInDim S32x32x32 (![] : Fin 0 → Fin S32x32x32.rank)
  shapeCasts_S32x32x32_S32x1024 : S32x32x32.ShapeCasts S32x1024
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  reducesTo_S32x1024x1024_S32x1024_d2 : S32x1024x1024.ReducesTo [2] S32x1024
  bcast_S_S32x1024x1 : S_.BroadcastsInDim S32x1024x1 (![] : Fin 0 → Fin S32x1024x1.rank)
  bcast_S_S32x1024x1024 : S_.BroadcastsInDim S32x1024x1024 (![] : Fin 0 → Fin S32x1024x1024.rank)
  reducesTo_S32x128x16x16_S32x16x16_d1 : S32x128x16x16.ReducesTo [1] S32x16x16
  bcast_S_S32x16x16 : S_.BroadcastsInDim S32x16x16 (![] : Fin 0 → Fin S32x16x16.rank)
  shapeCasts_S32x16x16_S32x256 : S32x16x16.ShapeCasts S32x256
  bcast_S32x256_S32x256x1_0_1 : S32x256.BroadcastsInDim S32x256x1 (![0, 1] : Fin 2 → Fin S32x256x1.rank)
  bcast_S32x256_S32x1x256_0_2 : S32x256.BroadcastsInDim S32x1x256 (![0, 2] : Fin 2 → Fin S32x1x256.rank)
  bcast_S32x256x1_S32x256x256_0_1_2 : S32x256x1.BroadcastsInDim S32x256x256 (![0, 1, 2] : Fin 3 → Fin S32x256x256.rank)
  bcast_S32x1x256_S32x256x256_0_1_2 : S32x1x256.BroadcastsInDim S32x256x256 (![0, 1, 2] : Fin 3 → Fin S32x256x256.rank)
  reducesTo_S32x256x256_S32x256_d2 : S32x256x256.ReducesTo [2] S32x256
  bcast_S_S32x256x1 : S_.BroadcastsInDim S32x256x1 (![] : Fin 0 → Fin S32x256x1.rank)
  bcast_S_S32x256x256 : S_.BroadcastsInDim S32x256x256 (![] : Fin 0 → Fin S32x256x256.rank)
  reducesTo_S32x32x32x32_S32x32x32_d1 : S32x32x32x32.ReducesTo [1] S32x32x32
  reducesTo_S32x64x16x16_S32x16x16_d1 : S32x64x16x16.ReducesTo [1] S32x16x16
  dot_S32x1024x1024_S32x1024x1024_S32x1024x1024_2_2_1_1_0_0_wf : DotDims.WF S32x1024x1024 S32x1024x1024 S32x1024x1024 [2] [2] [1] [1] [0] [0]
  dot_S32x256x256_S32x256x256_S32x256x256_2_2_1_1_0_0_wf : DotDims.WF S32x256x256 S32x256x256 S32x256x256 [2] [2] [1] [1] [0] [0]

variable [Facts₀]

def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf
def dot_S32x256x256_S32x256x256_S32x256x256_2_2_1_1_0_0 : DotDims S32x256x256 S32x256x256 S32x256x256 where
  lhsContracting := [2]
  rhsContracting := [2]
  lhsNonContracting := [1]
  rhsNonContracting := [1]
  lhsBatch := [0]
  rhsBatch := [0]
  wf := dot_S32x256x256_S32x256x256_S32x256x256_2_2_1_1_0_0_wf

class Facts : Prop extends Facts₀ where

variable [Facts]
-- ==== Proof.CovRun.lean ====
/-
  The idealized kernel program's run with its result arrays named.

  The program is eight kernel launches among stretches of host operations. Its buffers' contents at the end of the
  last segment are the fold `W16` of the segments over the launch memory: a host stretch applies its operations, a
  launch replaces its arrays by what its write-backs leave. Every weakly fair execution terminates with each result
  buffer holding `W16` at that buffer, and with the argument arrays as launched.
-/
import proofs.«119585_j64424509440533_1_alg».proof.Proof.Gen.KernelIdeal.Frame

set_option maxRecDepth 16384

noncomputable section

namespace Cert.KernelIdeal.CovRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the four result buffers at the
    last boundary's contents and the five argument arrays unchanged. -/
theorem run_named : θ_run defs (onTc (τ := τ) (main (F := F))) ⟨m, fun _ => 0, ρ⟩ (fun r => ∀ c : Dev nD,
      r.2.mem ((c.tc : Thread nD τ).loc main_v4) = W16 m ρ c (Proc.devRef .tc main_v4)
      ∧ r.2.mem ((c.tc : Thread nD τ).loc main_v9) = W16 m ρ c (Proc.devRef .tc main_v9)
      ∧ r.2.mem ((c.tc : Thread nD τ).loc main_v14) = W16 m ρ c (Proc.devRef .tc main_v14)
      ∧ r.2.mem ((c.tc : Thread nD τ).loc main_v19) = W16 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v4 (by decide)),
       h c _ (mem_uc main_v9 (by decide)),
       h c _ (mem_uc main_v14 (by decide)),
       h c _ (mem_uc main_v19 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c)⟩)

end Cert.KernelIdeal.CovRun

end
-- ==== Proof.CovAlgebra.lean ====
/-
  The covariance of a rank-one matrix, two ways, on the extended reals.

  For a row `v` of `n` numbers let `M i j = v i * v j` (an outer product) and centre every row of `M` by its mean over
  `j`. The Gram matrix of the centred rows, divided by `D`, has the entry
  `(∑ j, (v i * v j - (∑ j', v i * v j') / N) * (v k * v j - (∑ j', v k * v j') / N)) / D`  (`gramEntry`).
  Because `M` has rank one, the centred row `i` is `v i` times the centred `v`, so the entry is
  `v i * v k * S / D` with `S = ∑ j, (v j - (∑ j', v j') / N)²`; and since `S / D ≥ 0` this is the product
  `w i * w k` of the scaled row `w i = v i * √(S * (1 / D))`  (`scaledRow`).
  The two agree whenever every `v j` is a real number (`scaled_mul_scaled_eq_gram`): distributing `v i` over the sum
  and cancelling are laws of the reals, not of the infinities.
-/
import Idealize.ShloMosaic.PureOps.Ideal

noncomputable section

namespace Cert.CovMA

open Idealize.ShloMosaic

/-- A finite sum of real numbers, summed in the extended reals, is the real sum. -/
theorem coe_sum {ι : Type} (s : Finset ι) (f : ι → ℝ) :
    (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

/-- The mean of a family over its channels: the sum divided by the channel count `Cc`. -/
def chanMean {C : ℕ} (Cc : EReal) (x : Fin C → EReal) : EReal := Ideal.div (∑ ch, x ch) Cc

/-- The sum of squared deviations of a row from its mean `(∑ v) / N`. -/
def sqDev {n : ℕ} (N : EReal) (v : Fin n → EReal) : EReal :=
  ∑ j, (v j - Ideal.div (∑ j', v j') N) * (v j - Ideal.div (∑ j', v j') N)

/-- The row scaled by the root of its squared deviation times `inv`. -/
def scaledRow {n : ℕ} (N inv : EReal) (v : Fin n → EReal) (i : Fin n) : EReal :=
  v i * Ideal.sqrt (sqDev N v * inv)

/-- An entry of the Gram matrix of the centred rows of the outer product of `v` with itself, over `D`; every sum over
    the columns starts from `z`. -/
def gramEntry {n : ℕ} (N D z : EReal) (v : Fin n → EReal) (i k : Fin n) : EReal :=
  Ideal.div (∑ j, (v i * v j - Ideal.div (z + ∑ j', v i * v j') N) * (v k * v j - Ideal.div (z + ∑ j', v k * v j') N)) D

/-- The identity over the reals: the rank-one structure pulls `v i * v k` out of the Gram sum, and the root of a
    non-negative number squares to it. -/
theorem real_identity {n : ℕ} (v : Fin n → ℝ) (N D : ℝ) (hD : 0 < D) (i k : Fin n) :
    v i * Real.sqrt ((∑ j, (v j - (∑ j', v j') * (1 / N)) * (v j - (∑ j', v j') * (1 / N))) * (1 / D))
      * (v k * Real.sqrt ((∑ j, (v j - (∑ j', v j') * (1 / N)) * (v j - (∑ j', v j') * (1 / N))) * (1 / D)))
    = (∑ j, (v i * v j - (∑ j', v i * v j') * (1 / N)) * (v k * v j - (∑ j', v k * v j') * (1 / N))) * (1 / D) := by
  have h1 : ∀ a : ℝ, (∑ j', a * v j') = a * ∑ j', v j' := fun a => (Finset.mul_sum _ _ _).symm
  rw [h1, h1]
  generalize (∑ j', v j') = T
  have hS : 0 ≤ (∑ j, (v j - T * (1 / N)) * (v j - T * (1 / N))) * (1 / D) :=
    mul_nonneg (Finset.sum_nonneg fun j _ => mul_self_nonneg _) (by positivity)
  have h2 : (∑ j, (v i * v j - v i * T * (1 / N)) * (v k * v j - v k * T * (1 / N)))
      = v i * v k * ∑ j, (v j - T * (1 / N)) * (v j - T * (1 / N)) := by
    rw [Finset.mul_sum]; exact Finset.sum_congr rfl fun j _ => by ring
  rw [h2]
  generalize hs : (∑ j, (v j - T * (1 / N)) * (v j - T * (1 / N))) * (1 / D) = s at hS
  calc v i * Real.sqrt s * (v k * Real.sqrt s) = v i * v k * (Real.sqrt s * Real.sqrt s) := by ring
    _ = v i * v k * s := by rw [Real.mul_self_sqrt hS]
    _ = _ := by rw [← hs]; ring

/-- On a row of real numbers the product of two entries of the scaled row is the Gram entry. -/
theorem scaled_mul_scaled_eq_gram {n : ℕ} (v : Fin n → ℝ) (N D : ℝ) (hN : N ≠ 0) (hD : 0 < D) (i k : Fin n) :
    scaledRow (N : EReal) ((1 / D : ℝ) : EReal) (fun j => (v j : EReal)) i
      * scaledRow (N : EReal) ((1 / D : ℝ) : EReal) (fun j => (v j : EReal)) k
    = gramEntry (N : EReal) (D : EReal) 0 (fun j => (v j : EReal)) i k := by
  have hS : ¬ (∑ j, (v j - (∑ j', v j') * (1 / N)) * (v j - (∑ j', v j') * (1 / N))) * (1 / D) < 0 :=
    not_lt.mpr (mul_nonneg (Finset.sum_nonneg fun j _ => mul_self_nonneg _) (by positivity))
  unfold scaledRow sqDev gramEntry
  simp only [zero_add, Ideal.div_coe hN, Ideal.div_coe hD.ne', ← EReal.coe_mul, ← EReal.coe_sub, coe_sum]
  rw [Ideal.sqrt_coe, if_neg hS]
  simp only [← EReal.coe_mul]
  exact congrArg _ (real_identity v N D hD i k)

end Cert.CovMA

end
-- ==== Proof.CovSpec.lean ====
/-
  What both programs compute, as functions of one input array `x` of shape `[32, C, H, W]`, index by index.

  Sample `b` of the input is `C` images of `H × W` pixels. Flatten each image to a row of `n = H * W` pixels
  (`pix`: pixel `j` sits at row `j / W`, column `j % W`) and average over the channels: a row `v` of `n` numbers per
  sample. The result at `(b, i, k)` is the covariance, over the observations `j`, of rows `i` and `k` of the outer
  product of `v` with itself.
  `covScaled` spells it as one program does — the product of two entries of the row scaled by the root of its
  squared deviation — and `covGram` as the other does — the Gram matrix of the centred rows over `n - 1`.
  On an input of real numbers they agree (`covScaled_eq_covGram`).
-/
import proofs.«119585_j64424509440533_1_alg».proof.Proof.CovAlgebra
import Idealize.ShloMosaic.Lib.ValueIdx

noncomputable section

namespace Cert.CovMA

open Idealize.ShloMosaic Idealize.ShloMosaic.ValueIdx

/-- Pixel `j` of the flattened image of channel `ch` of sample `b`, as an index of the `[32, C, H, W]` array. -/
def pix {C H W n : ℕ} (hn : n = H * W) (b : Fin 32) (ch : Fin C) (j : Fin n) : (⟨4, ![32, C, H, W]⟩ : Shape).Idx :=
  ix4 b ch
    ⟨j.val / W, Nat.div_lt_of_lt_mul (Nat.lt_of_lt_of_eq j.isLt (hn.trans (Nat.mul_comm H W)))⟩
    ⟨j.val % W, Nat.mod_lt _ (Nat.pos_of_ne_zero fun h =>
      Nat.not_lt_zero j.val (Nat.lt_of_lt_of_eq j.isLt (hn.trans (h ▸ Nat.mul_zero H))))⟩

/-- The channel mean of sample `b`, a row of `n` numbers: the sum over the channels divided by `Cc`. -/
def meanRow {C H W n : ℕ} (hn : n = H * W) (Cc : EReal) (x : (⟨4, ![32, C, H, W]⟩ : Shape).Idx → EReal) (b : Fin 32) :
    Fin n → EReal :=
  fun j => chanMean Cc (fun ch => x (pix hn b ch j))

/-- The same row with its sum over the channels started from `z`. -/
def meanRowFrom {C H W n : ℕ} (hn : n = H * W) (Cc z : EReal) (x : (⟨4, ![32, C, H, W]⟩ : Shape).Idx → EReal) (b : Fin 32) :
    Fin n → EReal :=
  fun j => Ideal.div (z + ∑ ch, x (pix hn b ch j)) Cc

/-- The result as a product of two entries of the scaled mean row. -/
def covScaled {C H W n : ℕ} (hn : n = H * W) (Cc N inv : EReal) (x : (⟨4, ![32, C, H, W]⟩ : Shape).Idx → EReal) :
    (⟨3, ![32, n, n]⟩ : Shape).Idx → EReal :=
  fun o => scaledRow N inv (meanRow hn Cc x ⟨(o 0).val, (o 0).isLt⟩) ⟨(o 1).val, (o 1).isLt⟩
    * scaledRow N inv (meanRow hn Cc x ⟨(o 0).val, (o 0).isLt⟩) ⟨(o 2).val, (o 2).isLt⟩

/-- The result as the Gram matrix of the centred rows of the outer product of the mean row with itself, over `D`. -/
def covGram {C H W n : ℕ} (hn : n = H * W) (Cc N D z : EReal) (x : (⟨4, ![32, C, H, W]⟩ : Shape).Idx → EReal) :
    (⟨3, ![32, n, n]⟩ : Shape).Idx → EReal :=
  fun o => gramEntry N D z (meanRowFrom hn Cc z x ⟨(o 0).val, (o 0).isLt⟩) ⟨(o 1).val, (o 1).isLt⟩ ⟨(o 2).val, (o 2).isLt⟩

/-- On an input of real numbers, with a non-zero channel count and row length and a positive divisor `D`, the
    scaled-row product is the Gram entry: every mean is then a real number, and the identity is one of the reals. -/
theorem covScaled_eq_covGram {C H W n : ℕ} (hn : n = H * W) (Cc N D : ℝ) (hC : Cc ≠ 0) (hN : N ≠ 0) (hD : 0 < D)
    (x : (⟨4, ![32, C, H, W]⟩ : Shape).Idx → EReal) (xr : (⟨4, ![32, C, H, W]⟩ : Shape).Idx → ℝ)
    (hx : x = fun i => (xr i : EReal)) :
    covScaled hn (Cc : EReal) (N : EReal) ((1 / D : ℝ) : EReal) x = covGram hn (Cc : EReal) (N : EReal) (D : EReal) 0 x := by
  subst hx
  funext o
  have h1 : ∀ b : Fin 32, meanRow hn (Cc : EReal) (fun i => (xr i : EReal)) b
      = fun j => (((∑ ch, xr (pix hn b ch j)) * (1 / Cc) : ℝ) : EReal) := fun b => by
    funext j
    unfold meanRow chanMean
    rw [Ideal.div_coe hC, coe_sum, ← EReal.coe_mul]
  have h2 : ∀ b : Fin 32, meanRowFrom hn (Cc : EReal) 0 (fun i => (xr i : EReal)) b
      = fun j => (((∑ ch, xr (pix hn b ch j)) * (1 / Cc) : ℝ) : EReal) := fun b => by
    funext j
    unfold meanRowFrom
    rw [zero_add, Ideal.div_coe hC, coe_sum, ← EReal.coe_mul]
  unfold covScaled covGram
  rw [h1, h2]
  exact scaled_mul_scaled_eq_gram _ N D hN hD _ _

end Cert.CovMA

end
-- ==== Proof.CovHost.lean ====
/-
  The host side of the kernel program, buffer by buffer.

  Between its eight launches the program runs only layout operations. Before each statistics launch it reshapes one
  argument `[32, C, H, W]` to `[32, C, n]`, `n = H * W`: entry `(b, ch, j)` is the argument's pixel `j` of channel `ch` of
  sample `b`, since both sit at flat position `(b * C + ch) * n + j`. Before each outer-product launch it broadcasts
  the statistics launch's `[32, n]` result to a column `[32, n, 1]` and to a row `[32, 1, n]`, each entry a copy of one
  entry of that result. Nothing else is written: an argument holds its launch contents throughout, and a result of an
  outer-product launch is still there at the end.
-/
import proofs.«119585_j64424509440533_1_alg».proof.Proof.Gen.KernelIdeal.Frame
import proofs.«119585_j64424509440533_1_alg».proof.Proof.CovSpec
import Idealize.ShloMosaic.Lib.Pipeline.Value
import Idealize.ShloMosaic.Lib.StableHlo.Run
import Idealize.ShloMosaic.Lib.ValueIdx

set_option maxRecDepth 16384

noncomputable section

namespace Cert.KernelIdeal.CovHost

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- A stretch of host operations leaves alone a buffer none of them writes: each operation's one written reference
    is told apart from the buffer's. -/
local macro "host_untouched" : tactic => `(tactic| (
  refine List.forall_iff_forall_mem.mp ?_
  simp only [hostOps0, hostOps1, hostOps2, hostOps3, hostOps4, hostOps5, hostOps6, hostOps7, List.Forall,
    StableHlo.unary_writes, StableHlo.reshape_writes, Finset.mem_singleton]
  repeat' apply And.intro
  all_goals exact StableHlo.devRef_ne_of_ne (by decide)))

/-- Launch 0 enters with the first argument reshaped to `[32, 64, 1024]`: entry `(b, ch, j)` is the argument's pixel `j`
    of channel `ch` of sample `b`, row `j / 32`, column `j % 32` (both have flat position `(b * 64 + ch) * 1024 + j`). -/
theorem entry0 (b : Fin 32) (ch : Fin 64) (j : Fin 1024) :
    (V1 m ρ c main_v0 : S32x64x1024.Idx → EReal) (ix3 b ch j)
      = (m ((c : Thread nD τ).loc main_arg0) : S32x64x32x32.Idx → EReal)
          (Cert.CovMA.pix (C := 64) (H := 32) (W := 32) (n := 1024) rfl b ch j) := by
  have e : (V1 m ρ c main_v0 : S32x64x1024.Idx → EReal)
      = shapeCast S32x64x1024 (m ((c : Thread nD τ).loc main_arg0) : S32x64x32x32.Idx → EReal)
          shapeCasts_S32x64x32x32_S32x64x1024 := by
    show StableHlo.after hostOps0 (W0 m ρ c) (Proc.devRef .tc main_v0) = _
    after_results
    rfl
  rw [e]
  refine (shapeCast_apply (m ((c : Thread nD τ).loc main_arg0) : S32x64x32x32.Idx → EReal) _ _
    (Cert.CovMA.pix (C := 64) (H := 32) (W := 32) (n := 1024) rfl b ch j) ?_)
  show (S32x64x32x32.rowMajor (Cert.CovMA.pix (C := 64) (H := 32) (W := 32) (n := 1024) rfl b ch j)).val
    = (S32x64x1024.rowMajor (ix3 b ch j)).val
  rw [Shape.rowMajor_val_four, Shape.rowMajor_val_three]
  have hb : b.val < 32 := b.isLt
  have hc : ch.val < 64 := ch.isLt
  have hj : j.val < 1024 := j.isLt
  show ((b.val * 64 + ch.val) * 32 + j.val / 32) * 32 + j.val % 32 = (b.val * 64 + ch.val) * 1024 + j.val
  omega

/-- Launch 1 enters with the row array of launch 0 broadcast to a column `[32, 1024, 1]`: entry `(b, i, 0)` is its entry `(b, i)`. -/
theorem entry1_col (b : Fin 32) (i : Fin 1024) (u : Fin 1) :
    (V3 m ρ c main_v2 : S32x1024x1.Idx → EReal) (ix3 b i u)
      = (W2 m ρ c (Proc.devRef .tc main_v1) : S32x1024.Idx → EReal) (ix2 b i) := by
  have e : (V3 m ρ c main_v2 : S32x1024x1.Idx → EReal)
      = broadcastInDim S32x1024x1 ![0, 1] bcast_S32x1024_S32x1024x1_0_1
          (W2 m ρ c (Proc.devRef .tc main_v1) : S32x1024.Idx → EReal) := by
    show StableHlo.after hostOps1 (W2 m ρ c) (Proc.devRef .tc main_v2) = _
    after_results
  rw [e]
  exact broadcastInDim_apply _ bcast_S32x1024_S32x1024x1_0_1 _ _ _ (fun a => match a with
    | ⟨0, _⟩ => by show b.val = if (32 : Nat) = 1 then 0 else b.val; rw [if_neg (by decide)]
    | ⟨1, _⟩ => by show i.val = if (1024 : Nat) = 1 then 0 else i.val; rw [if_neg (by decide)])

/-- … and to a row `[32, 1, 1024]`: entry `(b, 0, k)` is its entry `(b, k)`. -/
theorem entry1_row (b : Fin 32) (u : Fin 1) (k : Fin 1024) :
    (V3 m ρ c main_v3 : S32x1x1024.Idx → EReal) (ix3 b u k)
      = (W2 m ρ c (Proc.devRef .tc main_v1) : S32x1024.Idx → EReal) (ix2 b k) := by
  have e : (V3 m ρ c main_v3 : S32x1x1024.Idx → EReal)
      = broadcastInDim S32x1x1024 ![0, 2] bcast_S32x1024_S32x1x1024_0_2
          (W2 m ρ c (Proc.devRef .tc main_v1) : S32x1024.Idx → EReal) := by
    show StableHlo.after hostOps1 (W2 m ρ c) (Proc.devRef .tc main_v3) = _
    after_results
  rw [e]
  exact broadcastInDim_apply _ bcast_S32x1024_S32x1x1024_0_2 _ _ _ (fun a => match a with
    | ⟨0, _⟩ => by show b.val = if (32 : Nat) = 1 then 0 else b.val; rw [if_neg (by decide)]
    | ⟨1, _⟩ => by show k.val = if (1024 : Nat) = 1 then 0 else k.val; rw [if_neg (by decide)])

/-- The second argument still holds its launch contents when launch 2 is reached: no host operation and no
    earlier launch writes it. -/
theorem main_arg1_at_W4 : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) :=
          StableHlo.after_of_forall_not_mem (b := Proc.devRef .tc main_arg1) _ _ (by host_untouched)
    _ = W1 m ρ c (Proc.devRef .tc main_arg1) := W2_of_ne m ρ c main_arg1 (by decide)
    _ = W0 m ρ c (Proc.devRef .tc main_arg1) :=
          StableHlo.after_of_forall_not_mem (b := Proc.devRef .tc main_arg1) _ _ (by host_untouched)
    _ = m ((c : Thread nD τ).loc main_arg1) := rfl

/-- Launch 2 enters with the second argument reshaped to `[32, 128, 256]`: entry `(b, ch, j)` is the argument's pixel `j`
    of channel `ch` of sample `b`, row `j / 16`, column `j % 16` (both have flat position `(b * 128 + ch) * 256 + j`). -/
theorem entry2 (b : Fin 32) (ch : Fin 128) (j : Fin 256) :
    (V5 m ρ c main_v5 : S32x128x256.Idx → EReal) (ix3 b ch j)
      = (m ((c : Thread nD τ).loc main_arg1) : S32x128x16x16.Idx → EReal)
          (Cert.CovMA.pix (C := 128) (H := 16) (W := 16) (n := 256) rfl b ch j) := by
  have e : (V5 m ρ c main_v5 : S32x128x256.Idx → EReal)
      = shapeCast S32x128x256 (W4 m ρ c (Proc.devRef .tc main_arg1) : S32x128x16x16.Idx → EReal)
          shapeCasts_S32x128x16x16_S32x128x256 := by
    show StableHlo.after hostOps2 (W4 m ρ c) (Proc.devRef .tc main_v5) = _
    after_results
    rfl
  rw [e]
  refine (shapeCast_apply (W4 m ρ c (Proc.devRef .tc main_arg1) : S32x128x16x16.Idx → EReal) _ _
    (Cert.CovMA.pix (C := 128) (H := 16) (W := 16) (n := 256) rfl b ch j) ?_).trans
      (congrFun (main_arg1_at_W4 m ρ c) _)
  show (S32x128x16x16.rowMajor (Cert.CovMA.pix (C := 128) (H := 16) (W := 16) (n := 256) rfl b ch j)).val
    = (S32x128x256.rowMajor (ix3 b ch j)).val
  rw [Shape.rowMajor_val_four, Shape.rowMajor_val_three]
  have hb : b.val < 32 := b.isLt
  have hc : ch.val < 128 := ch.isLt
  have hj : j.val < 256 := j.isLt
  show ((b.val * 128 + ch.val) * 16 + j.val / 16) * 16 + j.val % 16 = (b.val * 128 + ch.val) * 256 + j.val
  omega

/-- Launch 3 enters with the row array of launch 2 broadcast to a column `[32, 256, 1]`: entry `(b, i, 0)` is its entry `(b, i)`. -/
theorem entry3_col (b : Fin 32) (i : Fin 256) (u : Fin 1) :
    (V7 m ρ c main_v7 : S32x256x1.Idx → EReal) (ix3 b i u)
      = (W6 m ρ c (Proc.devRef .tc main_v6) : S32x256.Idx → EReal) (ix2 b i) := by
  have e : (V7 m ρ c main_v7 : S32x256x1.Idx → EReal)
      = broadcastInDim S32x256x1 ![0, 1] bcast_S32x256_S32x256x1_0_1
          (W6 m ρ c (Proc.devRef .tc main_v6) : S32x256.Idx → EReal) := by
    show StableHlo.after hostOps3 (W6 m ρ c) (Proc.devRef .tc main_v7) = _
    after_results
  rw [e]
  exact broadcastInDim_apply _ bcast_S32x256_S32x256x1_0_1 _ _ _ (fun a => match a with
    | ⟨0, _⟩ => by show b.val = if (32 : Nat) = 1 then 0 else b.val; rw [if_neg (by decide)]
    | ⟨1, _⟩ => by show i.val = if (256 : Nat) = 1 then 0 else i.val; rw [if_neg (by decide)])

/-- … and to a row `[32, 1, 256]`: entry `(b, 0, k)` is its entry `(b, k)`. -/
theorem entry3_row (b : Fin 32) (u : Fin 1) (k : Fin 256) :
    (V7 m ρ c main_v8 : S32x1x256.Idx → EReal) (ix3 b u k)
      = (W6 m ρ c (Proc.devRef .tc main_v6) : S32x256.Idx → EReal) (ix2 b k) := by
  have e : (V7 m ρ c main_v8 : S32x1x256.Idx → EReal)
      = broadcastInDim S32x1x256 ![0, 2] bcast_S32x256_S32x1x256_0_2
          (W6 m ρ c (Proc.devRef .tc main_v6) : S32x256.Idx → EReal) := by
    show StableHlo.after hostOps3 (W6 m ρ c) (Proc.devRef .tc main_v8) = _
    after_results
  rw [e]
  exact broadcastInDim_apply _ bcast_S32x256_S32x1x256_0_2 _ _ _ (fun a => match a with
    | ⟨0, _⟩ => by show b.val = if (32 : Nat) = 1 then 0 else b.val; rw [if_neg (by decide)]
    | ⟨1, _⟩ => by show k.val = if (256 : Nat) = 1 then 0 else k.val; rw [if_neg (by decide)])

/-- The third argument still holds its launch contents when launch 4 is reached: no host operation and no
    earlier launch writes it. -/
theorem main_arg2_at_W8 : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) :=
          StableHlo.after_of_forall_not_mem (b := Proc.devRef .tc main_arg2) _ _ (by host_untouched)
    _ = W5 m ρ c (Proc.devRef .tc main_arg2) := W6_of_ne m ρ c main_arg2 (by decide)
    _ = W4 m ρ c (Proc.devRef .tc main_arg2) :=
          StableHlo.after_of_forall_not_mem (b := Proc.devRef .tc main_arg2) _ _ (by host_untouched)
    _ = W3 m ρ c (Proc.devRef .tc main_arg2) := W4_of_ne m ρ c main_arg2 (by decide)
    _ = W2 m ρ c (Proc.devRef .tc main_arg2) :=
          StableHlo.after_of_forall_not_mem (b := Proc.devRef .tc main_arg2) _ _ (by host_untouched)
    _ = W1 m ρ c (Proc.devRef .tc main_arg2) := W2_of_ne m ρ c main_arg2 (by decide)
    _ = W0 m ρ c (Proc.devRef .tc main_arg2) :=
          StableHlo.after_of_forall_not_mem (b := Proc.devRef .tc main_arg2) _ _ (by host_untouched)
    _ = m ((c : Thread nD τ).loc main_arg2) := rfl

/-- Launch 4 enters with the third argument reshaped to `[32, 32, 1024]`: entry `(b, ch, j)` is the argument's pixel `j`
    of channel `ch` of sample `b`, row `j / 32`, column `j % 32` (both have flat position `(b * 32 + ch) * 1024 + j`). -/
theorem entry4 (b : Fin 32) (ch : Fin 32) (j : Fin 1024) :
    (V9 m ρ c main_v10 : S32x32x1024.Idx → EReal) (ix3 b ch j)
      = (m ((c : Thread nD τ).loc main_arg2) : S32x32x32x32.Idx → EReal)
          (Cert.CovMA.pix (C := 32) (H := 32) (W := 32) (n := 1024) rfl b ch j) := by
  have e : (V9 m ρ c main_v10 : S32x32x1024.Idx → EReal)
      = shapeCast S32x32x1024 (W8 m ρ c (Proc.devRef .tc main_arg2) : S32x32x32x32.Idx → EReal)
          shapeCasts_S32x32x32x32_S32x32x1024 := by
    show StableHlo.after hostOps4 (W8 m ρ c) (Proc.devRef .tc main_v10) = _
    after_results
    rfl
  rw [e]
  refine (shapeCast_apply (W8 m ρ c (Proc.devRef .tc main_arg2) : S32x32x32x32.Idx → EReal) _ _
    (Cert.CovMA.pix (C := 32) (H := 32) (W := 32) (n := 1024) rfl b ch j) ?_).trans
      (congrFun (main_arg2_at_W8 m ρ c) _)
  show (S32x32x32x32.rowMajor (Cert.CovMA.pix (C := 32) (H := 32) (W := 32) (n := 1024) rfl b ch j)).val
    = (S32x32x1024.rowMajor (ix3 b ch j)).val
  rw [Shape.rowMajor_val_four, Shape.rowMajor_val_three]
  have hb : b.val < 32 := b.isLt
  have hc : ch.val < 32 := ch.isLt
  have hj : j.val < 1024 := j.isLt
  show ((b.val * 32 + ch.val) * 32 + j.val / 32) * 32 + j.val % 32 = (b.val * 32 + ch.val) * 1024 + j.val
  omega

/-- Launch 5 enters with the row array of launch 4 broadcast to a column `[32, 1024, 1]`: entry `(b, i, 0)` is its entry `(b, i)`. -/
theorem entry5_col (b : Fin 32) (i : Fin 1024) (u : Fin 1) :
    (V11 m ρ c main_v12 : S32x1024x1.Idx → EReal) (ix3 b i u)
      = (W10 m ρ c (Proc.devRef .tc main_v11) : S32x1024.Idx → EReal) (ix2 b i) := by
  have e : (V11 m ρ c main_v12 : S32x1024x1.Idx → EReal)
      = broadcastInDim S32x1024x1 ![0, 1] bcast_S32x1024_S32x1024x1_0_1
          (W10 m ρ c (Proc.devRef .tc main_v11) : S32x1024.Idx → EReal) := by
    show StableHlo.after hostOps5 (W10 m ρ c) (Proc.devRef .tc main_v12) = _
    after_results
  rw [e]
  exact broadcastInDim_apply _ bcast_S32x1024_S32x1024x1_0_1 _ _ _ (fun a => match a with
    | ⟨0, _⟩ => by show b.val = if (32 : Nat) = 1 then 0 else b.val; rw [if_neg (by decide)]
    | ⟨1, _⟩ => by show i.val = if (1024 : Nat) = 1 then 0 else i.val; rw [if_neg (by decide)])

/-- … and to a row `[32, 1, 1024]`: entry `(b, 0, k)` is its entry `(b, k)`. -/
theorem entry5_row (b : Fin 32) (u : Fin 1) (k : Fin 1024) :
    (V11 m ρ c main_v13 : S32x1x1024.Idx → EReal) (ix3 b u k)
      = (W10 m ρ c (Proc.devRef .tc main_v11) : S32x1024.Idx → EReal) (ix2 b k) := by
  have e : (V11 m ρ c main_v13 : S32x1x1024.Idx → EReal)
      = broadcastInDim S32x1x1024 ![0, 2] bcast_S32x1024_S32x1x1024_0_2
          (W10 m ρ c (Proc.devRef .tc main_v11) : S32x1024.Idx → EReal) := by
    show StableHlo.after hostOps5 (W10 m ρ c) (Proc.devRef .tc main_v13) = _
    after_results
  rw [e]
  exact broadcastInDim_apply _ bcast_S32x1024_S32x1x1024_0_2 _ _ _ (fun a => match a with
    | ⟨0, _⟩ => by show b.val = if (32 : Nat) = 1 then 0 else b.val; rw [if_neg (by decide)]
    | ⟨1, _⟩ => by show k.val = if (1024 : Nat) = 1 then 0 else k.val; rw [if_neg (by decide)])

/-- The fourth argument still holds its launch contents when launch 6 is reached: no host operation and no
    earlier launch writes it. -/
theorem main_arg3_at_W12 : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) :=
          StableHlo.after_of_forall_not_mem (b := Proc.devRef .tc main_arg3) _ _ (by host_untouched)
    _ = W9 m ρ c (Proc.devRef .tc main_arg3) := W10_of_ne m ρ c main_arg3 (by decide)
    _ = W8 m ρ c (Proc.devRef .tc main_arg3) :=
          StableHlo.after_of_forall_not_mem (b := Proc.devRef .tc main_arg3) _ _ (by host_untouched)
    _ = W7 m ρ c (Proc.devRef .tc main_arg3) := W8_of_ne m ρ c main_arg3 (by decide)
    _ = W6 m ρ c (Proc.devRef .tc main_arg3) :=
          StableHlo.after_of_forall_not_mem (b := Proc.devRef .tc main_arg3) _ _ (by host_untouched)
    _ = W5 m ρ c (Proc.devRef .tc main_arg3) := W6_of_ne m ρ c main_arg3 (by decide)
    _ = W4 m ρ c (Proc.devRef .tc main_arg3) :=
          StableHlo.after_of_forall_not_mem (b := Proc.devRef .tc main_arg3) _ _ (by host_untouched)
    _ = W3 m ρ c (Proc.devRef .tc main_arg3) := W4_of_ne m ρ c main_arg3 (by decide)
    _ = W2 m ρ c (Proc.devRef .tc main_arg3) :=
          StableHlo.after_of_forall_not_mem (b := Proc.devRef .tc main_arg3) _ _ (by host_untouched)
    _ = W1 m ρ c (Proc.devRef .tc main_arg3) := W2_of_ne m ρ c main_arg3 (by decide)
    _ = W0 m ρ c (Proc.devRef .tc main_arg3) :=
          StableHlo.after_of_forall_not_mem (b := Proc.devRef .tc main_arg3) _ _ (by host_untouched)
    _ = m ((c : Thread nD τ).loc main_arg3) := rfl

/-- Launch 6 enters with the fourth argument reshaped to `[32, 64, 256]`: entry `(b, ch, j)` is the argument's pixel `j`
    of channel `ch` of sample `b`, row `j / 16`, column `j % 16` (both have flat position `(b * 64 + ch) * 256 + j`). -/
theorem entry6 (b : Fin 32) (ch : Fin 64) (j : Fin 256) :
    (V13 m ρ c main_v15 : S32x64x256.Idx → EReal) (ix3 b ch j)
      = (m ((c : Thread nD τ).loc main_arg3) : S32x64x16x16.Idx → EReal)
          (Cert.CovMA.pix (C := 64) (H := 16) (W := 16) (n := 256) rfl b ch j) := by
  have e : (V13 m ρ c main_v15 : S32x64x256.Idx → EReal)
      = shapeCast S32x64x256 (W12 m ρ c (Proc.devRef .tc main_arg3) : S32x64x16x16.Idx → EReal)
          shapeCasts_S32x64x16x16_S32x64x256 := by
    show StableHlo.after hostOps6 (W12 m ρ c) (Proc.devRef .tc main_v15) = _
    after_results
    rfl
  rw [e]
  refine (shapeCast_apply (W12 m ρ c (Proc.devRef .tc main_arg3) : S32x64x16x16.Idx → EReal) _ _
    (Cert.CovMA.pix (C := 64) (H := 16) (W := 16) (n := 256) rfl b ch j) ?_).trans
      (congrFun (main_arg3_at_W12 m ρ c) _)
  show (S32x64x16x16.rowMajor (Cert.CovMA.pix (C := 64) (H := 16) (W := 16) (n := 256) rfl b ch j)).val
    = (S32x64x256.rowMajor (ix3 b ch j)).val
  rw [Shape.rowMajor_val_four, Shape.rowMajor_val_three]
  have hb : b.val < 32 := b.isLt
  have hc : ch.val < 64 := ch.isLt
  have hj : j.val < 256 := j.isLt
  show ((b.val * 64 + ch.val) * 16 + j.val / 16) * 16 + j.val % 16 = (b.val * 64 + ch.val) * 256 + j.val
  omega

/-- Launch 7 enters with the row array of launch 6 broadcast to a column `[32, 256, 1]`: entry `(b, i, 0)` is its entry `(b, i)`. -/
theorem entry7_col (b : Fin 32) (i : Fin 256) (u : Fin 1) :
    (V15 m ρ c main_v17 : S32x256x1.Idx → EReal) (ix3 b i u)
      = (W14 m ρ c (Proc.devRef .tc main_v16) : S32x256.Idx → EReal) (ix2 b i) := by
  have e : (V15 m ρ c main_v17 : S32x256x1.Idx → EReal)
      = broadcastInDim S32x256x1 ![0, 1] bcast_S32x256_S32x256x1_0_1
          (W14 m ρ c (Proc.devRef .tc main_v16) : S32x256.Idx → EReal) := by
    show StableHlo.after hostOps7 (W14 m ρ c) (Proc.devRef .tc main_v17) = _
    after_results
  rw [e]
  exact broadcastInDim_apply _ bcast_S32x256_S32x256x1_0_1 _ _ _ (fun a => match a with
    | ⟨0, _⟩ => by show b.val = if (32 : Nat) = 1 then 0 else b.val; rw [if_neg (by decide)]
    | ⟨1, _⟩ => by show i.val = if (256 : Nat) = 1 then 0 else i.val; rw [if_neg (by decide)])

/-- … and to a row `[32, 1, 256]`: entry `(b, 0, k)` is its entry `(b, k)`. -/
theorem entry7_row (b : Fin 32) (u : Fin 1) (k : Fin 256) :
    (V15 m ρ c main_v18 : S32x1x256.Idx → EReal) (ix3 b u k)
      = (W14 m ρ c (Proc.devRef .tc main_v16) : S32x256.Idx → EReal) (ix2 b k) := by
  have e : (V15 m ρ c main_v18 : S32x1x256.Idx → EReal)
      = broadcastInDim S32x1x256 ![0, 2] bcast_S32x256_S32x1x256_0_2
          (W14 m ρ c (Proc.devRef .tc main_v16) : S32x256.Idx → EReal) := by
    show StableHlo.after hostOps7 (W14 m ρ c) (Proc.devRef .tc main_v18) = _
    after_results
  rw [e]
  exact broadcastInDim_apply _ bcast_S32x256_S32x1x256_0_2 _ _ _ (fun a => match a with
    | ⟨0, _⟩ => by show b.val = if (32 : Nat) = 1 then 0 else b.val; rw [if_neg (by decide)]
    | ⟨1, _⟩ => by show k.val = if (256 : Nat) = 1 then 0 else k.val; rw [if_neg (by decide)])

/-- The first result is at the end what launch 1 left: no later host operation and no later launch writes it. -/
theorem back_v4 : W16 m ρ c (Proc.devRef .tc main_v4) = W4 m ρ c (Proc.devRef .tc main_v4) :=
  calc W16 m ρ c (Proc.devRef .tc main_v4)
    _ = W15 m ρ c (Proc.devRef .tc main_v4) := W16_of_ne m ρ c main_v4 (by decide)
    _ = W14 m ρ c (Proc.devRef .tc main_v4) :=
          StableHlo.after_of_forall_not_mem (b := Proc.devRef .tc main_v4) _ _ (by host_untouched)
    _ = W13 m ρ c (Proc.devRef .tc main_v4) := W14_of_ne m ρ c main_v4 (by decide)
    _ = W12 m ρ c (Proc.devRef .tc main_v4) :=
          StableHlo.after_of_forall_not_mem (b := Proc.devRef .tc main_v4) _ _ (by host_untouched)
    _ = W11 m ρ c (Proc.devRef .tc main_v4) := W12_of_ne m ρ c main_v4 (by decide)
    _ = W10 m ρ c (Proc.devRef .tc main_v4) :=
          StableHlo.after_of_forall_not_mem (b := Proc.devRef .tc main_v4) _ _ (by host_untouched)
    _ = W9 m ρ c (Proc.devRef .tc main_v4) := W10_of_ne m ρ c main_v4 (by decide)
    _ = W8 m ρ c (Proc.devRef .tc main_v4) :=
          StableHlo.after_of_forall_not_mem (b := Proc.devRef .tc main_v4) _ _ (by host_untouched)
    _ = W7 m ρ c (Proc.devRef .tc main_v4) := W8_of_ne m ρ c main_v4 (by decide)
    _ = W6 m ρ c (Proc.devRef .tc main_v4) :=
          StableHlo.after_of_forall_not_mem (b := Proc.devRef .tc main_v4) _ _ (by host_untouched)
    _ = W5 m ρ c (Proc.devRef .tc main_v4) := W6_of_ne m ρ c main_v4 (by decide)
    _ = W4 m ρ c (Proc.devRef .tc main_v4) :=
          StableHlo.after_of_forall_not_mem (b := Proc.devRef .tc main_v4) _ _ (by host_untouched)

/-- The second result is at the end what launch 3 left: no later host operation and no later launch writes it. -/
theorem back_v9 : W16 m ρ c (Proc.devRef .tc main_v9) = W8 m ρ c (Proc.devRef .tc main_v9) :=
  calc W16 m ρ c (Proc.devRef .tc main_v9)
    _ = W15 m ρ c (Proc.devRef .tc main_v9) := W16_of_ne m ρ c main_v9 (by decide)
    _ = W14 m ρ c (Proc.devRef .tc main_v9) :=
          StableHlo.after_of_forall_not_mem (b := Proc.devRef .tc main_v9) _ _ (by host_untouched)
    _ = W13 m ρ c (Proc.devRef .tc main_v9) := W14_of_ne m ρ c main_v9 (by decide)
    _ = W12 m ρ c (Proc.devRef .tc main_v9) :=
          StableHlo.after_of_forall_not_mem (b := Proc.devRef .tc main_v9) _ _ (by host_untouched)
    _ = W11 m ρ c (Proc.devRef .tc main_v9) := W12_of_ne m ρ c main_v9 (by decide)
    _ = W10 m ρ c (Proc.devRef .tc main_v9) :=
          StableHlo.after_of_forall_not_mem (b := Proc.devRef .tc main_v9) _ _ (by host_untouched)
    _ = W9 m ρ c (Proc.devRef .tc main_v9) := W10_of_ne m ρ c main_v9 (by decide)
    _ = W8 m ρ c (Proc.devRef .tc main_v9) :=
          StableHlo.after_of_forall_not_mem (b := Proc.devRef .tc main_v9) _ _ (by host_untouched)

/-- The third result is at the end what launch 5 left: no later host operation and no later launch writes it. -/
theorem back_v14 : W16 m ρ c (Proc.devRef .tc main_v14) = W12 m ρ c (Proc.devRef .tc main_v14) :=
  calc W16 m ρ c (Proc.devRef .tc main_v14)
    _ = W15 m ρ c (Proc.devRef .tc main_v14) := W16_of_ne m ρ c main_v14 (by decide)
    _ = W14 m ρ c (Proc.devRef .tc main_v14) :=
          StableHlo.after_of_forall_not_mem (b := Proc.devRef .tc main_v14) _ _ (by host_untouched)
    _ = W13 m ρ c (Proc.devRef .tc main_v14) := W14_of_ne m ρ c main_v14 (by decide)
    _ = W12 m ρ c (Proc.devRef .tc main_v14) :=
          StableHlo.after_of_forall_not_mem (b := Proc.devRef .tc main_v14) _ _ (by host_untouched)

end Cert.KernelIdeal.CovHost

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.CovBodies.lean ====
/-
  The two kernel bodies as functions of their loaded blocks, read at an index, for any channel count `C` and row
  length `n`.

  The statistics body takes a block of 8 samples, `[8, C, n]`: it sums over the channels and divides by the channel
  count (the mean row `v` of each sample), subtracts from `v` its own mean, sums the squares, multiplies by `inv`,
  takes the root, and scales `v` by it: entry `(p, j)` of its result is `scaledRow` of sample `p`'s mean row at `j`.
  The outer-product body takes a column `[1, n, 1]` and a row `[1, 1, n]` and multiplies them entry by entry after
  repeating the column along the rows and the row along the columns: entry `(0, i, k)` is column `i` times row `k`.
-/
import proofs.«119585_j64424509440533_1_alg».proof.Proof.CovAlgebra
import proofs.«119585_j64424509440533_1_alg».proof.Proof.LibKeepdims
import proofs.«119585_j64424509440533_1_alg».proof.Proof.LibColumnBroadcast
import Idealize.ShloMosaic.Lib.Pipeline.Value
import Idealize.ShloMosaic.Lib.ValueIdx
import Idealize.ShloMosaic.PureOps.Ideal.Laws

noncomputable section

namespace Cert.CovMA

open Idealize.ShloMosaic Idealize.ShloMosaic.ValueIdx Cert.MemAttn.Layout Cert.WeightUpdate.Layout

variable {α : Type}

/-- Entry `(p, j)` with the channel coordinate `k` put back in the middle is the index `(p, k, j)`. -/
theorem lift_mid {a c n : ℕ} (h : (⟨3, ![a, c, n]⟩ : Shape).Reduces [1] (⟨2, ![a, n]⟩ : Shape)) (p : Fin a) (j : Fin n)
    (k : Fin ((⟨3, ![a, c, n]⟩ : Shape).size 1)) : h.lift (ix2 p j) k = ix3 p (⟨k.val, k.isLt⟩ : Fin c) j := by
  funext d; apply Fin.ext
  fin_cases d <;> rfl

/-- A sum over the middle axis of an `[a, c, n]` array of extended reals, read at `(p, j)`: the sum over the channels. -/
theorem multiReduction_add_mid {a c n : ℕ} {φ : FTy} (src : FVec Ideal ⟨3, ![a, c, n]⟩ φ) (acc : BitVec φ.bits)
    (h : (⟨3, ![a, c, n]⟩ : Shape).Reduces [1] (⟨2, ![a, n]⟩ : Shape)) (hφ : FKind.Formats φ)
    (hacc : acc = FKind.add.neutral φ hφ) (p : Fin a) (j : Fin n) :
    multiReduction .add [1] ⟨2, ![a, n]⟩ src acc h hφ hacc (ix2 p j) = ∑ ch : Fin c, src (ix3 p ch j) :=
  (Ideal.multiReduction_add_single src acc h hφ hacc (ix2 p j)).trans
    (Finset.sum_congr rfl fun k _ => congrArg src (lift_mid h p j k))

/-- A column `[1, n, 1]` repeated along a new last axis: entry `(u, i, k)` is the column's entry `i`. -/
theorem broadcastTo_col3 {n n2 : ℕ} (v : (⟨3, ![1, n, 1]⟩ : Shape).Idx → α)
    (h : (⟨3, ![1, n, 1]⟩ : Shape).Broadcasts ⟨3, ![1, n, n2]⟩) (u : Fin 1) (i : Fin n) (k : Fin n2) :
    broadcastTo ⟨3, ![1, n, n2]⟩ v h (ix3 u i k) = v (ix3 (0 : Fin 1) i (0 : Fin 1)) := by
  refine broadcastTo_apply v h (ix3 u i k) (ix3 (0 : Fin 1) i (0 : Fin 1)) fun ax => ?_
  match ax with
  | ⟨0, _⟩ => rfl
  | ⟨1, _⟩ =>
    show i.val = if n = 1 then 0 else i.val
    split
    · have := i.isLt; omega
    · rfl
  | ⟨2, _⟩ => rfl

/-- A row `[1, 1, n]` repeated along the middle axis: entry `(u, i, k)` is the row's entry `k`. -/
theorem broadcastTo_row3 {n n2 : ℕ} (v : (⟨3, ![1, 1, n]⟩ : Shape).Idx → α)
    (h : (⟨3, ![1, 1, n]⟩ : Shape).Broadcasts ⟨3, ![1, n2, n]⟩) (u : Fin 1) (i : Fin n2) (k : Fin n) :
    broadcastTo ⟨3, ![1, n2, n]⟩ v h (ix3 u i k) = v (ix3 (0 : Fin 1) (0 : Fin 1) k) := by
  refine broadcastTo_apply v h (ix3 u i k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- The channel mean of a block `[8, C, n]`: the sum over the channels over the channel count, `[8, n]`. -/
def meanBody {C n : ℕ}
    (h0 : (⟨3, ![8, C, n]⟩ : Shape).ShapeCasts ⟨3, ![8, C, n]⟩)
    (h1 : (⟨3, ![8, C, n]⟩ : Shape).Reduces [1] (⟨2, ![8, n]⟩ : Shape))
    (cC : Ideal .f32) (v0 : FVec Ideal ⟨3, ![8, C, n]⟩ .f32) : FVec Ideal ⟨2, ![8, n]⟩ .f32 :=
  divf (multiReduction .add [1] ⟨2, ![8, n]⟩ (shapeCast ⟨3, ![8, C, n]⟩ v0 h0) 0x00000000#32 h1 (.inl rfl) rfl)
    (broadcast ⟨2, ![8, n]⟩ cC)

theorem meanBody_apply {C n : ℕ}
    (h0 : (⟨3, ![8, C, n]⟩ : Shape).ShapeCasts ⟨3, ![8, C, n]⟩)
    (h1 : (⟨3, ![8, C, n]⟩ : Shape).Reduces [1] (⟨2, ![8, n]⟩ : Shape))
    (cC : Ideal .f32) (v0 : FVec Ideal ⟨3, ![8, C, n]⟩ .f32) (p : Fin 8) (j : Fin n) :
    meanBody h0 h1 cC v0 (ix2 p j) = chanMean cC (fun ch => v0 (ix3 p ch j)) := by
  unfold meanBody chanMean
  rw [shapeCast_self]
  exact congrArg (fun s => Ideal.div s cC) (multiReduction_add_mid v0 _ h1 _ _ p j)

/-- The mean of every row of an `[8, n]` array, kept as a column `[8, 1]`: the row's sum over `cN`. -/
def rowMeanCol {n : ℕ}
    (h2 : (⟨2, ![8, n]⟩ : Shape).Reduces [1] (⟨1, ![8]⟩ : Shape))
    (h3 : (⟨1, ![8]⟩ : Shape).ShapeCasts ⟨2, ![8, 1]⟩)
    (cN : Ideal .f32) (v4 : FVec Ideal ⟨2, ![8, n]⟩ .f32) : FVec Ideal ⟨2, ![8, 1]⟩ .f32 :=
  divf (shapeCast ⟨2, ![8, 1]⟩ (multiReduction .add [1] ⟨1, ![8]⟩ v4 0x00000000#32 h2 (.inl rfl) rfl) h3)
    (broadcast ⟨2, ![8, 1]⟩ cN)

theorem rowMeanCol_apply {n : ℕ}
    (h2 : (⟨2, ![8, n]⟩ : Shape).Reduces [1] (⟨1, ![8]⟩ : Shape))
    (h3 : (⟨1, ![8]⟩ : Shape).ShapeCasts ⟨2, ![8, 1]⟩)
    (cN : Ideal .f32) (v4 : FVec Ideal ⟨2, ![8, n]⟩ .f32) (p : Fin 8) (u : Fin 1) :
    rowMeanCol h2 h3 cN v4 (ix2 p u) = Ideal.div (∑ j : Fin n, v4 (ix2 p j)) cN := by
  unfold rowMeanCol
  show Ideal.div (shapeCast ⟨2, ![8, 1]⟩ _ h3 (ix2 p u)) cN = _
  rw [shapeCast_a_a1_apply]
  exact congrArg (fun s => Ideal.div s cN) (multiReduction_add_row v4 _ h2 _ _ p)

/-- The sum of the squares of every row of an `[8, n]` array, kept as a column `[8, 1]`. -/
def sqSumCol {n : ℕ}
    (h2 : (⟨2, ![8, n]⟩ : Shape).Reduces [1] (⟨1, ![8]⟩ : Shape))
    (h3 : (⟨1, ![8]⟩ : Shape).ShapeCasts ⟨2, ![8, 1]⟩)
    (v10 : FVec Ideal ⟨2, ![8, n]⟩ .f32) : FVec Ideal ⟨2, ![8, 1]⟩ .f32 :=
  shapeCast ⟨2, ![8, 1]⟩ (multiReduction .add [1] ⟨1, ![8]⟩ (mulf v10 v10) 0x00000000#32 h2 (.inl rfl) rfl) h3

theorem sqSumCol_apply {n : ℕ}
    (h2 : (⟨2, ![8, n]⟩ : Shape).Reduces [1] (⟨1, ![8]⟩ : Shape))
    (h3 : (⟨1, ![8]⟩ : Shape).ShapeCasts ⟨2, ![8, 1]⟩)
    (v10 : FVec Ideal ⟨2, ![8, n]⟩ .f32) (p : Fin 8) (u : Fin 1) :
    sqSumCol h2 h3 v10 (ix2 p u) = ∑ j : Fin n, v10 (ix2 p j) * v10 (ix2 p j) := by
  unfold sqSumCol
  rw [shapeCast_a_a1_apply]
  exact multiReduction_add_row (mulf v10 v10) _ h2 _ _ p

/-- The statistics body: from a block `[8, C, n]` to the scaled mean rows `[8, n]`. -/
def statsBody {C n : ℕ}
    (h0 : (⟨3, ![8, C, n]⟩ : Shape).ShapeCasts ⟨3, ![8, C, n]⟩)
    (h1 : (⟨3, ![8, C, n]⟩ : Shape).Reduces [1] (⟨2, ![8, n]⟩ : Shape))
    (h2 : (⟨2, ![8, n]⟩ : Shape).Reduces [1] (⟨1, ![8]⟩ : Shape))
    (h3 : (⟨1, ![8]⟩ : Shape).ShapeCasts ⟨2, ![8, 1]⟩)
    (h4 : (⟨2, ![8, 1]⟩ : Shape).Broadcasts ⟨2, ![8, n]⟩)
    (cC cN cInv : Ideal .f32) (v0 : FVec Ideal ⟨3, ![8, C, n]⟩ .f32) : FVec Ideal ⟨2, ![8, n]⟩ .f32 :=
  mulf (meanBody h0 h1 cC v0)
    (broadcastTo ⟨2, ![8, n]⟩
      (sqrt (mulf
        (sqSumCol h2 h3 (subf (meanBody h0 h1 cC v0) (broadcastTo ⟨2, ![8, n]⟩ (rowMeanCol h2 h3 cN (meanBody h0 h1 cC v0)) h4)))
        (broadcast ⟨2, ![8, 1]⟩ cInv)))
      h4)

/-- Entry `(p, j)` of the statistics body: the scaled mean row of sample `p` at `j`. -/
theorem statsBody_apply {C n : ℕ}
    (h0 : (⟨3, ![8, C, n]⟩ : Shape).ShapeCasts ⟨3, ![8, C, n]⟩)
    (h1 : (⟨3, ![8, C, n]⟩ : Shape).Reduces [1] (⟨2, ![8, n]⟩ : Shape))
    (h2 : (⟨2, ![8, n]⟩ : Shape).Reduces [1] (⟨1, ![8]⟩ : Shape))
    (h3 : (⟨1, ![8]⟩ : Shape).ShapeCasts ⟨2, ![8, 1]⟩)
    (h4 : (⟨2, ![8, 1]⟩ : Shape).Broadcasts ⟨2, ![8, n]⟩)
    (cC cN cInv : Ideal .f32) (v0 : FVec Ideal ⟨3, ![8, C, n]⟩ .f32) (p : Fin 8) (j : Fin n) :
    statsBody h0 h1 h2 h3 h4 cC cN cInv v0 (ix2 p j)
      = scaledRow cN cInv (fun j' => chanMean cC (fun ch => v0 (ix3 p ch j'))) j := by
  have hm : ∀ j' : Fin n, chanMean cC (fun ch => v0 (ix3 p ch j')) = meanBody h0 h1 cC v0 (ix2 p j') :=
    fun j' => (meanBody_apply h0 h1 cC v0 p j').symm
  unfold statsBody scaledRow sqDev
  simp only [hm]
  generalize meanBody h0 h1 cC v0 = v4
  show v4 (ix2 p j) * broadcastTo ⟨2, ![8, n]⟩ _ h4 (ix2 p j) = _
  rw [broadcastTo_a1_ab_apply]
  show v4 (ix2 p j) * Ideal.sqrt (sqSumCol h2 h3 _ (ix2 p (0 : Fin 1)) * cInv) = _
  rw [sqSumCol_apply]
  refine congrArg (fun s => v4 (ix2 p j) * Ideal.sqrt (s * cInv)) (Finset.sum_congr rfl fun k _ => ?_)
  have hk : subf v4 (broadcastTo ⟨2, ![8, n]⟩ (rowMeanCol h2 h3 cN v4) h4) (ix2 p k)
      = v4 (ix2 p k) - Ideal.div (∑ j' : Fin n, v4 (ix2 p j')) cN := by
    show v4 (ix2 p k) - broadcastTo ⟨2, ![8, n]⟩ _ h4 (ix2 p k) = _
    rw [broadcastTo_a1_ab_apply, rowMeanCol_apply]
  rw [hk]

/-- The outer-product body: a column `[1, n, 1]` times a row `[1, 1, n]`, entry by entry. -/
def outerBody {n : ℕ}
    (h0 : (⟨3, ![1, n, 1]⟩ : Shape).ShapeCasts ⟨3, ![1, n, 1]⟩)
    (h1 : (⟨3, ![1, 1, n]⟩ : Shape).ShapeCasts ⟨3, ![1, 1, n]⟩)
    (h2 : (⟨3, ![1, n, 1]⟩ : Shape).Broadcasts ⟨3, ![1, n, n]⟩)
    (h3 : (⟨3, ![1, 1, n]⟩ : Shape).Broadcasts ⟨3, ![1, n, n]⟩)
    (v0 : FVec Ideal ⟨3, ![1, n, 1]⟩ .f32) (v2 : FVec Ideal ⟨3, ![1, 1, n]⟩ .f32) : FVec Ideal ⟨3, ![1, n, n]⟩ .f32 :=
  have v1 : FVec Ideal ⟨3, ![1, n, 1]⟩ .f32 := shapeCast ⟨3, ![1, n, 1]⟩ v0 h0
  have v3 : FVec Ideal ⟨3, ![1, 1, n]⟩ .f32 := shapeCast ⟨3, ![1, 1, n]⟩ v2 h1
  have v4 : FVec Ideal ⟨3, ![1, n, n]⟩ .f32 := broadcastTo ⟨3, ![1, n, n]⟩ v1 h2
  have v5 : FVec Ideal ⟨3, ![1, n, n]⟩ .f32 := broadcastTo ⟨3, ![1, n, n]⟩ v3 h3
  have v6 : FVec Ideal ⟨3, ![1, n, n]⟩ .f32 := mulf v4 v5
  v6

/-- Entry `(u, i, k)` of the outer-product body: column entry `i` times row entry `k`. -/
theorem outerBody_apply {n : ℕ}
    (h0 : (⟨3, ![1, n, 1]⟩ : Shape).ShapeCasts ⟨3, ![1, n, 1]⟩)
    (h1 : (⟨3, ![1, 1, n]⟩ : Shape).ShapeCasts ⟨3, ![1, 1, n]⟩)
    (h2 : (⟨3, ![1, n, 1]⟩ : Shape).Broadcasts ⟨3, ![1, n, n]⟩)
    (h3 : (⟨3, ![1, 1, n]⟩ : Shape).Broadcasts ⟨3, ![1, n, n]⟩)
    (v0 : FVec Ideal ⟨3, ![1, n, 1]⟩ .f32) (v2 : FVec Ideal ⟨3, ![1, 1, n]⟩ .f32) (u : Fin 1) (i k : Fin n) :
    outerBody h0 h1 h2 h3 v0 v2 (ix3 u i k) = v0 (ix3 (0 : Fin 1) i (0 : Fin 1)) * v2 (ix3 (0 : Fin 1) (0 : Fin 1) k) := by
  unfold outerBody
  simp only [mulf_apply, shapeCast_self, broadcastTo_col3, broadcastTo_row3]

/-- The scaled mean rows of a whole array `[32, C, n]`: row `b` is the scaled mean row of sample `b`. -/
def statsArr {C n : ℕ} (cC cN cInv : EReal) (X : (⟨3, ![32, C, n]⟩ : Shape).Idx → EReal) :
    (⟨2, ![32, n]⟩ : Shape).Idx → EReal :=
  fun o => scaledRow cN cInv (fun j' => chanMean cC (fun ch => X (ix3 (⟨(o 0).val, (o 0).isLt⟩ : Fin 32) ch j')))
    (⟨(o 1).val, (o 1).isLt⟩ : Fin n)

/-- The outer products of a whole column array `[32, n, 1]` with a whole row array `[32, 1, n]`, sample by sample. -/
def outerArr {n : ℕ} (A : (⟨3, ![32, n, 1]⟩ : Shape).Idx → EReal) (B : (⟨3, ![32, 1, n]⟩ : Shape).Idx → EReal) :
    (⟨3, ![32, n, n]⟩ : Shape).Idx → EReal :=
  fun o => A (ix3 (⟨(o 0).val, (o 0).isLt⟩ : Fin 32) (⟨(o 1).val, (o 1).isLt⟩ : Fin n) (0 : Fin 1))
    * B (ix3 (⟨(o 0).val, (o 0).isLt⟩ : Fin 32) (0 : Fin 1) (⟨(o 2).val, (o 2).isLt⟩ : Fin n))

/-- The statistics body on the block of samples `8 q … 8 q + 7` of an array `X` gives rows `8 q … 8 q + 7` of the
    array's scaled mean rows: a sample's row depends on that sample alone. -/
theorem statsBody_block {C n : ℕ}
    (h0 : (⟨3, ![8, C, n]⟩ : Shape).ShapeCasts ⟨3, ![8, C, n]⟩)
    (h1 : (⟨3, ![8, C, n]⟩ : Shape).Reduces [1] (⟨2, ![8, n]⟩ : Shape))
    (h2 : (⟨2, ![8, n]⟩ : Shape).Reduces [1] (⟨1, ![8]⟩ : Shape))
    (h3 : (⟨1, ![8]⟩ : Shape).ShapeCasts ⟨2, ![8, 1]⟩)
    (h4 : (⟨2, ![8, 1]⟩ : Shape).Broadcasts ⟨2, ![8, n]⟩)
    (cC cN cInv : Ideal .f32) (X : (⟨3, ![32, C, n]⟩ : Shape).Idx → EReal) (x0 : FVec Ideal ⟨3, ![8, C, n]⟩ .f32) (q : ℕ)
    (hx : ∀ (p : Fin 8) (ch : Fin C) (j : Fin n) (hq : q * 8 + p.val < 32), x0 (ix3 p ch j) = X (ix3 (⟨q * 8 + p.val, hq⟩ : Fin 32) ch j))
    (p : Fin 8) (j : Fin n) (hq : q * 8 + p.val < 32) :
    statsBody h0 h1 h2 h3 h4 cC cN cInv x0 (ix2 p j) = statsArr cC cN cInv X (ix2 (⟨q * 8 + p.val, hq⟩ : Fin 32) j) := by
  rw [statsBody_apply]
  unfold statsArr
  simp only [hx _ _ _ hq]
  rfl

/-- The outer-product body on sample `q`'s column and row gives sample `q` of the whole arrays' outer products. -/
theorem outerBody_block {n : ℕ}
    (h0 : (⟨3, ![1, n, 1]⟩ : Shape).ShapeCasts ⟨3, ![1, n, 1]⟩)
    (h1 : (⟨3, ![1, 1, n]⟩ : Shape).ShapeCasts ⟨3, ![1, 1, n]⟩)
    (h2 : (⟨3, ![1, n, 1]⟩ : Shape).Broadcasts ⟨3, ![1, n, n]⟩)
    (h3 : (⟨3, ![1, 1, n]⟩ : Shape).Broadcasts ⟨3, ![1, n, n]⟩)
    (A : (⟨3, ![32, n, 1]⟩ : Shape).Idx → EReal) (B : (⟨3, ![32, 1, n]⟩ : Shape).Idx → EReal)
    (x0 : FVec Ideal ⟨3, ![1, n, 1]⟩ .f32) (x1 : FVec Ideal ⟨3, ![1, 1, n]⟩ .f32) (q : Fin 32)
    (hx0 : ∀ i : Fin n, x0 (ix3 (0 : Fin 1) i (0 : Fin 1)) = A (ix3 q i (0 : Fin 1)))
    (hx1 : ∀ k : Fin n, x1 (ix3 (0 : Fin 1) (0 : Fin 1) k) = B (ix3 q (0 : Fin 1) k))
    (u : Fin 1) (i k : Fin n) :
    outerBody h0 h1 h2 h3 x0 x1 (ix3 u i k) = outerArr A B (ix3 q i k) := by
  rw [outerBody_apply, hx0, hx1]
  rfl

end Cert.CovMA

end
-- ==== Proof.CovRegion0.lean ====
/-
  Launch 0: the statistics kernel over an array of shape `[32, 64, 1024]`, eight samples per grid point.

  Grid point `t` reads samples `8 t … 8 t + 7` of the input array and writes rows `8 t … 8 t + 7` of the output array
  `[32, 1024]`; the four points cover the output. So after the launch the output array is, row by row, the scaled mean
  row of the corresponding sample of the input array as the launch found it.
-/
import proofs.«119585_j64424509440533_1_alg».proof.Proof.Gen.KernelIdeal.Frame
import proofs.«119585_j64424509440533_1_alg».proof.Proof.CovBodies
import Idealize.ShloMosaic.Lib.Pipeline.Value

set_option maxRecDepth 16384

noncomputable section

namespace Cert.KernelIdeal.CovR0

open Idealize.ShloMosaic Idealize.ShloMosaic.TcCoe Idealize.SL.Sem Idealize.ShloMosaic.ValueIdx
open Idealize.ShloMosaic.Pipeline (Dat)
open Cert.KernelIdeal Cert.KernelIdeal.Gen Cert.CovMA

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The channel count, the row length and the named reciprocal of the row length less one, as the body spells them. -/
abbrev cC : Ideal .f32 := Scalar.ofBits (F := Ideal) .f32 0x42800000#32
abbrev cN : Ideal .f32 := Scalar.ofBits (F := Ideal) .f32 0x44800000#32
abbrev cInv : Ideal .f32 := Named.named (F := Ideal) κ "inv_1023" 0x3A802008#32

/-- The body's one stored value is the statistics body of its loaded block. -/
theorem pay_eq (x0 : Vec Ideal S8x64x1024 .f32) :
    k0_pay1 (F := Ideal) x0 = statsBody shapeCasts_S8x64x1024_S8x64x1024 reduces_S8x64x1024_S8x1024 reduces_S8x1024_S8
      shapeCasts_S8_S8x1 broadcasts_S8x1_S8x1024 cC cN cInv x0 := rfl

/-- The printed index maps over the grid: point `t` takes block `t` along the samples and block 0 along the other axes. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The input block at point `t` holds samples `8 t … 8 t + 7` of the input array. -/
theorem iblk_in (c : Dev nD) (t : Fin cfg0.N) (p : Fin 8) (ch : Fin 64) (j : Fin 1024) (hq : t.val * 8 + p.val < 32) :
    (iblk0 V c 0 t : Vec Ideal S8x64x1024 .f32) (ix3 p ch j)
      = (V c main_v0 : S32x64x1024.Idx → EReal) (ix3 (⟨t.val * 8 + p.val, hq⟩ : Fin 32) ch j) := by
  obtain ⟨e0, e1, e2, -, -⟩ := idx_facts t
  unfold iblk0
  rw [View.read_apply]
  show V c main_v0 _ = V c main_v0 _
  refine congrArg (V c main_v0) ?_
  funext a
  apply Fin.ext
  match a with
  | ⟨0, _⟩ => show win0_0.index t 0 * 8 + 1 * p.val = t.val * 8 + p.val; rw [e0]; omega
  | ⟨1, _⟩ => show win0_0.index t 1 * 64 + 1 * ch.val = ch.val; rw [e1]; omega
  | ⟨2, _⟩ => show win0_0.index t 2 * 1024 + 1 * j.val = j.val; rw [e2]; omega

/-- What point `t` writes back is block `t` of the scaled mean rows of the input array. -/
theorem flushed_eq (c : Dev nD) (t : Fin cfg0.N) :
    (dat0 V c).flushed 1 t = ((cfg0.win 1).blk t).view.read (Elt Ideal) (statsArr cC cN cInv (V c main_v0)) := by
  show (cfg0.win 1).cut (grid0.coords t) ((dat0 V c).after 1 t) = _
  rw [after0_1]
  unfold out0_1
  rw [View.canon_unit_zero hz2]
  simp only [View.ld_unit_zero (S := S8x64x1024) hz3]
  rw [pay_eq]
  obtain ⟨-, -, -, e3, e4⟩ := idx_facts t
  have ht : t.val < 4 := Nat.lt_of_lt_of_eq t.isLt N_0
  funext y
  have hy0 : (y 0).val < 8 := (y 0).isLt
  have hy1 : (y 1).val < 1024 := (y 1).isLt
  have hq : t.val * 8 + (y 0).val < 32 := by omega
  show statsBody shapeCasts_S8x64x1024_S8x64x1024 reduces_S8x64x1024_S8x1024 reduces_S8x1024_S8
      shapeCasts_S8_S8x1 broadcasts_S8x1_S8x1024 cC cN cInv (iblk0 V c 0 t) y
    = statsArr cC cN cInv (V c main_v0) (((cfg0.win 1).blk t).view.emb y)
  have hemb : ((cfg0.win 1).blk t).view.emb y = ix2 (⟨t.val * 8 + (y 0).val, hq⟩ : Fin 32) (⟨(y 1).val, hy1⟩ : Fin 1024) := by
    funext a
    apply Fin.ext
    match a with
    | ⟨0, _⟩ => show win0_1.index t 0 * 8 + 1 * (y 0).val = t.val * 8 + (y 0).val; rw [e3]; omega
    | ⟨1, _⟩ => show win0_1.index t 1 * 1024 + 1 * (y 1).val = (y 1).val; rw [e4]; omega
  have hy : y = ix2 (⟨(y 0).val, hy0⟩ : Fin 8) (⟨(y 1).val, hy1⟩ : Fin 1024) := by
    funext a
    match a with
    | ⟨0, _⟩ => rfl
    | ⟨1, _⟩ => rfl
  rw [hemb]
  refine Eq.trans (congrArg (statsBody shapeCasts_S8x64x1024_S8x64x1024 reduces_S8x64x1024_S8x1024 reduces_S8x1024_S8
      shapeCasts_S8_S8x1 broadcasts_S8x1_S8x1024 cC cN cInv (iblk0 V c 0 t)) hy) ?_
  exact statsBody_block shapeCasts_S8x64x1024_S8x64x1024 reduces_S8x64x1024_S8x1024 reduces_S8x1024_S8
    shapeCasts_S8_S8x1 broadcasts_S8x1_S8x1024 cC cN cInv (V c main_v0) (iblk0 V c 0 t) t.val
    (fun p ch j hq' => iblk_in V c t p ch j hq') (⟨(y 0).val, hy0⟩ : Fin 8) (⟨(y 1).val, hy1⟩ : Fin 1024) hq

/-- An index of the output array is in point `t`'s block iff each coordinate is in the block's range on its axis. -/
theorem mem_blk (t : Fin cfg0.N) (i : S32x1024.Idx) :
    i ∈ ((cfg0.win 1).blk t).view.set ↔ ∀ a : Fin 2, win0_1.index t a * S8x1024.size a ≤ (i a).val
      ∧ (i a).val < win0_1.index t a * S8x1024.size a + S8x1024.size a := by
  show i ∈ ((View.whole main_v1).slice (win0_1.rect t)).set ↔ _
  rw [View.set_slice_whole, Rect.mem_set_unit]
  exact Iff.rfl

/-- After the launch the output array holds the scaled mean rows of the input array: row `r` is written by point `r / 8`. -/
theorem final (c : Dev nD) : (dat0 V c).arrAt 1 cfg0.N = statsArr cC cN cInv (V c main_v0) :=
  (dat0 V c).arrAt_eq_of_cover 1 _ (fun t _ => flushed_eq V c t) fun i => by
    have hi0 : (i 0).val < 32 := (i 0).isLt
    have hi1 : (i 1).val < 1024 := (i 1).isLt
    have hN : cfg0.N = 4 := N_0
    obtain ⟨-, -, -, e3, e4⟩ := idx_facts (⟨(i 0).val / 8, by rw [hN]; omega⟩ : Fin cfg0.N)
    refine ⟨⟨(i 0).val / 8, by rw [hN]; omega⟩, flush0_1 _, ?_⟩
    rw [mem_blk]
    intro a
    match a with
    | ⟨0, _⟩ =>
      show win0_1.index _ 0 * 8 ≤ (i 0).val ∧ (i 0).val < win0_1.index _ 0 * 8 + 8
      rw [e3]; show (i 0).val / 8 * 8 ≤ (i 0).val ∧ (i 0).val < (i 0).val / 8 * 8 + 8; omega
    | ⟨1, _⟩ =>
      show win0_1.index _ 1 * 1024 ≤ (i 1).val ∧ (i 1).val < win0_1.index _ 1 * 1024 + 1024
      rw [e4]; omega

end Cert.KernelIdeal.CovR0

end
-- ==== Proof.CovRegion1.lean ====
/-
  Launch 1: the outer-product kernel, one sample per grid point.

  Grid point `t` reads sample `t` of the column array `[32, 1024, 1]` and of the row array `[32, 1, 1024]` and writes sample
  `t` of the output array `[32, 1024, 1024]`; the 32 points cover the output. So after the launch the output array is,
  sample by sample, the outer product of the column with the row as the launch found them.
-/
import proofs.«119585_j64424509440533_1_alg».proof.Proof.Gen.KernelIdeal.Frame
import proofs.«119585_j64424509440533_1_alg».proof.Proof.CovBodies
import Idealize.ShloMosaic.Lib.Pipeline.Value

set_option maxRecDepth 16384

noncomputable section

namespace Cert.KernelIdeal.CovR1

open Idealize.ShloMosaic Idealize.ShloMosaic.TcCoe Idealize.SL.Sem Idealize.ShloMosaic.ValueIdx
open Idealize.ShloMosaic.Pipeline (Dat)
open Cert.KernelIdeal Cert.KernelIdeal.Gen Cert.CovMA

variable (V : (c : Dev nD) → (b : Ref sig .tc) → Buf (Elt Ideal) ((c : Thread nD τ).loc b))

theorem hz3 : (![0, 0, 0] : Fin 3 → Nat) = fun _ => 0 := funext fun a => by fin_cases a <;> rfl

/-- The body's one stored value is the outer-product body of its two loaded blocks. -/
theorem pay_eq (x0 : Vec Ideal S1x1024x1 .f32) (x1 : Vec Ideal S1x1x1024 .f32) :
    k1_pay1 (F := Ideal) x0 x1 = outerBody shapeCasts_S1x1024x1_S1x1024x1 shapeCasts_S1x1x1024_S1x1x1024
      broadcasts_S1x1024x1_S1x1024x1024 broadcasts_S1x1x1024_S1x1024x1024 x0 x1 := rfl

/-- The printed index maps over the grid: point `t` takes block `t` along the samples and block 0 along the other axes,
    in all three windows. -/
theorem idx_facts : ∀ t : Fin cfg1.N, win1_0.index t (0 : Fin 3) = t.val ∧ win1_0.index t (1 : Fin 3) = 0
    ∧ win1_0.index t (2 : Fin 3) = 0 ∧ win1_1.index t (0 : Fin 3) = t.val ∧ win1_1.index t (1 : Fin 3) = 0
    ∧ win1_1.index t (2 : Fin 3) = 0 ∧ win1_2.index t (0 : Fin 3) = t.val ∧ win1_2.index t (1 : Fin 3) = 0
    ∧ win1_2.index t (2 : Fin 3) = 0 :=
  (by decide +kernel : ∀ t : Fin grid1.N, _)

/-- The column block at point `t` is sample `t` of the column array. -/
theorem iblk_col (c : Dev nD) (t : Fin cfg1.N) (ht : t.val < 32) (i : Fin 1024) :
    (iblk1 V c 0 t : Vec Ideal S1x1024x1 .f32) (ix3 (0 : Fin 1) i (0 : Fin 1))
      = (V c main_v2 : S32x1024x1.Idx → EReal) (ix3 (⟨t.val, ht⟩ : Fin 32) i (0 : Fin 1)) := by
  obtain ⟨e0, e1, e2, -, -, -, -, -, -⟩ := idx_facts t
  unfold iblk1
  rw [View.read_apply]
  show V c main_v2 _ = V c main_v2 _
  refine congrArg (V c main_v2) ?_
  funext a
  apply Fin.ext
  match a with
  | ⟨0, _⟩ => show win1_0.index t 0 * 1 + 1 * 0 = t.val; rw [e0]; omega
  | ⟨1, _⟩ => show win1_0.index t 1 * 1024 + 1 * i.val = i.val; rw [e1]; omega
  | ⟨2, _⟩ => show win1_0.index t 2 * 1 + 1 * 0 = 0; rw [e2]

/-- The row block at point `t` is sample `t` of the row array. -/
theorem iblk_row (c : Dev nD) (t : Fin cfg1.N) (ht : t.val < 32) (j : Fin 1024) :
    (iblk1 V c 1 t : Vec Ideal S1x1x1024 .f32) (ix3 (0 : Fin 1) (0 : Fin 1) j)
      = (V c main_v3 : S32x1x1024.Idx → EReal) (ix3 (⟨t.val, ht⟩ : Fin 32) (0 : Fin 1) j) := by
  obtain ⟨-, -, -, e0, e1, e2, -, -, -⟩ := idx_facts t
  unfold iblk1
  rw [View.read_apply]
  show V c main_v3 _ = V c main_v3 _
  refine congrArg (V c main_v3) ?_
  funext a
  apply Fin.ext
  match a with
  | ⟨0, _⟩ => show win1_1.index t 0 * 1 + 1 * 0 = t.val; rw [e0]; omega
  | ⟨1, _⟩ => show win1_1.index t 1 * 1 + 1 * 0 = 0; rw [e1]
  | ⟨2, _⟩ => show win1_1.index t 2 * 1024 + 1 * j.val = j.val; rw [e2]; omega

/-- What point `t` writes back is sample `t` of the outer products of the column array with the row array. -/
theorem flushed_eq (c : Dev nD) (t : Fin cfg1.N) :
    (dat1 V c).flushed 2 t = ((cfg1.win 2).blk t).view.read (Elt Ideal) (outerArr (V c main_v2) (V c main_v3)) := by
  show (cfg1.win 2).cut (grid1.coords t) ((dat1 V c).after 2 t) = _
  rw [after1_2]
  unfold out1_2
  rw [View.canon_unit_zero hz3]
  simp only [View.ld_unit_zero (S := S1x1024x1) hz3, View.ld_unit_zero (S := S1x1x1024) hz3]
  rw [pay_eq]
  obtain ⟨-, -, -, -, -, -, e6, e7, e8⟩ := idx_facts t
  have ht : t.val < 32 := Nat.lt_of_lt_of_eq t.isLt N_1
  funext y
  have hy0 : (y 0).val < 1 := (y 0).isLt
  have hy1 : (y 1).val < 1024 := (y 1).isLt
  have hy2 : (y 2).val < 1024 := (y 2).isLt
  show outerBody shapeCasts_S1x1024x1_S1x1024x1 shapeCasts_S1x1x1024_S1x1x1024
      broadcasts_S1x1024x1_S1x1024x1024 broadcasts_S1x1x1024_S1x1024x1024 (iblk1 V c 0 t) (iblk1 V c 1 t) y
    = outerArr (V c main_v2) (V c main_v3) (((cfg1.win 2).blk t).view.emb y)
  have hemb : ((cfg1.win 2).blk t).view.emb y
      = ix3 (⟨t.val, ht⟩ : Fin 32) (⟨(y 1).val, hy1⟩ : Fin 1024) (⟨(y 2).val, hy2⟩ : Fin 1024) := by
    funext a
    apply Fin.ext
    match a with
    | ⟨0, _⟩ => show win1_2.index t 0 * 1 + 1 * (y 0).val = t.val; rw [e6]; omega
    | ⟨1, _⟩ => show win1_2.index t 1 * 1024 + 1 * (y 1).val = (y 1).val; rw [e7]; omega
    | ⟨2, _⟩ => show win1_2.index t 2 * 1024 + 1 * (y 2).val = (y 2).val; rw [e8]; omega
  have hy : y = ix3 (⟨(y 0).val, hy0⟩ : Fin 1) (⟨(y 1).val, hy1⟩ : Fin 1024) (⟨(y 2).val, hy2⟩ : Fin 1024) := by
    funext a
    match a with
    | ⟨0, _⟩ => rfl
    | ⟨1, _⟩ => rfl
    | ⟨2, _⟩ => rfl
  rw [hemb]
  refine Eq.trans (congrArg (outerBody shapeCasts_S1x1024x1_S1x1024x1 shapeCasts_S1x1x1024_S1x1x1024
      broadcasts_S1x1024x1_S1x1024x1024 broadcasts_S1x1x1024_S1x1024x1024 (iblk1 V c 0 t) (iblk1 V c 1 t)) hy) ?_
  exact outerBody_block shapeCasts_S1x1024x1_S1x1024x1 shapeCasts_S1x1x1024_S1x1x1024
    broadcasts_S1x1024x1_S1x1024x1024 broadcasts_S1x1x1024_S1x1024x1024 (V c main_v2) (V c main_v3)
    (iblk1 V c 0 t) (iblk1 V c 1 t) (⟨t.val, ht⟩ : Fin 32) (fun i => iblk_col V c t ht i) (fun j => iblk_row V c t ht j)
    (⟨(y 0).val, hy0⟩ : Fin 1) (⟨(y 1).val, hy1⟩ : Fin 1024) (⟨(y 2).val, hy2⟩ : Fin 1024)

/-- An index of the output array is in point `t`'s block iff each coordinate is in the block's range on its axis. -/
theorem mem_blk (t : Fin cfg1.N) (i : S32x1024x1024.Idx) :
    i ∈ ((cfg1.win 2).blk t).view.set ↔ ∀ a : Fin 3, win1_2.index t a * S1x1024x1024.size a ≤ (i a).val
      ∧ (i a).val < win1_2.index t a * S1x1024x1024.size a + S1x1024x1024.size a := by
  show i ∈ ((View.whole main_v4).slice (win1_2.rect t)).set ↔ _
  rw [View.set_slice_whole, Rect.mem_set_unit]
  exact Iff.rfl

/-- After the launch the output array holds the outer products: sample `b` is written by point `b`. -/
theorem final (c : Dev nD) : (dat1 V c).arrAt 2 cfg1.N = outerArr (V c main_v2) (V c main_v3) :=
  (dat1 V c).arrAt_eq_of_cover 2 _ (fun t _ => flushed_eq V c t) fun i => by
    have hi0 : (i 0).val < 32 := (i 0).isLt
    have hi1 : (i 1).val < 1024 := (i 1).isLt
    have hi2 : (i 2).val < 1024 := (i 2).isLt
    have hN : cfg1.N = 32 := N_1
    obtain ⟨-, -, -, -, -, -, e6, e7, e8⟩ := idx_facts (⟨(i 0).val, by rw [hN]; exact hi0⟩ : Fin cfg1.N)
    refine ⟨⟨(i 0).val, by rw [hN]; exact hi0⟩, flush1_2 _, ?_⟩
    rw [mem_blk]
    intro a
    match a with
    | ⟨0, _⟩ =>
      show win1_2.index _ 0 * 1 ≤ (i 0).val ∧ (i 0).val < win1_2.index _ 0 * 1 + 1
      rw [e6]; show (i 0).val * 1 ≤ (i 0).val ∧ (i 0).val < (i 0).val * 1 + 1; omega
    | ⟨1, _⟩ =>
      show win1_2.index _ 1 * 1024 ≤ (i 1).val ∧ (i 1).val < win1_2.index _ 1 * 1024 + 1024
      rw [e7]; omega
    | ⟨2, _⟩ =>
      show win1_2.index _ 2 * 1024 ≤ (i 2).val ∧ (i 2).val < win1_2.index _ 2 * 1024 + 1024
      rw [e8]; omega

end Cert.KernelIdeal.CovR1

end
-- ==== Proof.CovRegion2.lean ====
/-
  Launch 2: the statistics kernel over an array of shape `[32, 128, 256]`, eight samples per grid point.

  Grid point `t` reads samples `8 t … 8 t + 7` of the input array and writes rows `8 t … 8 t + 7` of the output array
  `[32, 256]`; the four points cover the output. So after the launch the output array is, row by row, the scaled mean
  row of the corresponding sample of the input array as the launch found it.
-/
import proofs.«119585_j64424509440533_1_alg».proof.Proof.Gen.KernelIdeal.Frame
import proofs.«119585_j64424509440533_1_alg».proof.Proof.CovBodies
import Idealize.ShloMosaic.Lib.Pipeline.Value

set_option maxRecDepth 16384

noncomputable section

namespace Cert.KernelIdeal.CovR2

open Idealize.ShloMosaic Idealize.ShloMosaic.TcCoe Idealize.SL.Sem Idealize.ShloMosaic.ValueIdx
open Idealize.ShloMosaic.Pipeline (Dat)
open Cert.KernelIdeal Cert.KernelIdeal.Gen Cert.CovMA

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The channel count, the row length and the named reciprocal of the row length less one, as the body spells them. -/
abbrev cC : Ideal .f32 := Scalar.ofBits (F := Ideal) .f32 0x43000000#32
abbrev cN : Ideal .f32 := Scalar.ofBits (F := Ideal) .f32 0x43800000#32
abbrev cInv : Ideal .f32 := Named.named (F := Ideal) κ "inv_255" 0x3B808081#32

/-- The body's one stored value is the statistics body of its loaded block. -/
theorem pay_eq (x0 : Vec Ideal S8x128x256 .f32) :
    k2_pay1 (F := Ideal) x0 = statsBody shapeCasts_S8x128x256_S8x128x256 reduces_S8x128x256_S8x256 reduces_S8x256_S8
      shapeCasts_S8_S8x1 broadcasts_S8x1_S8x256 cC cN cInv x0 := rfl

/-- The printed index maps over the grid: point `t` takes block `t` along the samples and block 0 along the other axes. -/
theorem idx_facts : ∀ t : Fin cfg2.N, win2_0.index t (0 : Fin 3) = t.val ∧ win2_0.index t (1 : Fin 3) = 0
    ∧ win2_0.index t (2 : Fin 3) = 0 ∧ win2_1.index t (0 : Fin 2) = t.val ∧ win2_1.index t (1 : Fin 2) = 0 :=
  (by decide +kernel : ∀ t : Fin grid2.N, _)

/-- The input block at point `t` holds samples `8 t … 8 t + 7` of the input array. -/
theorem iblk_in (c : Dev nD) (t : Fin cfg2.N) (p : Fin 8) (ch : Fin 128) (j : Fin 256) (hq : t.val * 8 + p.val < 32) :
    (iblk2 V c 0 t : Vec Ideal S8x128x256 .f32) (ix3 p ch j)
      = (V c main_v5 : S32x128x256.Idx → EReal) (ix3 (⟨t.val * 8 + p.val, hq⟩ : Fin 32) ch j) := by
  obtain ⟨e0, e1, e2, -, -⟩ := idx_facts t
  unfold iblk2
  rw [View.read_apply]
  show V c main_v5 _ = V c main_v5 _
  refine congrArg (V c main_v5) ?_
  funext a
  apply Fin.ext
  match a with
  | ⟨0, _⟩ => show win2_0.index t 0 * 8 + 1 * p.val = t.val * 8 + p.val; rw [e0]; omega
  | ⟨1, _⟩ => show win2_0.index t 1 * 128 + 1 * ch.val = ch.val; rw [e1]; omega
  | ⟨2, _⟩ => show win2_0.index t 2 * 256 + 1 * j.val = j.val; rw [e2]; omega

/-- What point `t` writes back is block `t` of the scaled mean rows of the input array. -/
theorem flushed_eq (c : Dev nD) (t : Fin cfg2.N) :
    (dat2 V c).flushed 1 t = ((cfg2.win 1).blk t).view.read (Elt Ideal) (statsArr cC cN cInv (V c main_v5)) := by
  show (cfg2.win 1).cut (grid2.coords t) ((dat2 V c).after 1 t) = _
  rw [after2_1]
  unfold out2_1
  rw [View.canon_unit_zero hz2]
  simp only [View.ld_unit_zero (S := S8x128x256) hz3]
  rw [pay_eq]
  obtain ⟨-, -, -, e3, e4⟩ := idx_facts t
  have ht : t.val < 4 := Nat.lt_of_lt_of_eq t.isLt N_2
  funext y
  have hy0 : (y 0).val < 8 := (y 0).isLt
  have hy1 : (y 1).val < 256 := (y 1).isLt
  have hq : t.val * 8 + (y 0).val < 32 := by omega
  show statsBody shapeCasts_S8x128x256_S8x128x256 reduces_S8x128x256_S8x256 reduces_S8x256_S8
      shapeCasts_S8_S8x1 broadcasts_S8x1_S8x256 cC cN cInv (iblk2 V c 0 t) y
    = statsArr cC cN cInv (V c main_v5) (((cfg2.win 1).blk t).view.emb y)
  have hemb : ((cfg2.win 1).blk t).view.emb y = ix2 (⟨t.val * 8 + (y 0).val, hq⟩ : Fin 32) (⟨(y 1).val, hy1⟩ : Fin 256) := by
    funext a
    apply Fin.ext
    match a with
    | ⟨0, _⟩ => show win2_1.index t 0 * 8 + 1 * (y 0).val = t.val * 8 + (y 0).val; rw [e3]; omega
    | ⟨1, _⟩ => show win2_1.index t 1 * 256 + 1 * (y 1).val = (y 1).val; rw [e4]; omega
  have hy : y = ix2 (⟨(y 0).val, hy0⟩ : Fin 8) (⟨(y 1).val, hy1⟩ : Fin 256) := by
    funext a
    match a with
    | ⟨0, _⟩ => rfl
    | ⟨1, _⟩ => rfl
  rw [hemb]
  refine Eq.trans (congrArg (statsBody shapeCasts_S8x128x256_S8x128x256 reduces_S8x128x256_S8x256 reduces_S8x256_S8
      shapeCasts_S8_S8x1 broadcasts_S8x1_S8x256 cC cN cInv (iblk2 V c 0 t)) hy) ?_
  exact statsBody_block shapeCasts_S8x128x256_S8x128x256 reduces_S8x128x256_S8x256 reduces_S8x256_S8
    shapeCasts_S8_S8x1 broadcasts_S8x1_S8x256 cC cN cInv (V c main_v5) (iblk2 V c 0 t) t.val
    (fun p ch j hq' => iblk_in V c t p ch j hq') (⟨(y 0).val, hy0⟩ : Fin 8) (⟨(y 1).val, hy1⟩ : Fin 256) hq

/-- An index of the output array is in point `t`'s block iff each coordinate is in the block's range on its axis. -/
theorem mem_blk (t : Fin cfg2.N) (i : S32x256.Idx) :
    i ∈ ((cfg2.win 1).blk t).view.set ↔ ∀ a : Fin 2, win2_1.index t a * S8x256.size a ≤ (i a).val
      ∧ (i a).val < win2_1.index t a * S8x256.size a + S8x256.size a := by
  show i ∈ ((View.whole main_v6).slice (win2_1.rect t)).set ↔ _
  rw [View.set_slice_whole, Rect.mem_set_unit]
  exact Iff.rfl

/-- After the launch the output array holds the scaled mean rows of the input array: row `r` is written by point `r / 8`. -/
theorem final (c : Dev nD) : (dat2 V c).arrAt 1 cfg2.N = statsArr cC cN cInv (V c main_v5) :=
  (dat2 V c).arrAt_eq_of_cover 1 _ (fun t _ => flushed_eq V c t) fun i => by
    have hi0 : (i 0).val < 32 := (i 0).isLt
    have hi1 : (i 1).val < 256 := (i 1).isLt
    have hN : cfg2.N = 4 := N_2
    obtain ⟨-, -, -, e3, e4⟩ := idx_facts (⟨(i 0).val / 8, by rw [hN]; omega⟩ : Fin cfg2.N)
    refine ⟨⟨(i 0).val / 8, by rw [hN]; omega⟩, flush2_1 _, ?_⟩
    rw [mem_blk]
    intro a
    match a with
    | ⟨0, _⟩ =>
      show win2_1.index _ 0 * 8 ≤ (i 0).val ∧ (i 0).val < win2_1.index _ 0 * 8 + 8
      rw [e3]; show (i 0).val / 8 * 8 ≤ (i 0).val ∧ (i 0).val < (i 0).val / 8 * 8 + 8; omega
    | ⟨1, _⟩ =>
      show win2_1.index _ 1 * 256 ≤ (i 1).val ∧ (i 1).val < win2_1.index _ 1 * 256 + 256
      rw [e4]; omega

end Cert.KernelIdeal.CovR2

end
-- ==== Proof.CovRegion3.lean ====
/-
  Launch 3: the outer-product kernel, one sample per grid point.

  Grid point `t` reads sample `t` of the column array `[32, 256, 1]` and of the row array `[32, 1, 256]` and writes sample
  `t` of the output array `[32, 256, 256]`; the 32 points cover the output. So after the launch the output array is,
  sample by sample, the outer product of the column with the row as the launch found them.
-/
import proofs.«119585_j64424509440533_1_alg».proof.Proof.Gen.KernelIdeal.Frame
import proofs.«119585_j64424509440533_1_alg».proof.Proof.CovBodies
import Idealize.ShloMosaic.Lib.Pipeline.Value

set_option maxRecDepth 16384

noncomputable section

namespace Cert.KernelIdeal.CovR3

open Idealize.ShloMosaic Idealize.ShloMosaic.TcCoe Idealize.SL.Sem Idealize.ShloMosaic.ValueIdx
open Idealize.ShloMosaic.Pipeline (Dat)
open Cert.KernelIdeal Cert.KernelIdeal.Gen Cert.CovMA

variable (V : (c : Dev nD) → (b : Ref sig .tc) → Buf (Elt Ideal) ((c : Thread nD τ).loc b))

theorem hz3 : (![0, 0, 0] : Fin 3 → Nat) = fun _ => 0 := funext fun a => by fin_cases a <;> rfl

/-- The body's one stored value is the outer-product body of its two loaded blocks. -/
theorem pay_eq (x0 : Vec Ideal S1x256x1 .f32) (x1 : Vec Ideal S1x1x256 .f32) :
    k3_pay1 (F := Ideal) x0 x1 = outerBody shapeCasts_S1x256x1_S1x256x1 shapeCasts_S1x1x256_S1x1x256
      broadcasts_S1x256x1_S1x256x256 broadcasts_S1x1x256_S1x256x256 x0 x1 := rfl

/-- The printed index maps over the grid: point `t` takes block `t` along the samples and block 0 along the other axes,
    in all three windows. -/
theorem idx_facts : ∀ t : Fin cfg3.N, win3_0.index t (0 : Fin 3) = t.val ∧ win3_0.index t (1 : Fin 3) = 0
    ∧ win3_0.index t (2 : Fin 3) = 0 ∧ win3_1.index t (0 : Fin 3) = t.val ∧ win3_1.index t (1 : Fin 3) = 0
    ∧ win3_1.index t (2 : Fin 3) = 0 ∧ win3_2.index t (0 : Fin 3) = t.val ∧ win3_2.index t (1 : Fin 3) = 0
    ∧ win3_2.index t (2 : Fin 3) = 0 :=
  (by decide +kernel : ∀ t : Fin grid3.N, _)

/-- The column block at point `t` is sample `t` of the column array. -/
theorem iblk_col (c : Dev nD) (t : Fin cfg3.N) (ht : t.val < 32) (i : Fin 256) :
    (iblk3 V c 0 t : Vec Ideal S1x256x1 .f32) (ix3 (0 : Fin 1) i (0 : Fin 1))
      = (V c main_v7 : S32x256x1.Idx → EReal) (ix3 (⟨t.val, ht⟩ : Fin 32) i (0 : Fin 1)) := by
  obtain ⟨e0, e1, e2, -, -, -, -, -, -⟩ := idx_facts t
  unfold iblk3
  rw [View.read_apply]
  show V c main_v7 _ = V c main_v7 _
  refine congrArg (V c main_v7) ?_
  funext a
  apply Fin.ext
  match a with
  | ⟨0, _⟩ => show win3_0.index t 0 * 1 + 1 * 0 = t.val; rw [e0]; omega
  | ⟨1, _⟩ => show win3_0.index t 1 * 256 + 1 * i.val = i.val; rw [e1]; omega
  | ⟨2, _⟩ => show win3_0.index t 2 * 1 + 1 * 0 = 0; rw [e2]

/-- The row block at point `t` is sample `t` of the row array. -/
theorem iblk_row (c : Dev nD) (t : Fin cfg3.N) (ht : t.val < 32) (j : Fin 256) :
    (iblk3 V c 1 t : Vec Ideal S1x1x256 .f32) (ix3 (0 : Fin 1) (0 : Fin 1) j)
      = (V c main_v8 : S32x1x256.Idx → EReal) (ix3 (⟨t.val, ht⟩ : Fin 32) (0 : Fin 1) j) := by
  obtain ⟨-, -, -, e0, e1, e2, -, -, -⟩ := idx_facts t
  unfold iblk3
  rw [View.read_apply]
  show V c main_v8 _ = V c main_v8 _
  refine congrArg (V c main_v8) ?_
  funext a
  apply Fin.ext
  match a with
  | ⟨0, _⟩ => show win3_1.index t 0 * 1 + 1 * 0 = t.val; rw [e0]; omega
  | ⟨1, _⟩ => show win3_1.index t 1 * 1 + 1 * 0 = 0; rw [e1]
  | ⟨2, _⟩ => show win3_1.index t 2 * 256 + 1 * j.val = j.val; rw [e2]; omega

/-- What point `t` writes back is sample `t` of the outer products of the column array with the row array. -/
theorem flushed_eq (c : Dev nD) (t : Fin cfg3.N) :
    (dat3 V c).flushed 2 t = ((cfg3.win 2).blk t).view.read (Elt Ideal) (outerArr (V c main_v7) (V c main_v8)) := by
  show (cfg3.win 2).cut (grid3.coords t) ((dat3 V c).after 2 t) = _
  rw [after3_2]
  unfold out3_2
  rw [View.canon_unit_zero hz3]
  simp only [View.ld_unit_zero (S := S1x256x1) hz3, View.ld_unit_zero (S := S1x1x256) hz3]
  rw [pay_eq]
  obtain ⟨-, -, -, -, -, -, e6, e7, e8⟩ := idx_facts t
  have ht : t.val < 32 := Nat.lt_of_lt_of_eq t.isLt N_3
  funext y
  have hy0 : (y 0).val < 1 := (y 0).isLt
  have hy1 : (y 1).val < 256 := (y 1).isLt
  have hy2 : (y 2).val < 256 := (y 2).isLt
  show outerBody shapeCasts_S1x256x1_S1x256x1 shapeCasts_S1x1x256_S1x1x256
      broadcasts_S1x256x1_S1x256x256 broadcasts_S1x1x256_S1x256x256 (iblk3 V c 0 t) (iblk3 V c 1 t) y
    = outerArr (V c main_v7) (V c main_v8) (((cfg3.win 2).blk t).view.emb y)
  have hemb : ((cfg3.win 2).blk t).view.emb y
      = ix3 (⟨t.val, ht⟩ : Fin 32) (⟨(y 1).val, hy1⟩ : Fin 256) (⟨(y 2).val, hy2⟩ : Fin 256) := by
    funext a
    apply Fin.ext
    match a with
    | ⟨0, _⟩ => show win3_2.index t 0 * 1 + 1 * (y 0).val = t.val; rw [e6]; omega
    | ⟨1, _⟩ => show win3_2.index t 1 * 256 + 1 * (y 1).val = (y 1).val; rw [e7]; omega
    | ⟨2, _⟩ => show win3_2.index t 2 * 256 + 1 * (y 2).val = (y 2).val; rw [e8]; omega
  have hy : y = ix3 (⟨(y 0).val, hy0⟩ : Fin 1) (⟨(y 1).val, hy1⟩ : Fin 256) (⟨(y 2).val, hy2⟩ : Fin 256) := by
    funext a
    match a with
    | ⟨0, _⟩ => rfl
    | ⟨1, _⟩ => rfl
    | ⟨2, _⟩ => rfl
  rw [hemb]
  refine Eq.trans (congrArg (outerBody shapeCasts_S1x256x1_S1x256x1 shapeCasts_S1x1x256_S1x1x256
      broadcasts_S1x256x1_S1x256x256 broadcasts_S1x1x256_S1x256x256 (iblk3 V c 0 t) (iblk3 V c 1 t)) hy) ?_
  exact outerBody_block shapeCasts_S1x256x1_S1x256x1 shapeCasts_S1x1x256_S1x1x256
    broadcasts_S1x256x1_S1x256x256 broadcasts_S1x1x256_S1x256x256 (V c main_v7) (V c main_v8)
    (iblk3 V c 0 t) (iblk3 V c 1 t) (⟨t.val, ht⟩ : Fin 32) (fun i => iblk_col V c t ht i) (fun j => iblk_row V c t ht j)
    (⟨(y 0).val, hy0⟩ : Fin 1) (⟨(y 1).val, hy1⟩ : Fin 256) (⟨(y 2).val, hy2⟩ : Fin 256)

/-- An index of the output array is in point `t`'s block iff each coordinate is in the block's range on its axis. -/
theorem mem_blk (t : Fin cfg3.N) (i : S32x256x256.Idx) :
    i ∈ ((cfg3.win 2).blk t).view.set ↔ ∀ a : Fin 3, win3_2.index t a * S1x256x256.size a ≤ (i a).val
      ∧ (i a).val < win3_2.index t a * S1x256x256.size a + S1x256x256.size a := by
  show i ∈ ((View.whole main_v9).slice (win3_2.rect t)).set ↔ _
  rw [View.set_slice_whole, Rect.mem_set_unit]
  exact Iff.rfl

/-- After the launch the output array holds the outer products: sample `b` is written by point `b`. -/
theorem final (c : Dev nD) : (dat3 V c).arrAt 2 cfg3.N = outerArr (V c main_v7) (V c main_v8) :=
  (dat3 V c).arrAt_eq_of_cover 2 _ (fun t _ => flushed_eq V c t) fun i => by
    have hi0 : (i 0).val < 32 := (i 0).isLt
    have hi1 : (i 1).val < 256 := (i 1).isLt
    have hi2 : (i 2).val < 256 := (i 2).isLt
    have hN : cfg3.N = 32 := N_3
    obtain ⟨-, -, -, -, -, -, e6, e7, e8⟩ := idx_facts (⟨(i 0).val, by rw [hN]; exact hi0⟩ : Fin cfg3.N)
    refine ⟨⟨(i 0).val, by rw [hN]; exact hi0⟩, flush3_2 _, ?_⟩
    rw [mem_blk]
    intro a
    match a with
    | ⟨0, _⟩ =>
      show win3_2.index _ 0 * 1 ≤ (i 0).val ∧ (i 0).val < win3_2.index _ 0 * 1 + 1
      rw [e6]; show (i 0).val * 1 ≤ (i 0).val ∧ (i 0).val < (i 0).val * 1 + 1; omega
    | ⟨1, _⟩ =>
      show win3_2.index _ 1 * 256 ≤ (i 1).val ∧ (i 1).val < win3_2.index _ 1 * 256 + 256
      rw [e7]; omega
    | ⟨2, _⟩ =>
      show win3_2.index _ 2 * 256 ≤ (i 2).val ∧ (i 2).val < win3_2.index _ 2 * 256 + 256
      rw [e8]; omega

end Cert.KernelIdeal.CovR3

end
-- ==== Proof.CovRegion4.lean ====
/-
  Launch 4: the statistics kernel over an array of shape `[32, 32, 1024]`, eight samples per grid point.

  Grid point `t` reads samples `8 t … 8 t + 7` of the input array and writes rows `8 t … 8 t + 7` of the output array
  `[32, 1024]`; the four points cover the output. So after the launch the output array is, row by row, the scaled mean
  row of the corresponding sample of the input array as the launch found it.
-/
import proofs.«119585_j64424509440533_1_alg».proof.Proof.Gen.KernelIdeal.Frame
import proofs.«119585_j64424509440533_1_alg».proof.Proof.CovBodies
import Idealize.ShloMosaic.Lib.Pipeline.Value

set_option maxRecDepth 16384

noncomputable section

namespace Cert.KernelIdeal.CovR4

open Idealize.ShloMosaic Idealize.ShloMosaic.TcCoe Idealize.SL.Sem Idealize.ShloMosaic.ValueIdx
open Idealize.ShloMosaic.Pipeline (Dat)
open Cert.KernelIdeal Cert.KernelIdeal.Gen Cert.CovMA

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The channel count, the row length and the named reciprocal of the row length less one, as the body spells them. -/
abbrev cC : Ideal .f32 := Scalar.ofBits (F := Ideal) .f32 0x42000000#32
abbrev cN : Ideal .f32 := Scalar.ofBits (F := Ideal) .f32 0x44800000#32
abbrev cInv : Ideal .f32 := Named.named (F := Ideal) κ "inv_1023" 0x3A802008#32

/-- The body's one stored value is the statistics body of its loaded block. -/
theorem pay_eq (x0 : Vec Ideal S8x32x1024 .f32) :
    k4_pay1 (F := Ideal) x0 = statsBody shapeCasts_S8x32x1024_S8x32x1024 reduces_S8x32x1024_S8x1024 reduces_S8x1024_S8
      shapeCasts_S8_S8x1 broadcasts_S8x1_S8x1024 cC cN cInv x0 := rfl

/-- The printed index maps over the grid: point `t` takes block `t` along the samples and block 0 along the other axes. -/
theorem idx_facts : ∀ t : Fin cfg4.N, win4_0.index t (0 : Fin 3) = t.val ∧ win4_0.index t (1 : Fin 3) = 0
    ∧ win4_0.index t (2 : Fin 3) = 0 ∧ win4_1.index t (0 : Fin 2) = t.val ∧ win4_1.index t (1 : Fin 2) = 0 :=
  (by decide +kernel : ∀ t : Fin grid4.N, _)

/-- The input block at point `t` holds samples `8 t … 8 t + 7` of the input array. -/
theorem iblk_in (c : Dev nD) (t : Fin cfg4.N) (p : Fin 8) (ch : Fin 32) (j : Fin 1024) (hq : t.val * 8 + p.val < 32) :
    (iblk4 V c 0 t : Vec Ideal S8x32x1024 .f32) (ix3 p ch j)
      = (V c main_v10 : S32x32x1024.Idx → EReal) (ix3 (⟨t.val * 8 + p.val, hq⟩ : Fin 32) ch j) := by
  obtain ⟨e0, e1, e2, -, -⟩ := idx_facts t
  unfold iblk4
  rw [View.read_apply]
  show V c main_v10 _ = V c main_v10 _
  refine congrArg (V c main_v10) ?_
  funext a
  apply Fin.ext
  match a with
  | ⟨0, _⟩ => show win4_0.index t 0 * 8 + 1 * p.val = t.val * 8 + p.val; rw [e0]; omega
  | ⟨1, _⟩ => show win4_0.index t 1 * 32 + 1 * ch.val = ch.val; rw [e1]; omega
  | ⟨2, _⟩ => show win4_0.index t 2 * 1024 + 1 * j.val = j.val; rw [e2]; omega

/-- What point `t` writes back is block `t` of the scaled mean rows of the input array. -/
theorem flushed_eq (c : Dev nD) (t : Fin cfg4.N) :
    (dat4 V c).flushed 1 t = ((cfg4.win 1).blk t).view.read (Elt Ideal) (statsArr cC cN cInv (V c main_v10)) := by
  show (cfg4.win 1).cut (grid4.coords t) ((dat4 V c).after 1 t) = _
  rw [after4_1]
  unfold out4_1
  rw [View.canon_unit_zero hz2]
  simp only [View.ld_unit_zero (S := S8x32x1024) hz3]
  rw [pay_eq]
  obtain ⟨-, -, -, e3, e4⟩ := idx_facts t
  have ht : t.val < 4 := Nat.lt_of_lt_of_eq t.isLt N_4
  funext y
  have hy0 : (y 0).val < 8 := (y 0).isLt
  have hy1 : (y 1).val < 1024 := (y 1).isLt
  have hq : t.val * 8 + (y 0).val < 32 := by omega
  show statsBody shapeCasts_S8x32x1024_S8x32x1024 reduces_S8x32x1024_S8x1024 reduces_S8x1024_S8
      shapeCasts_S8_S8x1 broadcasts_S8x1_S8x1024 cC cN cInv (iblk4 V c 0 t) y
    = statsArr cC cN cInv (V c main_v10) (((cfg4.win 1).blk t).view.emb y)
  have hemb : ((cfg4.win 1).blk t).view.emb y = ix2 (⟨t.val * 8 + (y 0).val, hq⟩ : Fin 32) (⟨(y 1).val, hy1⟩ : Fin 1024) := by
    funext a
    apply Fin.ext
    match a with
    | ⟨0, _⟩ => show win4_1.index t 0 * 8 + 1 * (y 0).val = t.val * 8 + (y 0).val; rw [e3]; omega
    | ⟨1, _⟩ => show win4_1.index t 1 * 1024 + 1 * (y 1).val = (y 1).val; rw [e4]; omega
  have hy : y = ix2 (⟨(y 0).val, hy0⟩ : Fin 8) (⟨(y 1).val, hy1⟩ : Fin 1024) := by
    funext a
    match a with
    | ⟨0, _⟩ => rfl
    | ⟨1, _⟩ => rfl
  rw [hemb]
  refine Eq.trans (congrArg (statsBody shapeCasts_S8x32x1024_S8x32x1024 reduces_S8x32x1024_S8x1024 reduces_S8x1024_S8
      shapeCasts_S8_S8x1 broadcasts_S8x1_S8x1024 cC cN cInv (iblk4 V c 0 t)) hy) ?_
  exact statsBody_block shapeCasts_S8x32x1024_S8x32x1024 reduces_S8x32x1024_S8x1024 reduces_S8x1024_S8
    shapeCasts_S8_S8x1 broadcasts_S8x1_S8x1024 cC cN cInv (V c main_v10) (iblk4 V c 0 t) t.val
    (fun p ch j hq' => iblk_in V c t p ch j hq') (⟨(y 0).val, hy0⟩ : Fin 8) (⟨(y 1).val, hy1⟩ : Fin 1024) hq

/-- An index of the output array is in point `t`'s block iff each coordinate is in the block's range on its axis. -/
theorem mem_blk (t : Fin cfg4.N) (i : S32x1024.Idx) :
    i ∈ ((cfg4.win 1).blk t).view.set ↔ ∀ a : Fin 2, win4_1.index t a * S8x1024.size a ≤ (i a).val
      ∧ (i a).val < win4_1.index t a * S8x1024.size a + S8x1024.size a := by
  show i ∈ ((View.whole main_v11).slice (win4_1.rect t)).set ↔ _
  rw [View.set_slice_whole, Rect.mem_set_unit]
  exact Iff.rfl

/-- After the launch the output array holds the scaled mean rows of the input array: row `r` is written by point `r / 8`. -/
theorem final (c : Dev nD) : (dat4 V c).arrAt 1 cfg4.N = statsArr cC cN cInv (V c main_v10) :=
  (dat4 V c).arrAt_eq_of_cover 1 _ (fun t _ => flushed_eq V c t) fun i => by
    have hi0 : (i 0).val < 32 := (i 0).isLt
    have hi1 : (i 1).val < 1024 := (i 1).isLt
    have hN : cfg4.N = 4 := N_4
    obtain ⟨-, -, -, e3, e4⟩ := idx_facts (⟨(i 0).val / 8, by rw [hN]; omega⟩ : Fin cfg4.N)
    refine ⟨⟨(i 0).val / 8, by rw [hN]; omega⟩, flush4_1 _, ?_⟩
    rw [mem_blk]
    intro a
    match a with
    | ⟨0, _⟩ =>
      show win4_1.index _ 0 * 8 ≤ (i 0).val ∧ (i 0).val < win4_1.index _ 0 * 8 + 8
      rw [e3]; show (i 0).val / 8 * 8 ≤ (i 0).val ∧ (i 0).val < (i 0).val / 8 * 8 + 8; omega
    | ⟨1, _⟩ =>
      show win4_1.index _ 1 * 1024 ≤ (i 1).val ∧ (i 1).val < win4_1.index _ 1 * 1024 + 1024
      rw [e4]; omega

end Cert.KernelIdeal.CovR4

end
-- ==== Proof.CovRegion5.lean ====
/-
  Launch 5: the outer-product kernel, one sample per grid point.

  Grid point `t` reads sample `t` of the column array `[32, 1024, 1]` and of the row array `[32, 1, 1024]` and writes sample
  `t` of the output array `[32, 1024, 1024]`; the 32 points cover the output. So after the launch the output array is,
  sample by sample, the outer product of the column with the row as the launch found them.
-/
import proofs.«119585_j64424509440533_1_alg».proof.Proof.Gen.KernelIdeal.Frame
import proofs.«119585_j64424509440533_1_alg».proof.Proof.CovBodies
import Idealize.ShloMosaic.Lib.Pipeline.Value

set_option maxRecDepth 16384

noncomputable section

namespace Cert.KernelIdeal.CovR5

open Idealize.ShloMosaic Idealize.ShloMosaic.TcCoe Idealize.SL.Sem Idealize.ShloMosaic.ValueIdx
open Idealize.ShloMosaic.Pipeline (Dat)
open Cert.KernelIdeal Cert.KernelIdeal.Gen Cert.CovMA

variable (V : (c : Dev nD) → (b : Ref sig .tc) → Buf (Elt Ideal) ((c : Thread nD τ).loc b))

theorem hz3 : (![0, 0, 0] : Fin 3 → Nat) = fun _ => 0 := funext fun a => by fin_cases a <;> rfl

/-- The body's one stored value is the outer-product body of its two loaded blocks. -/
theorem pay_eq (x0 : Vec Ideal S1x1024x1 .f32) (x1 : Vec Ideal S1x1x1024 .f32) :
    k5_pay1 (F := Ideal) x0 x1 = outerBody shapeCasts_S1x1024x1_S1x1024x1 shapeCasts_S1x1x1024_S1x1x1024
      broadcasts_S1x1024x1_S1x1024x1024 broadcasts_S1x1x1024_S1x1024x1024 x0 x1 := rfl

/-- The printed index maps over the grid: point `t` takes block `t` along the samples and block 0 along the other axes,
    in all three windows. -/
theorem idx_facts : ∀ t : Fin cfg5.N, win5_0.index t (0 : Fin 3) = t.val ∧ win5_0.index t (1 : Fin 3) = 0
    ∧ win5_0.index t (2 : Fin 3) = 0 ∧ win5_1.index t (0 : Fin 3) = t.val ∧ win5_1.index t (1 : Fin 3) = 0
    ∧ win5_1.index t (2 : Fin 3) = 0 ∧ win5_2.index t (0 : Fin 3) = t.val ∧ win5_2.index t (1 : Fin 3) = 0
    ∧ win5_2.index t (2 : Fin 3) = 0 :=
  (by decide +kernel : ∀ t : Fin grid5.N, _)

/-- The column block at point `t` is sample `t` of the column array. -/
theorem iblk_col (c : Dev nD) (t : Fin cfg5.N) (ht : t.val < 32) (i : Fin 1024) :
    (iblk5 V c 0 t : Vec Ideal S1x1024x1 .f32) (ix3 (0 : Fin 1) i (0 : Fin 1))
      = (V c main_v12 : S32x1024x1.Idx → EReal) (ix3 (⟨t.val, ht⟩ : Fin 32) i (0 : Fin 1)) := by
  obtain ⟨e0, e1, e2, -, -, -, -, -, -⟩ := idx_facts t
  unfold iblk5
  rw [View.read_apply]
  show V c main_v12 _ = V c main_v12 _
  refine congrArg (V c main_v12) ?_
  funext a
  apply Fin.ext
  match a with
  | ⟨0, _⟩ => show win5_0.index t 0 * 1 + 1 * 0 = t.val; rw [e0]; omega
  | ⟨1, _⟩ => show win5_0.index t 1 * 1024 + 1 * i.val = i.val; rw [e1]; omega
  | ⟨2, _⟩ => show win5_0.index t 2 * 1 + 1 * 0 = 0; rw [e2]

/-- The row block at point `t` is sample `t` of the row array. -/
theorem iblk_row (c : Dev nD) (t : Fin cfg5.N) (ht : t.val < 32) (j : Fin 1024) :
    (iblk5 V c 1 t : Vec Ideal S1x1x1024 .f32) (ix3 (0 : Fin 1) (0 : Fin 1) j)
      = (V c main_v13 : S32x1x1024.Idx → EReal) (ix3 (⟨t.val, ht⟩ : Fin 32) (0 : Fin 1) j) := by
  obtain ⟨-, -, -, e0, e1, e2, -, -, -⟩ := idx_facts t
  unfold iblk5
  rw [View.read_apply]
  show V c main_v13 _ = V c main_v13 _
  refine congrArg (V c main_v13) ?_
  funext a
  apply Fin.ext
  match a with
  | ⟨0, _⟩ => show win5_1.index t 0 * 1 + 1 * 0 = t.val; rw [e0]; omega
  | ⟨1, _⟩ => show win5_1.index t 1 * 1 + 1 * 0 = 0; rw [e1]
  | ⟨2, _⟩ => show win5_1.index t 2 * 1024 + 1 * j.val = j.val; rw [e2]; omega

/-- What point `t` writes back is sample `t` of the outer products of the column array with the row array. -/
theorem flushed_eq (c : Dev nD) (t : Fin cfg5.N) :
    (dat5 V c).flushed 2 t = ((cfg5.win 2).blk t).view.read (Elt Ideal) (outerArr (V c main_v12) (V c main_v13)) := by
  show (cfg5.win 2).cut (grid5.coords t) ((dat5 V c).after 2 t) = _
  rw [after5_2]
  unfold out5_2
  rw [View.canon_unit_zero hz3]
  simp only [View.ld_unit_zero (S := S1x1024x1) hz3, View.ld_unit_zero (S := S1x1x1024) hz3]
  rw [pay_eq]
  obtain ⟨-, -, -, -, -, -, e6, e7, e8⟩ := idx_facts t
  have ht : t.val < 32 := Nat.lt_of_lt_of_eq t.isLt N_5
  funext y
  have hy0 : (y 0).val < 1 := (y 0).isLt
  have hy1 : (y 1).val < 1024 := (y 1).isLt
  have hy2 : (y 2).val < 1024 := (y 2).isLt
  show outerBody shapeCasts_S1x1024x1_S1x1024x1 shapeCasts_S1x1x1024_S1x1x1024
      broadcasts_S1x1024x1_S1x1024x1024 broadcasts_S1x1x1024_S1x1024x1024 (iblk5 V c 0 t) (iblk5 V c 1 t) y
    = outerArr (V c main_v12) (V c main_v13) (((cfg5.win 2).blk t).view.emb y)
  have hemb : ((cfg5.win 2).blk t).view.emb y
      = ix3 (⟨t.val, ht⟩ : Fin 32) (⟨(y 1).val, hy1⟩ : Fin 1024) (⟨(y 2).val, hy2⟩ : Fin 1024) := by
    funext a
    apply Fin.ext
    match a with
    | ⟨0, _⟩ => show win5_2.index t 0 * 1 + 1 * (y 0).val = t.val; rw [e6]; omega
    | ⟨1, _⟩ => show win5_2.index t 1 * 1024 + 1 * (y 1).val = (y 1).val; rw [e7]; omega
    | ⟨2, _⟩ => show win5_2.index t 2 * 1024 + 1 * (y 2).val = (y 2).val; rw [e8]; omega
  have hy : y = ix3 (⟨(y 0).val, hy0⟩ : Fin 1) (⟨(y 1).val, hy1⟩ : Fin 1024) (⟨(y 2).val, hy2⟩ : Fin 1024) := by
    funext a
    match a with
    | ⟨0, _⟩ => rfl
    | ⟨1, _⟩ => rfl
    | ⟨2, _⟩ => rfl
  rw [hemb]
  refine Eq.trans (congrArg (outerBody shapeCasts_S1x1024x1_S1x1024x1 shapeCasts_S1x1x1024_S1x1x1024
      broadcasts_S1x1024x1_S1x1024x1024 broadcasts_S1x1x1024_S1x1024x1024 (iblk5 V c 0 t) (iblk5 V c 1 t)) hy) ?_
  exact outerBody_block shapeCasts_S1x1024x1_S1x1024x1 shapeCasts_S1x1x1024_S1x1x1024
    broadcasts_S1x1024x1_S1x1024x1024 broadcasts_S1x1x1024_S1x1024x1024 (V c main_v12) (V c main_v13)
    (iblk5 V c 0 t) (iblk5 V c 1 t) (⟨t.val, ht⟩ : Fin 32) (fun i => iblk_col V c t ht i) (fun j => iblk_row V c t ht j)
    (⟨(y 0).val, hy0⟩ : Fin 1) (⟨(y 1).val, hy1⟩ : Fin 1024) (⟨(y 2).val, hy2⟩ : Fin 1024)

/-- An index of the output array is in point `t`'s block iff each coordinate is in the block's range on its axis. -/
theorem mem_blk (t : Fin cfg5.N) (i : S32x1024x1024.Idx) :
    i ∈ ((cfg5.win 2).blk t).view.set ↔ ∀ a : Fin 3, win5_2.index t a * S1x1024x1024.size a ≤ (i a).val
      ∧ (i a).val < win5_2.index t a * S1x1024x1024.size a + S1x1024x1024.size a := by
  show i ∈ ((View.whole main_v14).slice (win5_2.rect t)).set ↔ _
  rw [View.set_slice_whole, Rect.mem_set_unit]
  exact Iff.rfl

/-- After the launch the output array holds the outer products: sample `b` is written by point `b`. -/
theorem final (c : Dev nD) : (dat5 V c).arrAt 2 cfg5.N = outerArr (V c main_v12) (V c main_v13) :=
  (dat5 V c).arrAt_eq_of_cover 2 _ (fun t _ => flushed_eq V c t) fun i => by
    have hi0 : (i 0).val < 32 := (i 0).isLt
    have hi1 : (i 1).val < 1024 := (i 1).isLt
    have hi2 : (i 2).val < 1024 := (i 2).isLt
    have hN : cfg5.N = 32 := N_5
    obtain ⟨-, -, -, -, -, -, e6, e7, e8⟩ := idx_facts (⟨(i 0).val, by rw [hN]; exact hi0⟩ : Fin cfg5.N)
    refine ⟨⟨(i 0).val, by rw [hN]; exact hi0⟩, flush5_2 _, ?_⟩
    rw [mem_blk]
    intro a
    match a with
    | ⟨0, _⟩ =>
      show win5_2.index _ 0 * 1 ≤ (i 0).val ∧ (i 0).val < win5_2.index _ 0 * 1 + 1
      rw [e6]; show (i 0).val * 1 ≤ (i 0).val ∧ (i 0).val < (i 0).val * 1 + 1; omega
    | ⟨1, _⟩ =>
      show win5_2.index _ 1 * 1024 ≤ (i 1).val ∧ (i 1).val < win5_2.index _ 1 * 1024 + 1024
      rw [e7]; omega
    | ⟨2, _⟩ =>
      show win5_2.index _ 2 * 1024 ≤ (i 2).val ∧ (i 2).val < win5_2.index _ 2 * 1024 + 1024
      rw [e8]; omega

end Cert.KernelIdeal.CovR5

end
-- ==== Proof.CovRegion6.lean ====
/-
  Launch 6: the statistics kernel over an array of shape `[32, 64, 256]`, eight samples per grid point.

  Grid point `t` reads samples `8 t … 8 t + 7` of the input array and writes rows `8 t … 8 t + 7` of the output array
  `[32, 256]`; the four points cover the output. So after the launch the output array is, row by row, the scaled mean
  row of the corresponding sample of the input array as the launch found it.
-/
import proofs.«119585_j64424509440533_1_alg».proof.Proof.Gen.KernelIdeal.Frame
import proofs.«119585_j64424509440533_1_alg».proof.Proof.CovBodies
import Idealize.ShloMosaic.Lib.Pipeline.Value

set_option maxRecDepth 16384

noncomputable section

namespace Cert.KernelIdeal.CovR6

open Idealize.ShloMosaic Idealize.ShloMosaic.TcCoe Idealize.SL.Sem Idealize.ShloMosaic.ValueIdx
open Idealize.ShloMosaic.Pipeline (Dat)
open Cert.KernelIdeal Cert.KernelIdeal.Gen Cert.CovMA

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The channel count, the row length and the named reciprocal of the row length less one, as the body spells them. -/
abbrev cC : Ideal .f32 := Scalar.ofBits (F := Ideal) .f32 0x42800000#32
abbrev cN : Ideal .f32 := Scalar.ofBits (F := Ideal) .f32 0x43800000#32
abbrev cInv : Ideal .f32 := Named.named (F := Ideal) κ "inv_255" 0x3B808081#32

/-- The body's one stored value is the statistics body of its loaded block. -/
theorem pay_eq (x0 : Vec Ideal S8x64x256 .f32) :
    k6_pay1 (F := Ideal) x0 = statsBody shapeCasts_S8x64x256_S8x64x256 reduces_S8x64x256_S8x256 reduces_S8x256_S8
      shapeCasts_S8_S8x1 broadcasts_S8x1_S8x256 cC cN cInv x0 := rfl

/-- The printed index maps over the grid: point `t` takes block `t` along the samples and block 0 along the other axes. -/
theorem idx_facts : ∀ t : Fin cfg6.N, win6_0.index t (0 : Fin 3) = t.val ∧ win6_0.index t (1 : Fin 3) = 0
    ∧ win6_0.index t (2 : Fin 3) = 0 ∧ win6_1.index t (0 : Fin 2) = t.val ∧ win6_1.index t (1 : Fin 2) = 0 :=
  (by decide +kernel : ∀ t : Fin grid6.N, _)

/-- The input block at point `t` holds samples `8 t … 8 t + 7` of the input array. -/
theorem iblk_in (c : Dev nD) (t : Fin cfg6.N) (p : Fin 8) (ch : Fin 64) (j : Fin 256) (hq : t.val * 8 + p.val < 32) :
    (iblk6 V c 0 t : Vec Ideal S8x64x256 .f32) (ix3 p ch j)
      = (V c main_v15 : S32x64x256.Idx → EReal) (ix3 (⟨t.val * 8 + p.val, hq⟩ : Fin 32) ch j) := by
  obtain ⟨e0, e1, e2, -, -⟩ := idx_facts t
  unfold iblk6
  rw [View.read_apply]
  show V c main_v15 _ = V c main_v15 _
  refine congrArg (V c main_v15) ?_
  funext a
  apply Fin.ext
  match a with
  | ⟨0, _⟩ => show win6_0.index t 0 * 8 + 1 * p.val = t.val * 8 + p.val; rw [e0]; omega
  | ⟨1, _⟩ => show win6_0.index t 1 * 64 + 1 * ch.val = ch.val; rw [e1]; omega
  | ⟨2, _⟩ => show win6_0.index t 2 * 256 + 1 * j.val = j.val; rw [e2]; omega

/-- What point `t` writes back is block `t` of the scaled mean rows of the input array. -/
theorem flushed_eq (c : Dev nD) (t : Fin cfg6.N) :
    (dat6 V c).flushed 1 t = ((cfg6.win 1).blk t).view.read (Elt Ideal) (statsArr cC cN cInv (V c main_v15)) := by
  show (cfg6.win 1).cut (grid6.coords t) ((dat6 V c).after 1 t) = _
  rw [after6_1]
  unfold out6_1
  rw [View.canon_unit_zero hz2]
  simp only [View.ld_unit_zero (S := S8x64x256) hz3]
  rw [pay_eq]
  obtain ⟨-, -, -, e3, e4⟩ := idx_facts t
  have ht : t.val < 4 := Nat.lt_of_lt_of_eq t.isLt N_6
  funext y
  have hy0 : (y 0).val < 8 := (y 0).isLt
  have hy1 : (y 1).val < 256 := (y 1).isLt
  have hq : t.val * 8 + (y 0).val < 32 := by omega
  show statsBody shapeCasts_S8x64x256_S8x64x256 reduces_S8x64x256_S8x256 reduces_S8x256_S8
      shapeCasts_S8_S8x1 broadcasts_S8x1_S8x256 cC cN cInv (iblk6 V c 0 t) y
    = statsArr cC cN cInv (V c main_v15) (((cfg6.win 1).blk t).view.emb y)
  have hemb : ((cfg6.win 1).blk t).view.emb y = ix2 (⟨t.val * 8 + (y 0).val, hq⟩ : Fin 32) (⟨(y 1).val, hy1⟩ : Fin 256) := by
    funext a
    apply Fin.ext
    match a with
    | ⟨0, _⟩ => show win6_1.index t 0 * 8 + 1 * (y 0).val = t.val * 8 + (y 0).val; rw [e3]; omega
    | ⟨1, _⟩ => show win6_1.index t 1 * 256 + 1 * (y 1).val = (y 1).val; rw [e4]; omega
  have hy : y = ix2 (⟨(y 0).val, hy0⟩ : Fin 8) (⟨(y 1).val, hy1⟩ : Fin 256) := by
    funext a
    match a with
    | ⟨0, _⟩ => rfl
    | ⟨1, _⟩ => rfl
  rw [hemb]
  refine Eq.trans (congrArg (statsBody shapeCasts_S8x64x256_S8x64x256 reduces_S8x64x256_S8x256 reduces_S8x256_S8
      shapeCasts_S8_S8x1 broadcasts_S8x1_S8x256 cC cN cInv (iblk6 V c 0 t)) hy) ?_
  exact statsBody_block shapeCasts_S8x64x256_S8x64x256 reduces_S8x64x256_S8x256 reduces_S8x256_S8
    shapeCasts_S8_S8x1 broadcasts_S8x1_S8x256 cC cN cInv (V c main_v15) (iblk6 V c 0 t) t.val
    (fun p ch j hq' => iblk_in V c t p ch j hq') (⟨(y 0).val, hy0⟩ : Fin 8) (⟨(y 1).val, hy1⟩ : Fin 256) hq

/-- An index of the output array is in point `t`'s block iff each coordinate is in the block's range on its axis. -/
theorem mem_blk (t : Fin cfg6.N) (i : S32x256.Idx) :
    i ∈ ((cfg6.win 1).blk t).view.set ↔ ∀ a : Fin 2, win6_1.index t a * S8x256.size a ≤ (i a).val
      ∧ (i a).val < win6_1.index t a * S8x256.size a + S8x256.size a := by
  show i ∈ ((View.whole main_v16).slice (win6_1.rect t)).set ↔ _
  rw [View.set_slice_whole, Rect.mem_set_unit]
  exact Iff.rfl

/-- After the launch the output array holds the scaled mean rows of the input array: row `r` is written by point `r / 8`. -/
theorem final (c : Dev nD) : (dat6 V c).arrAt 1 cfg6.N = statsArr cC cN cInv (V c main_v15) :=
  (dat6 V c).arrAt_eq_of_cover 1 _ (fun t _ => flushed_eq V c t) fun i => by
    have hi0 : (i 0).val < 32 := (i 0).isLt
    have hi1 : (i 1).val < 256 := (i 1).isLt
    have hN : cfg6.N = 4 := N_6
    obtain ⟨-, -, -, e3, e4⟩ := idx_facts (⟨(i 0).val / 8, by rw [hN]; omega⟩ : Fin cfg6.N)
    refine ⟨⟨(i 0).val / 8, by rw [hN]; omega⟩, flush6_1 _, ?_⟩
    rw [mem_blk]
    intro a
    match a with
    | ⟨0, _⟩ =>
      show win6_1.index _ 0 * 8 ≤ (i 0).val ∧ (i 0).val < win6_1.index _ 0 * 8 + 8
      rw [e3]; show (i 0).val / 8 * 8 ≤ (i 0).val ∧ (i 0).val < (i 0).val / 8 * 8 + 8; omega
    | ⟨1, _⟩ =>
      show win6_1.index _ 1 * 256 ≤ (i 1).val ∧ (i 1).val < win6_1.index _ 1 * 256 + 256
      rw [e4]; omega

end Cert.KernelIdeal.CovR6

end
-- ==== Proof.CovRegion7.lean ====
/-
  Launch 7: the outer-product kernel, one sample per grid point.

  Grid point `t` reads sample `t` of the column array `[32, 256, 1]` and of the row array `[32, 1, 256]` and writes sample
  `t` of the output array `[32, 256, 256]`; the 32 points cover the output. So after the launch the output array is,
  sample by sample, the outer product of the column with the row as the launch found them.
-/
import proofs.«119585_j64424509440533_1_alg».proof.Proof.Gen.KernelIdeal.Frame
import proofs.«119585_j64424509440533_1_alg».proof.Proof.CovBodies
import Idealize.ShloMosaic.Lib.Pipeline.Value

set_option maxRecDepth 16384

noncomputable section

namespace Cert.KernelIdeal.CovR7

open Idealize.ShloMosaic Idealize.ShloMosaic.TcCoe Idealize.SL.Sem Idealize.ShloMosaic.ValueIdx
open Idealize.ShloMosaic.Pipeline (Dat)
open Cert.KernelIdeal Cert.KernelIdeal.Gen Cert.CovMA

variable (V : (c : Dev nD) → (b : Ref sig .tc) → Buf (Elt Ideal) ((c : Thread nD τ).loc b))

theorem hz3 : (![0, 0, 0] : Fin 3 → Nat) = fun _ => 0 := funext fun a => by fin_cases a <;> rfl

/-- The body's one stored value is the outer-product body of its two loaded blocks. -/
theorem pay_eq (x0 : Vec Ideal S1x256x1 .f32) (x1 : Vec Ideal S1x1x256 .f32) :
    k7_pay1 (F := Ideal) x0 x1 = outerBody shapeCasts_S1x256x1_S1x256x1 shapeCasts_S1x1x256_S1x1x256
      broadcasts_S1x256x1_S1x256x256 broadcasts_S1x1x256_S1x256x256 x0 x1 := rfl

/-- The printed index maps over the grid: point `t` takes block `t` along the samples and block 0 along the other axes,
    in all three windows. -/
theorem idx_facts : ∀ t : Fin cfg7.N, win7_0.index t (0 : Fin 3) = t.val ∧ win7_0.index t (1 : Fin 3) = 0
    ∧ win7_0.index t (2 : Fin 3) = 0 ∧ win7_1.index t (0 : Fin 3) = t.val ∧ win7_1.index t (1 : Fin 3) = 0
    ∧ win7_1.index t (2 : Fin 3) = 0 ∧ win7_2.index t (0 : Fin 3) = t.val ∧ win7_2.index t (1 : Fin 3) = 0
    ∧ win7_2.index t (2 : Fin 3) = 0 :=
  (by decide +kernel : ∀ t : Fin grid7.N, _)

/-- The column block at point `t` is sample `t` of the column array. -/
theorem iblk_col (c : Dev nD) (t : Fin cfg7.N) (ht : t.val < 32) (i : Fin 256) :
    (iblk7 V c 0 t : Vec Ideal S1x256x1 .f32) (ix3 (0 : Fin 1) i (0 : Fin 1))
      = (V c main_v17 : S32x256x1.Idx → EReal) (ix3 (⟨t.val, ht⟩ : Fin 32) i (0 : Fin 1)) := by
  obtain ⟨e0, e1, e2, -, -, -, -, -, -⟩ := idx_facts t
  unfold iblk7
  rw [View.read_apply]
  show V c main_v17 _ = V c main_v17 _
  refine congrArg (V c main_v17) ?_
  funext a
  apply Fin.ext
  match a with
  | ⟨0, _⟩ => show win7_0.index t 0 * 1 + 1 * 0 = t.val; rw [e0]; omega
  | ⟨1, _⟩ => show win7_0.index t 1 * 256 + 1 * i.val = i.val; rw [e1]; omega
  | ⟨2, _⟩ => show win7_0.index t 2 * 1 + 1 * 0 = 0; rw [e2]

/-- The row block at point `t` is sample `t` of the row array. -/
theorem iblk_row (c : Dev nD) (t : Fin cfg7.N) (ht : t.val < 32) (j : Fin 256) :
    (iblk7 V c 1 t : Vec Ideal S1x1x256 .f32) (ix3 (0 : Fin 1) (0 : Fin 1) j)
      = (V c main_v18 : S32x1x256.Idx → EReal) (ix3 (⟨t.val, ht⟩ : Fin 32) (0 : Fin 1) j) := by
  obtain ⟨-, -, -, e0, e1, e2, -, -, -⟩ := idx_facts t
  unfold iblk7
  rw [View.read_apply]
  show V c main_v18 _ = V c main_v18 _
  refine congrArg (V c main_v18) ?_
  funext a
  apply Fin.ext
  match a with
  | ⟨0, _⟩ => show win7_1.index t 0 * 1 + 1 * 0 = t.val; rw [e0]; omega
  | ⟨1, _⟩ => show win7_1.index t 1 * 1 + 1 * 0 = 0; rw [e1]
  | ⟨2, _⟩ => show win7_1.index t 2 * 256 + 1 * j.val = j.val; rw [e2]; omega

/-- What point `t` writes back is sample `t` of the outer products of the column array with the row array. -/
theorem flushed_eq (c : Dev nD) (t : Fin cfg7.N) :
    (dat7 V c).flushed 2 t = ((cfg7.win 2).blk t).view.read (Elt Ideal) (outerArr (V c main_v17) (V c main_v18)) := by
  show (cfg7.win 2).cut (grid7.coords t) ((dat7 V c).after 2 t) = _
  rw [after7_2]
  unfold out7_2
  rw [View.canon_unit_zero hz3]
  simp only [View.ld_unit_zero (S := S1x256x1) hz3, View.ld_unit_zero (S := S1x1x256) hz3]
  rw [pay_eq]
  obtain ⟨-, -, -, -, -, -, e6, e7, e8⟩ := idx_facts t
  have ht : t.val < 32 := Nat.lt_of_lt_of_eq t.isLt N_7
  funext y
  have hy0 : (y 0).val < 1 := (y 0).isLt
  have hy1 : (y 1).val < 256 := (y 1).isLt
  have hy2 : (y 2).val < 256 := (y 2).isLt
  show outerBody shapeCasts_S1x256x1_S1x256x1 shapeCasts_S1x1x256_S1x1x256
      broadcasts_S1x256x1_S1x256x256 broadcasts_S1x1x256_S1x256x256 (iblk7 V c 0 t) (iblk7 V c 1 t) y
    = outerArr (V c main_v17) (V c main_v18) (((cfg7.win 2).blk t).view.emb y)
  have hemb : ((cfg7.win 2).blk t).view.emb y
      = ix3 (⟨t.val, ht⟩ : Fin 32) (⟨(y 1).val, hy1⟩ : Fin 256) (⟨(y 2).val, hy2⟩ : Fin 256) := by
    funext a
    apply Fin.ext
    match a with
    | ⟨0, _⟩ => show win7_2.index t 0 * 1 + 1 * (y 0).val = t.val; rw [e6]; omega
    | ⟨1, _⟩ => show win7_2.index t 1 * 256 + 1 * (y 1).val = (y 1).val; rw [e7]; omega
    | ⟨2, _⟩ => show win7_2.index t 2 * 256 + 1 * (y 2).val = (y 2).val; rw [e8]; omega
  have hy : y = ix3 (⟨(y 0).val, hy0⟩ : Fin 1) (⟨(y 1).val, hy1⟩ : Fin 256) (⟨(y 2).val, hy2⟩ : Fin 256) := by
    funext a
    match a with
    | ⟨0, _⟩ => rfl
    | ⟨1, _⟩ => rfl
    | ⟨2, _⟩ => rfl
  rw [hemb]
  refine Eq.trans (congrArg (outerBody shapeCasts_S1x256x1_S1x256x1 shapeCasts_S1x1x256_S1x1x256
      broadcasts_S1x256x1_S1x256x256 broadcasts_S1x1x256_S1x256x256 (iblk7 V c 0 t) (iblk7 V c 1 t)) hy) ?_
  exact outerBody_block shapeCasts_S1x256x1_S1x256x1 shapeCasts_S1x1x256_S1x1x256
    broadcasts_S1x256x1_S1x256x256 broadcasts_S1x1x256_S1x256x256 (V c main_v17) (V c main_v18)
    (iblk7 V c 0 t) (iblk7 V c 1 t) (⟨t.val, ht⟩ : Fin 32) (fun i => iblk_col V c t ht i) (fun j => iblk_row V c t ht j)
    (⟨(y 0).val, hy0⟩ : Fin 1) (⟨(y 1).val, hy1⟩ : Fin 256) (⟨(y 2).val, hy2⟩ : Fin 256)

/-- An index of the output array is in point `t`'s block iff each coordinate is in the block's range on its axis. -/
theorem mem_blk (t : Fin cfg7.N) (i : S32x256x256.Idx) :
    i ∈ ((cfg7.win 2).blk t).view.set ↔ ∀ a : Fin 3, win7_2.index t a * S1x256x256.size a ≤ (i a).val
      ∧ (i a).val < win7_2.index t a * S1x256x256.size a + S1x256x256.size a := by
  show i ∈ ((View.whole main_v19).slice (win7_2.rect t)).set ↔ _
  rw [View.set_slice_whole, Rect.mem_set_unit]
  exact Iff.rfl

/-- After the launch the output array holds the outer products: sample `b` is written by point `b`. -/
theorem final (c : Dev nD) : (dat7 V c).arrAt 2 cfg7.N = outerArr (V c main_v17) (V c main_v18) :=
  (dat7 V c).arrAt_eq_of_cover 2 _ (fun t _ => flushed_eq V c t) fun i => by
    have hi0 : (i 0).val < 32 := (i 0).isLt
    have hi1 : (i 1).val < 256 := (i 1).isLt
    have hi2 : (i 2).val < 256 := (i 2).isLt
    have hN : cfg7.N = 32 := N_7
    obtain ⟨-, -, -, -, -, -, e6, e7, e8⟩ := idx_facts (⟨(i 0).val, by rw [hN]; exact hi0⟩ : Fin cfg7.N)
    refine ⟨⟨(i 0).val, by rw [hN]; exact hi0⟩, flush7_2 _, ?_⟩
    rw [mem_blk]
    intro a
    match a with
    | ⟨0, _⟩ =>
      show win7_2.index _ 0 * 1 ≤ (i 0).val ∧ (i 0).val < win7_2.index _ 0 * 1 + 1
      rw [e6]; show (i 0).val * 1 ≤ (i 0).val ∧ (i 0).val < (i 0).val * 1 + 1; omega
    | ⟨1, _⟩ =>
      show win7_2.index _ 1 * 256 ≤ (i 1).val ∧ (i 1).val < win7_2.index _ 1 * 256 + 256
      rw [e7]; omega
    | ⟨2, _⟩ =>
      show win7_2.index _ 2 * 256 ≤ (i 2).val ∧ (i 2).val < win7_2.index _ 2 * 256 + 256
      rw [e8]; omega

end Cert.KernelIdeal.CovR7

end
-- ==== Proof.CovCompose.lean ====
/-
  The two launches of one input composed: the outer products of the scaled mean rows are `covScaled`.

  The first launch turns the flattened input `X` (`[32, C, n]`: entry `(b, ch, j)` is pixel `j` of channel `ch` of sample
  `b`) into the scaled mean rows `S` (`[32, n]`); the host places `S` as a column `A` (`[32, n, 1]`) and as a row `B`
  (`[32, 1, n]`); the second launch multiplies them entry by entry. Entry `(b, i, k)` of the result is therefore
  `S (b, i) * S (b, k)`, the product of two entries of sample `b`'s scaled mean row.
-/
import proofs.«119585_j64424509440533_1_alg».proof.Proof.CovBodies
import proofs.«119585_j64424509440533_1_alg».proof.Proof.CovSpec

noncomputable section

namespace Cert.CovMA

open Idealize.ShloMosaic Idealize.ShloMosaic.ValueIdx

theorem outer_stats_eq_covScaled {C H W n : ℕ} (hn : n = H * W) (cC cN cInv : EReal)
    (x : (⟨4, ![32, C, H, W]⟩ : Shape).Idx → EReal) (X : (⟨3, ![32, C, n]⟩ : Shape).Idx → EReal)
    (S : (⟨2, ![32, n]⟩ : Shape).Idx → EReal)
    (A : (⟨3, ![32, n, 1]⟩ : Shape).Idx → EReal) (B : (⟨3, ![32, 1, n]⟩ : Shape).Idx → EReal)
    (hX : ∀ (b : Fin 32) (ch : Fin C) (j : Fin n), X (ix3 b ch j) = x (pix hn b ch j))
    (hS : S = statsArr cC cN cInv X)
    (hA : ∀ (b : Fin 32) (i : Fin n) (u : Fin 1), A (ix3 b i u) = S (ix2 b i))
    (hB : ∀ (b : Fin 32) (u : Fin 1) (k : Fin n), B (ix3 b u k) = S (ix2 b k)) :
    outerArr A B = covScaled hn cC cN cInv x := by
  funext o
  unfold outerArr covScaled
  rw [hA, hB, hS]
  unfold statsArr meanRow
  simp only [hX]
  rfl

/-- `covScaled` at equal constants. -/
theorem covScaled_congr {C H W n : ℕ} (hn : n = H * W) {cC cN cInv cC' cN' cInv' : EReal}
    (h1 : cC = cC') (h2 : cN = cN') (h3 : cInv = cInv') (x : (⟨4, ![32, C, H, W]⟩ : Shape).Idx → EReal) :
    covScaled hn cC cN cInv x = covScaled hn cC' cN' cInv' x := by
  subst h1 h2 h3; rfl

end Cert.CovMA

end
-- ==== Proof.CovConsts.lean ====
/-
  The float literals of the two programs as the extended reals they denote: the channel counts 32, 64 and 128 that
  a channel mean divides by, the lengths 256 and 1024 of a flattened image that a row mean divides by, and the
  lengths less one, 255 and 1023, that the covariance divides by. The zero word, the start of every sum, denotes 0.
-/
import Idealize.ShloMosaic.PureOps.Ideal

noncomputable section

namespace Cert.CovMA.Consts

open Idealize.ShloMosaic

theorem ofBits_zero : Ideal.ofBits .f32 0x00000000#32 = 0 := by
  simp [Ideal.ofBits, Ideal.ieee]

theorem ofBits_32 : Ideal.ofBits .f32 0x42000000#32 = ((32 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_255 : Ideal.ofBits .f32 0x437F0000#32 = ((255 : ℝ) : EReal) := by
  simp [Ideal.ofBits, Ideal.ieee, -EReal.coe_mul]; norm_num

theorem ofBits_1023 : Ideal.ofBits .f32 0x447FC000#32 = ((1023 : ℝ) : EReal) := by
  simp [Ideal.ofBits, Ideal.ieee, -EReal.coe_mul]; norm_num

end Cert.CovMA.Consts

end
-- ==== Proof.CovKernel.lean ====
/-
  The idealized kernel program's four results as functions of its four inputs.

  For each input the program reshapes it to `[32, C, n]`, launches the statistics kernel (the scaled mean rows), places
  the rows as a column and as a row, and launches the outer-product kernel. Reading the last boundary's contents back
  through the launches and the host operations, each result is `covScaled` of its input: entry `(b, i, k)` is the
  product of entries `i` and `k` of sample `b`'s scaled mean row. The constants are the channel count, the row
  length, and the reciprocal of the row length less one, which the program names.
-/
import proofs.«119585_j64424509440533_1_alg».proof.Proof.CovRun
import proofs.«119585_j64424509440533_1_alg».proof.Proof.CovHost
import proofs.«119585_j64424509440533_1_alg».proof.Proof.CovRegion0
import proofs.«119585_j64424509440533_1_alg».proof.Proof.CovRegion1
import proofs.«119585_j64424509440533_1_alg».proof.Proof.CovRegion2
import proofs.«119585_j64424509440533_1_alg».proof.Proof.CovRegion3
import proofs.«119585_j64424509440533_1_alg».proof.Proof.CovRegion4
import proofs.«119585_j64424509440533_1_alg».proof.Proof.CovRegion5
import proofs.«119585_j64424509440533_1_alg».proof.Proof.CovRegion6
import proofs.«119585_j64424509440533_1_alg».proof.Proof.CovRegion7
import proofs.«119585_j64424509440533_1_alg».proof.Proof.CovCompose
import proofs.«119585_j64424509440533_1_alg».proof.Proof.CovConsts
import Idealize.ShloMosaic.PureOps.IdealRules

set_option maxRecDepth 16384

noncomputable section

namespace Cert.KernelIdeal.CovValue

open Idealize.ShloMosaic Idealize.ShloMosaic.TcCoe Idealize.SL.Sem Idealize.ShloMosaic.ValueIdx
open Cert.KernelIdeal Cert.KernelIdeal.Gen Cert.CovMA

variable (m : (ℓ : Loc nD τ sig) → Buf (Elt Ideal) ℓ) (ρ : Dev nD → PrngReg)

/-- The named reciprocals denote `1/1023` and `1/255`, by the program's table of names. -/
theorem inv_1023 : Named.named (F := Ideal) κ "inv_1023" (φ := .f32) 0x3A802008#32 = ((1 / 1023 : ℝ) : EReal) :=
  IdealRules.named_const.ideal_named_scalar _ _ _ _ rfl
theorem inv_255 : Named.named (F := Ideal) κ "inv_255" (φ := .f32) 0x3B808081#32 = ((1 / 255 : ℝ) : EReal) :=
  IdealRules.named_const.ideal_named_scalar _ _ _ _ rfl

/-- The result `main_v4`: the covariance, in its scaled-row form, of the channel means of `main_arg0`. -/
theorem value_main_v4 (c : Dev nD) :
    (W16 m ρ c (Proc.devRef .tc main_v4) : S32x1024x1024.Idx → EReal)
      = covScaled (C := 64) (H := 32) (W := 32) (n := 1024) rfl ((64 : ℝ) : EReal) ((1024 : ℝ) : EReal) ((1 / 1023 : ℝ) : EReal)
          (m ((c : Thread nD τ).loc main_arg0)) := by
  rw [CovHost.back_v4 m ρ c]
  refine ((W4_arr m ρ c 2).trans (CovR1.final (V3 m ρ) c)).trans ?_
  refine (outer_stats_eq_covScaled (C := 64) (H := 32) (W := 32) (n := 1024) rfl CovR0.cC CovR0.cN CovR0.cInv
    (m ((c : Thread nD τ).loc main_arg0)) (V1 m ρ c main_v0) (W2 m ρ c (Proc.devRef .tc main_v1)) (V3 m ρ c main_v2) (V3 m ρ c main_v3)
    (fun b ch j => CovHost.entry0 m ρ c b ch j)
    ((W2_arr m ρ c 1).trans (CovR0.final (V1 m ρ) c))
    (fun b i u => CovHost.entry1_col m ρ c b i u)
    (fun b u k => CovHost.entry1_row m ρ c b u k)).trans ?_
  exact covScaled_congr rfl Cert.CovMA.Consts.ofBits_64 Cert.CovMA.Consts.ofBits_1024 inv_1023 _

/-- The result `main_v9`: the covariance, in its scaled-row form, of the channel means of `main_arg1`. -/
theorem value_main_v9 (c : Dev nD) :
    (W16 m ρ c (Proc.devRef .tc main_v9) : S32x256x256.Idx → EReal)
      = covScaled (C := 128) (H := 16) (W := 16) (n := 256) rfl ((128 : ℝ) : EReal) ((256 : ℝ) : EReal) ((1 / 255 : ℝ) : EReal)
          (m ((c : Thread nD τ).loc main_arg1)) := by
  rw [CovHost.back_v9 m ρ c]
  refine ((W8_arr m ρ c 2).trans (CovR3.final (V7 m ρ) c)).trans ?_
  refine (outer_stats_eq_covScaled (C := 128) (H := 16) (W := 16) (n := 256) rfl CovR2.cC CovR2.cN CovR2.cInv
    (m ((c : Thread nD τ).loc main_arg1)) (V5 m ρ c main_v5) (W6 m ρ c (Proc.devRef .tc main_v6)) (V7 m ρ c main_v7) (V7 m ρ c main_v8)
    (fun b ch j => CovHost.entry2 m ρ c b ch j)
    ((W6_arr m ρ c 1).trans (CovR2.final (V5 m ρ) c))
    (fun b i u => CovHost.entry3_col m ρ c b i u)
    (fun b u k => CovHost.entry3_row m ρ c b u k)).trans ?_
  exact covScaled_congr rfl Cert.CovMA.Consts.ofBits_128 Cert.CovMA.Consts.ofBits_256 inv_255 _

/-- The result `main_v14`: the covariance, in its scaled-row form, of the channel means of `main_arg2`. -/
theorem value_main_v14 (c : Dev nD) :
    (W16 m ρ c (Proc.devRef .tc main_v14) : S32x1024x1024.Idx → EReal)
      = covScaled (C := 32) (H := 32) (W := 32) (n := 1024) rfl ((32 : ℝ) : EReal) ((1024 : ℝ) : EReal) ((1 / 1023 : ℝ) : EReal)
          (m ((c : Thread nD τ).loc main_arg2)) := by
  rw [CovHost.back_v14 m ρ c]
  refine ((W12_arr m ρ c 2).trans (CovR5.final (V11 m ρ) c)).trans ?_
  refine (outer_stats_eq_covScaled (C := 32) (H := 32) (W := 32) (n := 1024) rfl CovR4.cC CovR4.cN CovR4.cInv
    (m ((c : Thread nD τ).loc main_arg2)) (V9 m ρ c main_v10) (W10 m ρ c (Proc.devRef .tc main_v11)) (V11 m ρ c main_v12) (V11 m ρ c main_v13)
    (fun b ch j => CovHost.entry4 m ρ c b ch j)
    ((W10_arr m ρ c 1).trans (CovR4.final (V9 m ρ) c))
    (fun b i u => CovHost.entry5_col m ρ c b i u)
    (fun b u k => CovHost.entry5_row m ρ c b u k)).trans ?_
  exact covScaled_congr rfl Cert.CovMA.Consts.ofBits_32 Cert.CovMA.Consts.ofBits_1024 inv_1023 _

/-- The result `main_v19`: the covariance, in its scaled-row form, of the channel means of `main_arg3`. -/
theorem value_main_v19 (c : Dev nD) :
    (W16 m ρ c (Proc.devRef .tc main_v19) : S32x256x256.Idx → EReal)
      = covScaled (C := 64) (H := 16) (W := 16) (n := 256) rfl ((64 : ℝ) : EReal) ((256 : ℝ) : EReal) ((1 / 255 : ℝ) : EReal)
          (m ((c : Thread nD τ).loc main_arg3)) := by
  refine ((W16_arr m ρ c 2).trans (CovR7.final (V15 m ρ) c)).trans ?_
  refine (outer_stats_eq_covScaled (C := 64) (H := 16) (W := 16) (n := 256) rfl CovR6.cC CovR6.cN CovR6.cInv
    (m ((c : Thread nD τ).loc main_arg3)) (V13 m ρ c main_v15) (W14 m ρ c (Proc.devRef .tc main_v16)) (V15 m ρ c main_v17) (V15 m ρ c main_v18)
    (fun b ch j => CovHost.entry6 m ρ c b ch j)
    ((W14_arr m ρ c 1).trans (CovR6.final (V13 m ρ) c))
    (fun b i u => CovHost.entry7_col m ρ c b i u)
    (fun b u k => CovHost.entry7_row m ρ c b u k)).trans ?_
  exact covScaled_congr rfl Cert.CovMA.Consts.ofBits_64 Cert.CovMA.Consts.ofBits_256 inv_255 _

/-- The run: every weakly fair execution terminates with each result at `covScaled` of its input, inputs unchanged. -/
theorem run : θ_run defs (onTc (τ := τ) (main (F := Ideal))) ⟨m, fun _ => 0, ρ⟩ (fun r => ∀ c : Dev nD,
      r.2.mem ((c.tc : Thread nD τ).loc main_v4) = covScaled (C := 64) (H := 32) (W := 32) (n := 1024) rfl ((64 : ℝ) : EReal) ((1024 : ℝ) : EReal) ((1 / 1023 : ℝ) : EReal) (m ((c : Thread nD τ).loc main_arg0))
      ∧ r.2.mem ((c.tc : Thread nD τ).loc main_v9) = covScaled (C := 128) (H := 16) (W := 16) (n := 256) rfl ((128 : ℝ) : EReal) ((256 : ℝ) : EReal) ((1 / 255 : ℝ) : EReal) (m ((c : Thread nD τ).loc main_arg1))
      ∧ r.2.mem ((c.tc : Thread nD τ).loc main_v14) = covScaled (C := 32) (H := 32) (W := 32) (n := 1024) rfl ((32 : ℝ) : EReal) ((1024 : ℝ) : EReal) ((1 / 1023 : ℝ) : EReal) (m ((c : Thread nD τ).loc main_arg2))
      ∧ r.2.mem ((c.tc : Thread nD τ).loc main_v19) = covScaled (C := 64) (H := 16) (W := 16) (n := 256) rfl ((64 : ℝ) : EReal) ((256 : ℝ) : EReal) ((1 / 255 : ℝ) : EReal) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c).1.trans (value_main_v4 m ρ c), (h c).2.1.trans (value_main_v9 m ρ c),
       (h c).2.2.1.trans (value_main_v14 m ρ c), (h c).2.2.2.1.trans (value_main_v19 m ρ c), (h c).2.2.2.2⟩)
    (Cert.KernelIdeal.CovRun.run_named (F := Ideal) m ρ)

end Cert.KernelIdeal.CovValue

end
-- ==== Proof.CovReference.lean ====
/-
  The reference program read index by index: each of its four results is `covGram` of its input.

  For one input `x` of shape `[32, C, H, W]` the reference sums over the channels and divides by `C` (a `[32, H, W]`
  array of means), flattens each sample to a row `v` of `n = H * W` numbers, forms the outer product `M i j = v i * v j`
  by two broadcasts and a product, subtracts from every entry the mean of its row (the row's sum over `n`), contracts
  the centred matrix with itself over the columns, and divides by `n - 1`. Reading each operation at an index and
  composing the index maps gives, at `(b, i, k)`, exactly `gramEntry` of the mean row of sample `b` — every sum started
  from the zero the reference starts it from. The only arithmetic is on indices: the flat position `b * n + j` of the
  flattened means splits back into sample `b`, row `j / W` and column `j % W`.
-/
import proofs.«119585_j64424509440533_1_alg».proof.Proof.CovSpec
import proofs.«119585_j64424509440533_1_alg».proof.Proof.CovConsts
import proofs.«119585_j64424509440533_1_alg».proof.Proof.Gen.ReferenceIdeal.Read

noncomputable section

namespace Cert.CovMA.Ref

open Idealize.ShloMosaic Idealize.ShloMosaic.ValueIdx Cert.ReferenceIdeal Cert.ReferenceIdeal.Read Cert.CovMA

/-! ## The first input: 64 channels of 32 × 32 pixels, rows of 1024 -/

/-- The flattened channel mean of the first input at pixel `j` of sample `b`: flat position `b * 1024 + j` of the
    `[32, 32, 32]` array of means is row `j / 32`, column `j % 32` of sample `b`. -/
theorem row_v3 (x0 : (⟨S32x64x32x32, .f32⟩ : BufTy).Contents (Elt Ideal)) (b : Fin 32) (j : Fin 1024) :
    val_main_v3 (F := Ideal) x0 (ix2 b j)
      = meanRowFrom (C := 64) (H := 32) (W := 32) (n := 1024) rfl ((64 : ℝ) : EReal) 0 x0 b j := by
  rw [val_main_v3_apply, val_main_v2_apply, val_main_v0_apply, val_main_v1_apply, val_main_cst_apply,
    val_main_cst_0_apply, Ideal.hostDivf_def, Ideal.ofBits_def, Ideal.ofBits_def, Consts.ofBits_zero, Consts.ofBits_64]
  unfold meanRowFrom
  refine congrArg (fun s => Ideal.div (0 + s) _) (Finset.sum_congr rfl fun ch _ => congrArg x0 ?_)
  funext a
  refine Fin.ext ?_
  have hb : b.val < 32 := b.isLt
  have hj : j.val < 1024 := j.isLt
  match a with
  | ⟨0, _⟩ => show (b.val * 1024 + j.val) / 1024 = b.val; omega
  | ⟨1, _⟩ => rfl
  | ⟨2, _⟩ => show (b.val * 1024 + j.val) / 32 % 32 = j.val / 32; omega
  | ⟨3, _⟩ => show (b.val * 1024 + j.val) % 32 = j.val % 32; omega

/-- The outer product of the mean row with itself at `(b, i, j)`: both broadcasts read the row, one at `i`, one at `j`. -/
theorem outer_v8 (x0 : (⟨S32x64x32x32, .f32⟩ : BufTy).Contents (Elt Ideal)) (b : Fin 32) (i j : Fin 1024) :
    val_main_v8 (F := Ideal) x0 (ix3 b i j)
      = val_main_v3 (F := Ideal) x0 (ix2 b i) * val_main_v3 (F := Ideal) x0 (ix2 b j) := by
  rw [val_main_v8_apply, val_main_v6_apply, val_main_v7_apply, val_main_v4_apply, val_main_v5_apply, Ideal.mulf_def]
  have e1 : idx_main_v4 (idx_main_v6 (ix3 b i j)) = ix2 b i := by
    funext a; match a with | ⟨0, _⟩ => rfl | ⟨1, _⟩ => rfl
  have e2 : idx_main_v5 (idx_main_v7 (ix3 b i j)) = ix2 b j := by
    funext a; match a with | ⟨0, _⟩ => rfl | ⟨1, _⟩ => rfl
  rw [e1, e2]

/-- The mean over the columns of row `i` of the outer product, the same at every column `j`. -/
theorem rowMean_v13 (x0 : (⟨S32x64x32x32, .f32⟩ : BufTy).Contents (Elt Ideal)) (b : Fin 32) (i j : Fin 1024) :
    val_main_v13 (F := Ideal) x0 (ix3 b i j)
      = Ideal.div (0 + ∑ j' : Fin 1024, val_main_v3 (F := Ideal) x0 (ix2 b i) * val_main_v3 (F := Ideal) x0 (ix2 b j'))
          ((1024 : ℝ) : EReal) := by
  rw [val_main_v13_apply, val_main_v12_apply, val_main_v10_apply, val_main_v9_apply, val_main_v11_apply,
    val_main_cst_1_apply, val_main_cst_2_apply, Ideal.hostDivf_def, Ideal.ofBits_def, Ideal.ofBits_def,
    Consts.ofBits_zero, Consts.ofBits_1024]
  refine congrArg (fun s => Ideal.div (0 + s) _) (Finset.sum_congr rfl fun j' _ => ?_)
  have e : idx_main_v9 (idx_main_v10 (idx_main_v13 (ix3 b i j))) j' = ix3 b i j' := by
    funext a; match a with | ⟨0, _⟩ => rfl | ⟨1, _⟩ => rfl | ⟨2, _⟩ => rfl
  rw [e, outer_v8]

/-- The centred outer product at `(b, i, j)`: the entry less its row's mean. -/
theorem centred_v14 (x0 : (⟨S32x64x32x32, .f32⟩ : BufTy).Contents (Elt Ideal)) (b : Fin 32) (i j : Fin 1024) :
    val_main_v14 (F := Ideal) x0 (ix3 b i j)
      = val_main_v3 (F := Ideal) x0 (ix2 b i) * val_main_v3 (F := Ideal) x0 (ix2 b j)
        - Ideal.div (0 + ∑ j' : Fin 1024, val_main_v3 (F := Ideal) x0 (ix2 b i) * val_main_v3 (F := Ideal) x0 (ix2 b j'))
            ((1024 : ℝ) : EReal) := by
  rw [val_main_v14_apply, Ideal.subf_def, outer_v8, rowMean_v13]

/-- The reference's result for the first input is the Gram matrix of the centred rows over `1023`: the contraction
    pairs row `i` with row `k` of the centred outer product, column by column. -/
theorem ref_v17 (x0 : (⟨S32x64x32x32, .f32⟩ : BufTy).Contents (Elt Ideal)) :
    Cert.ReferenceIdeal.Read.val_main_v17 (F := Ideal) x0
      = covGram (C := 64) (H := 32) (W := 32) (n := 1024) rfl ((64 : ℝ) : EReal) ((1024 : ℝ) : EReal)
          ((1023 : ℝ) : EReal) 0 x0 := by
  funext o
  obtain ⟨b, i, k, rfl⟩ : ∃ (b : Fin 32) (i k : Fin 1024), o = ix3 b i k := ⟨o 0, o 1, o 2, eq_ix3 o⟩
  rw [val_main_v17_apply, val_main_v15_apply, val_main_v16_apply, val_main_cst_3_apply, Ideal.hostDivf_def,
    Ideal.ofBits_def, Consts.ofBits_1023]
  have el : ∀ j : Fin 1024, lidx_main_v15 (ix3 b i k) j = ix3 b i j := fun j => by
    funext a; match a with | ⟨0, _⟩ => rfl | ⟨1, _⟩ => rfl | ⟨2, _⟩ => rfl
  have er : ∀ j : Fin 1024, ridx_main_v15 (ix3 b i k) j = ix3 b k j := fun j => by
    funext a; match a with | ⟨0, _⟩ => rfl | ⟨1, _⟩ => rfl | ⟨2, _⟩ => rfl
  simp only [el, er, centred_v14, row_v3]
  rfl

/-! ## The second input: 128 channels of 16 × 16 pixels, rows of 256 -/

/-- The flattened channel mean of the second input at pixel `j` of sample `b`: flat position `b * 256 + j` of the
    `[32, 16, 16]` array of means is row `j / 16`, column `j % 16` of sample `b`. -/
theorem row_v21 (x1 : (⟨S32x128x16x16, .f32⟩ : BufTy).Contents (Elt Ideal)) (b : Fin 32) (j : Fin 256) :
    val_main_v21 (F := Ideal) x1 (ix2 b j)
      = meanRowFrom (C := 128) (H := 16) (W := 16) (n := 256) rfl ((128 : ℝ) : EReal) 0 x1 b j := by
  rw [val_main_v21_apply, val_main_v20_apply, val_main_v18_apply, val_main_v19_apply, val_main_cst_4_apply,
    val_main_cst_5_apply, Ideal.hostDivf_def, Ideal.ofBits_def, Ideal.ofBits_def, Consts.ofBits_zero, Consts.ofBits_128]
  unfold meanRowFrom
  refine congrArg (fun s => Ideal.div (0 + s) _) (Finset.sum_congr rfl fun ch _ => congrArg x1 ?_)
  funext a
  refine Fin.ext ?_
  have hb : b.val < 32 := b.isLt
  have hj : j.val < 256 := j.isLt
  match a with
  | ⟨0, _⟩ => show (b.val * 256 + j.val) / 256 = b.val; omega
  | ⟨1, _⟩ => rfl
  | ⟨2, _⟩ => show (b.val * 256 + j.val) / 16 % 16 = j.val / 16; omega
  | ⟨3, _⟩ => show (b.val * 256 + j.val) % 16 = j.val % 16; omega

/-- The outer product of the mean row with itself at `(b, i, j)`: both broadcasts read the row, one at `i`, one at `j`. -/
theorem outer_v26 (x1 : (⟨S32x128x16x16, .f32⟩ : BufTy).Contents (Elt Ideal)) (b : Fin 32) (i j : Fin 256) :
    val_main_v26 (F := Ideal) x1 (ix3 b i j)
      = val_main_v21 (F := Ideal) x1 (ix2 b i) * val_main_v21 (F := Ideal) x1 (ix2 b j) := by
  rw [val_main_v26_apply, val_main_v24_apply, val_main_v25_apply, val_main_v22_apply, val_main_v23_apply, Ideal.mulf_def]
  have e1 : idx_main_v22 (idx_main_v24 (ix3 b i j)) = ix2 b i := by
    funext a; match a with | ⟨0, _⟩ => rfl | ⟨1, _⟩ => rfl
  have e2 : idx_main_v23 (idx_main_v25 (ix3 b i j)) = ix2 b j := by
    funext a; match a with | ⟨0, _⟩ => rfl | ⟨1, _⟩ => rfl
  rw [e1, e2]

/-- The mean over the columns of row `i` of the outer product, the same at every column `j`. -/
theorem rowMean_v31 (x1 : (⟨S32x128x16x16, .f32⟩ : BufTy).Contents (Elt Ideal)) (b : Fin 32) (i j : Fin 256) :
    val_main_v31 (F := Ideal) x1 (ix3 b i j)
      = Ideal.div (0 + ∑ j' : Fin 256, val_main_v21 (F := Ideal) x1 (ix2 b i) * val_main_v21 (F := Ideal) x1 (ix2 b j'))
          ((256 : ℝ) : EReal) := by
  rw [val_main_v31_apply, val_main_v30_apply, val_main_v28_apply, val_main_v27_apply, val_main_v29_apply,
    val_main_cst_6_apply, val_main_cst_7_apply, Ideal.hostDivf_def, Ideal.ofBits_def, Ideal.ofBits_def,
    Consts.ofBits_zero, Consts.ofBits_256]
  refine congrArg (fun s => Ideal.div (0 + s) _) (Finset.sum_congr rfl fun j' _ => ?_)
  have e : idx_main_v27 (idx_main_v28 (idx_main_v31 (ix3 b i j))) j' = ix3 b i j' := by
    funext a; match a with | ⟨0, _⟩ => rfl | ⟨1, _⟩ => rfl | ⟨2, _⟩ => rfl
  rw [e, outer_v26]

/-- The centred outer product at `(b, i, j)`: the entry less its row's mean. -/
theorem centred_v32 (x1 : (⟨S32x128x16x16, .f32⟩ : BufTy).Contents (Elt Ideal)) (b : Fin 32) (i j : Fin 256) :
    val_main_v32 (F := Ideal) x1 (ix3 b i j)
      = val_main_v21 (F := Ideal) x1 (ix2 b i) * val_main_v21 (F := Ideal) x1 (ix2 b j)
        - Ideal.div (0 + ∑ j' : Fin 256, val_main_v21 (F := Ideal) x1 (ix2 b i) * val_main_v21 (F := Ideal) x1 (ix2 b j'))
            ((256 : ℝ) : EReal) := by
  rw [val_main_v32_apply, Ideal.subf_def, outer_v26, rowMean_v31]

/-- The reference's result for the second input is the Gram matrix of the centred rows over `255`: the contraction
    pairs row `i` with row `k` of the centred outer product, column by column. -/
theorem ref_v35 (x1 : (⟨S32x128x16x16, .f32⟩ : BufTy).Contents (Elt Ideal)) :
    Cert.ReferenceIdeal.Read.val_main_v35 (F := Ideal) x1
      = covGram (C := 128) (H := 16) (W := 16) (n := 256) rfl ((128 : ℝ) : EReal) ((256 : ℝ) : EReal)
          ((255 : ℝ) : EReal) 0 x1 := by
  funext o
  obtain ⟨b, i, k, rfl⟩ : ∃ (b : Fin 32) (i k : Fin 256), o = ix3 b i k := ⟨o 0, o 1, o 2, eq_ix3 o⟩
  rw [val_main_v35_apply, val_main_v33_apply, val_main_v34_apply, val_main_cst_8_apply, Ideal.hostDivf_def,
    Ideal.ofBits_def, Consts.ofBits_255]
  have el : ∀ j : Fin 256, lidx_main_v33 (ix3 b i k) j = ix3 b i j := fun j => by
    funext a; match a with | ⟨0, _⟩ => rfl | ⟨1, _⟩ => rfl | ⟨2, _⟩ => rfl
  have er : ∀ j : Fin 256, ridx_main_v33 (ix3 b i k) j = ix3 b k j := fun j => by
    funext a; match a with | ⟨0, _⟩ => rfl | ⟨1, _⟩ => rfl | ⟨2, _⟩ => rfl
  simp only [el, er, centred_v32, row_v21]
  rfl

/-! ## The third input: 32 channels of 32 × 32 pixels, rows of 1024 -/

/-- The flattened channel mean of the third input at pixel `j` of sample `b`: flat position `b * 1024 + j` of the
    `[32, 32, 32]` array of means is row `j / 32`, column `j % 32` of sample `b`. -/
theorem row_v39 (x2 : (⟨S32x32x32x32, .f32⟩ : BufTy).Contents (Elt Ideal)) (b : Fin 32) (j : Fin 1024) :
    val_main_v39 (F := Ideal) x2 (ix2 b j)
      = meanRowFrom (C := 32) (H := 32) (W := 32) (n := 1024) rfl ((32 : ℝ) : EReal) 0 x2 b j := by
  rw [val_main_v39_apply, val_main_v38_apply, val_main_v36_apply, val_main_v37_apply, val_main_cst_9_apply,
    val_main_cst_10_apply, Ideal.hostDivf_def, Ideal.ofBits_def, Ideal.ofBits_def, Consts.ofBits_zero, Consts.ofBits_32]
  unfold meanRowFrom
  refine congrArg (fun s => Ideal.div (0 + s) _) (Finset.sum_congr rfl fun ch _ => congrArg x2 ?_)
  funext a
  refine Fin.ext ?_
  have hb : b.val < 32 := b.isLt
  have hj : j.val < 1024 := j.isLt
  match a with
  | ⟨0, _⟩ => show (b.val * 1024 + j.val) / 1024 = b.val; omega
  | ⟨1, _⟩ => rfl
  | ⟨2, _⟩ => show (b.val * 1024 + j.val) / 32 % 32 = j.val / 32; omega
  | ⟨3, _⟩ => show (b.val * 1024 + j.val) % 32 = j.val % 32; omega

/-- The outer product of the mean row with itself at `(b, i, j)`: both broadcasts read the row, one at `i`, one at `j`. -/
theorem outer_v44 (x2 : (⟨S32x32x32x32, .f32⟩ : BufTy).Contents (Elt Ideal)) (b : Fin 32) (i j : Fin 1024) :
    val_main_v44 (F := Ideal) x2 (ix3 b i j)
      = val_main_v39 (F := Ideal) x2 (ix2 b i) * val_main_v39 (F := Ideal) x2 (ix2 b j) := by
  rw [val_main_v44_apply, val_main_v42_apply, val_main_v43_apply, val_main_v40_apply, val_main_v41_apply, Ideal.mulf_def]
  have e1 : idx_main_v40 (idx_main_v42 (ix3 b i j)) = ix2 b i := by
    funext a; match a with | ⟨0, _⟩ => rfl | ⟨1, _⟩ => rfl
  have e2 : idx_main_v41 (idx_main_v43 (ix3 b i j)) = ix2 b j := by
    funext a; match a with | ⟨0, _⟩ => rfl | ⟨1, _⟩ => rfl
  rw [e1, e2]

/-- The mean over the columns of row `i` of the outer product, the same at every column `j`. -/
theorem rowMean_v49 (x2 : (⟨S32x32x32x32, .f32⟩ : BufTy).Contents (Elt Ideal)) (b : Fin 32) (i j : Fin 1024) :
    val_main_v49 (F := Ideal) x2 (ix3 b i j)
      = Ideal.div (0 + ∑ j' : Fin 1024, val_main_v39 (F := Ideal) x2 (ix2 b i) * val_main_v39 (F := Ideal) x2 (ix2 b j'))
          ((1024 : ℝ) : EReal) := by
  rw [val_main_v49_apply, val_main_v48_apply, val_main_v46_apply, val_main_v45_apply, val_main_v47_apply,
    val_main_cst_11_apply, val_main_cst_12_apply, Ideal.hostDivf_def, Ideal.ofBits_def, Ideal.ofBits_def,
    Consts.ofBits_zero, Consts.ofBits_1024]
  refine congrArg (fun s => Ideal.div (0 + s) _) (Finset.sum_congr rfl fun j' _ => ?_)
  have e : idx_main_v45 (idx_main_v46 (idx_main_v49 (ix3 b i j))) j' = ix3 b i j' := by
    funext a; match a with | ⟨0, _⟩ => rfl | ⟨1, _⟩ => rfl | ⟨2, _⟩ => rfl
  rw [e, outer_v44]

/-- The centred outer product at `(b, i, j)`: the entry less its row's mean. -/
theorem centred_v50 (x2 : (⟨S32x32x32x32, .f32⟩ : BufTy).Contents (Elt Ideal)) (b : Fin 32) (i j : Fin 1024) :
    val_main_v50 (F := Ideal) x2 (ix3 b i j)
      = val_main_v39 (F := Ideal) x2 (ix2 b i) * val_main_v39 (F := Ideal) x2 (ix2 b j)
        - Ideal.div (0 + ∑ j' : Fin 1024, val_main_v39 (F := Ideal) x2 (ix2 b i) * val_main_v39 (F := Ideal) x2 (ix2 b j'))
            ((1024 : ℝ) : EReal) := by
  rw [val_main_v50_apply, Ideal.subf_def, outer_v44, rowMean_v49]

/-- The reference's result for the third input is the Gram matrix of the centred rows over `1023`: the contraction
    pairs row `i` with row `k` of the centred outer product, column by column. -/
theorem ref_v53 (x2 : (⟨S32x32x32x32, .f32⟩ : BufTy).Contents (Elt Ideal)) :
    Cert.ReferenceIdeal.Read.val_main_v53 (F := Ideal) x2
      = covGram (C := 32) (H := 32) (W := 32) (n := 1024) rfl ((32 : ℝ) : EReal) ((1024 : ℝ) : EReal)
          ((1023 : ℝ) : EReal) 0 x2 := by
  funext o
  obtain ⟨b, i, k, rfl⟩ : ∃ (b : Fin 32) (i k : Fin 1024), o = ix3 b i k := ⟨o 0, o 1, o 2, eq_ix3 o⟩
  rw [val_main_v53_apply, val_main_v51_apply, val_main_v52_apply, val_main_cst_13_apply, Ideal.hostDivf_def,
    Ideal.ofBits_def, Consts.ofBits_1023]
  have el : ∀ j : Fin 1024, lidx_main_v51 (ix3 b i k) j = ix3 b i j := fun j => by
    funext a; match a with | ⟨0, _⟩ => rfl | ⟨1, _⟩ => rfl | ⟨2, _⟩ => rfl
  have er : ∀ j : Fin 1024, ridx_main_v51 (ix3 b i k) j = ix3 b k j := fun j => by
    funext a; match a with | ⟨0, _⟩ => rfl | ⟨1, _⟩ => rfl | ⟨2, _⟩ => rfl
  simp only [el, er, centred_v50, row_v39]
  rfl

/-! ## The fourth input: 64 channels of 16 × 16 pixels, rows of 256 -/

/-- The flattened channel mean of the fourth input at pixel `j` of sample `b`: flat position `b * 256 + j` of the
    `[32, 16, 16]` array of means is row `j / 16`, column `j % 16` of sample `b`. -/
theorem row_v57 (x3 : (⟨S32x64x16x16, .f32⟩ : BufTy).Contents (Elt Ideal)) (b : Fin 32) (j : Fin 256) :
    val_main_v57 (F := Ideal) x3 (ix2 b j)
      = meanRowFrom (C := 64) (H := 16) (W := 16) (n := 256) rfl ((64 : ℝ) : EReal) 0 x3 b j := by
  rw [val_main_v57_apply, val_main_v56_apply, val_main_v54_apply, val_main_v55_apply, val_main_cst_14_apply,
    val_main_cst_15_apply, Ideal.hostDivf_def, Ideal.ofBits_def, Ideal.ofBits_def, Consts.ofBits_zero, Consts.ofBits_64]
  unfold meanRowFrom
  refine congrArg (fun s => Ideal.div (0 + s) _) (Finset.sum_congr rfl fun ch _ => congrArg x3 ?_)
  funext a
  refine Fin.ext ?_
  have hb : b.val < 32 := b.isLt
  have hj : j.val < 256 := j.isLt
  match a with
  | ⟨0, _⟩ => show (b.val * 256 + j.val) / 256 = b.val; omega
  | ⟨1, _⟩ => rfl
  | ⟨2, _⟩ => show (b.val * 256 + j.val) / 16 % 16 = j.val / 16; omega
  | ⟨3, _⟩ => show (b.val * 256 + j.val) % 16 = j.val % 16; omega

/-- The outer product of the mean row with itself at `(b, i, j)`: both broadcasts read the row, one at `i`, one at `j`. -/
theorem outer_v62 (x3 : (⟨S32x64x16x16, .f32⟩ : BufTy).Contents (Elt Ideal)) (b : Fin 32) (i j : Fin 256) :
    val_main_v62 (F := Ideal) x3 (ix3 b i j)
      = val_main_v57 (F := Ideal) x3 (ix2 b i) * val_main_v57 (F := Ideal) x3 (ix2 b j) := by
  rw [val_main_v62_apply, val_main_v60_apply, val_main_v61_apply, val_main_v58_apply, val_main_v59_apply, Ideal.mulf_def]
  have e1 : idx_main_v58 (idx_main_v60 (ix3 b i j)) = ix2 b i := by
    funext a; match a with | ⟨0, _⟩ => rfl | ⟨1, _⟩ => rfl
  have e2 : idx_main_v59 (idx_main_v61 (ix3 b i j)) = ix2 b j := by
    funext a; match a with | ⟨0, _⟩ => rfl | ⟨1, _⟩ => rfl
  rw [e1, e2]

/-- The mean over the columns of row `i` of the outer product, the same at every column `j`. -/
theorem rowMean_v67 (x3 : (⟨S32x64x16x16, .f32⟩ : BufTy).Contents (Elt Ideal)) (b : Fin 32) (i j : Fin 256) :
    val_main_v67 (F := Ideal) x3 (ix3 b i j)
      = Ideal.div (0 + ∑ j' : Fin 256, val_main_v57 (F := Ideal) x3 (ix2 b i) * val_main_v57 (F := Ideal) x3 (ix2 b j'))
          ((256 : ℝ) : EReal) := by
  rw [val_main_v67_apply, val_main_v66_apply, val_main_v64_apply, val_main_v63_apply, val_main_v65_apply,
    val_main_cst_16_apply, val_main_cst_17_apply, Ideal.hostDivf_def, Ideal.ofBits_def, Ideal.ofBits_def,
    Consts.ofBits_zero, Consts.ofBits_256]
  refine congrArg (fun s => Ideal.div (0 + s) _) (Finset.sum_congr rfl fun j' _ => ?_)
  have e : idx_main_v63 (idx_main_v64 (idx_main_v67 (ix3 b i j))) j' = ix3 b i j' := by
    funext a; match a with | ⟨0, _⟩ => rfl | ⟨1, _⟩ => rfl | ⟨2, _⟩ => rfl
  rw [e, outer_v62]

/-- The centred outer product at `(b, i, j)`: the entry less its row's mean. -/
theorem centred_v68 (x3 : (⟨S32x64x16x16, .f32⟩ : BufTy).Contents (Elt Ideal)) (b : Fin 32) (i j : Fin 256) :
    val_main_v68 (F := Ideal) x3 (ix3 b i j)
      = val_main_v57 (F := Ideal) x3 (ix2 b i) * val_main_v57 (F := Ideal) x3 (ix2 b j)
        - Ideal.div (0 + ∑ j' : Fin 256, val_main_v57 (F := Ideal) x3 (ix2 b i) * val_main_v57 (F := Ideal) x3 (ix2 b j'))
            ((256 : ℝ) : EReal) := by
  rw [val_main_v68_apply, Ideal.subf_def, outer_v62, rowMean_v67]

/-- The reference's result for the fourth input is the Gram matrix of the centred rows over `255`: the contraction
    pairs row `i` with row `k` of the centred outer product, column by column. -/
theorem ref_v71 (x3 : (⟨S32x64x16x16, .f32⟩ : BufTy).Contents (Elt Ideal)) :
    Cert.ReferenceIdeal.Read.val_main_v71 (F := Ideal) x3
      = covGram (C := 64) (H := 16) (W := 16) (n := 256) rfl ((64 : ℝ) : EReal) ((256 : ℝ) : EReal)
          ((255 : ℝ) : EReal) 0 x3 := by
  funext o
  obtain ⟨b, i, k, rfl⟩ : ∃ (b : Fin 32) (i k : Fin 256), o = ix3 b i k := ⟨o 0, o 1, o 2, eq_ix3 o⟩
  rw [val_main_v71_apply, val_main_v69_apply, val_main_v70_apply, val_main_cst_18_apply, Ideal.hostDivf_def,
    Ideal.ofBits_def, Consts.ofBits_255]
  have el : ∀ j : Fin 256, lidx_main_v69 (ix3 b i k) j = ix3 b i j := fun j => by
    funext a; match a with | ⟨0, _⟩ => rfl | ⟨1, _⟩ => rfl | ⟨2, _⟩ => rfl
  have er : ∀ j : Fin 256, ridx_main_v69 (ix3 b i k) j = ix3 b k j := fun j => by
    funext a; match a with | ⟨0, _⟩ => rfl | ⟨1, _⟩ => rfl | ⟨2, _⟩ => rfl
  simp only [el, er, centred_v68, row_v57]
  rfl

end Cert.CovMA.Ref

end
-- ==== Proof.CovFinite.lean ====
/-
  From the precondition to real numbers.

  The precondition says, of each of the four float inputs, that every entry has an absolute value below `+∞`, and
  takes the conjunction. An extended real `x` with `max x (-x) < ⊤` is neither `⊤` (then `max x (-x) = ⊤`) nor `⊥`
  (then `-x = ⊤`), so it is a real number. Hence each input is the image of an array of reals.
-/
import proofs.«119585_j64424509440533_1_alg».proof.Pre_finite_inputs
import Idealize.ShloMosaic.Lib.ReduceAll
import Idealize.ShloMosaic.Lib.ValueIdx
import Idealize.ShloMosaic.PureOps.Ideal

noncomputable section

namespace Cert.CovMA.Finite

open Idealize.ShloMosaic Cert.Pre_finite_inputs

/-- The scalar shape has one index. -/
instance : Subsingleton S_.Idx := ⟨fun a b => funext fun d => d.elim0⟩

/-- The word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- An array all of whose entries pass the comparison is the image of an array of reals. -/
theorem reals_of_all {s : Shape} (a : FVec Ideal s .f32)
    (h : ∀ i, Ideal.cmp .olt (max (a i) (-(a i))) (Ideal.ofBits .f32 0x7F800000#32) = 1#1) :
    ∃ r : s.Idx → ℝ, a = fun i => ((r i : ℝ) : EReal) := by
  choose r hr using fun i => real_of_abs_lt (a i) (h i)
  exact ⟨r, funext hr⟩

theorem real_of_pre [Cert.Pre_finite_inputs.Facts] (a0 : FVec Ideal S32x64x32x32 .f32) (a1 : FVec Ideal S32x128x16x16 .f32)
    (a2 : FVec Ideal S32x32x32x32 .f32) (a3 : FVec Ideal S32x64x16x16 .f32) (a4 : IVec S32 32)
    (h : Cert.Pre_finite_inputs.fn (F := Ideal) a0 a1 a2 a3 a4 = fun _ => 1#1) :
    (∃ r0 : S32x64x32x32.Idx → ℝ, a0 = fun i => ((r0 i : ℝ) : EReal))
      ∧ (∃ r1 : S32x128x16x16.Idx → ℝ, a1 = fun i => ((r1 i : ℝ) : EReal))
      ∧ (∃ r2 : S32x32x32x32.Idx → ℝ, a2 = fun i => ((r2 i : ℝ) : EReal))
      ∧ (∃ r3 : S32x64x16x16.Idx → ℝ, a3 = fun i => ((r3 i : ℝ) : EReal)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨reals_of_all a0 fun i => Host.reduce_andi_all _ _ _ _ _ h0' i,
    reals_of_all a1 fun i => Host.reduce_andi_all _ _ _ _ _ h1 i,
    reals_of_all a2 fun i => Host.reduce_andi_all _ _ _ _ _ h2 i,
    reals_of_all a3 fun i => Host.reduce_andi_all _ _ _ _ _ h3 i⟩

end Cert.CovMA.Finite

end
-- ==== Proof.lean ====
/-
  The certificate: a kernel that computes, for each of four inputs `x : [32, C, H, W]`, the covariance of the rows of
  the outer product of the channel mean with itself, against its reference.

  Write `v` for the channel mean of a sample, flattened to a row of `n = H * W` numbers, and `M = v vᵀ`. The reference
  centres every row of `M` by its mean and returns the Gram matrix of the centred rows over `n - 1`. The kernel uses
  that `M` has rank one: the centred row `i` is `v i` times the centred `v`, so the Gram entry `(i, k)` is
  `v i * v k * S / (n - 1)` with `S` the squared deviation of `v`, and it computes `w = v * √(S * (1 / (n - 1)))` in one
  launch and the outer product `w wᵀ` in a second. On finite inputs every mean is a real number and the two agree:
  `√s * √s = s` for the non-negative `s = S / (n - 1)`, and `v i` distributes over the sum. The kernel's literal
  reciprocals of 1023 and 255 are read as those rationals, which is what its source writes.

  The frames of the two kernel programs are the generated ones; the reference's frame is its generated run with the
  results dropped. The kernel program's results come from its run with the results named (the last boundary's
  contents), read back launch by launch; the reference's from its generated run, read operation by operation.
-/
import proofs.«119585_j64424509440533_1_alg».proof.Defs
import proofs.«119585_j64424509440533_1_alg».proof.Proof.Gen.Kernel
import proofs.«119585_j64424509440533_1_alg».proof.Proof.Gen.Kernel.Frame
import proofs.«119585_j64424509440533_1_alg».proof.Proof.Gen.KernelIdeal
import proofs.«119585_j64424509440533_1_alg».proof.Proof.Gen.KernelIdeal.Frame
import proofs.«119585_j64424509440533_1_alg».proof.Proof.Gen.ReferenceIdeal
import proofs.«119585_j64424509440533_1_alg».proof.Proof.Gen.Pre_finite_inputs
import proofs.«119585_j64424509440533_1_alg».proof.Proof.Gen.ReferenceIdeal.Run
import proofs.«119585_j64424509440533_1_alg».proof.Proof.Gen.ReferenceIdeal.Read
import proofs.«119585_j64424509440533_1_alg».proof.Proof.CovKernel
import proofs.«119585_j64424509440533_1_alg».proof.Proof.CovReference
import proofs.«119585_j64424509440533_1_alg».proof.Proof.CovFinite
import Idealize.ShloMosaic.Adequacy
import Idealize.ShloMosaic.Init

noncomputable section

namespace Cert.Proof

open Idealize.ShloMosaic Idealize.SL.Sem Cert.CovMA

theorem frame_k : Cert.frame_Kernel := fun m ρ _ => Cert.Kernel.Gen.frame m ρ

theorem frame_ki : Cert.frame_KernelIdeal := fun m ρ _ => Cert.KernelIdeal.Gen.frame m ρ

/-- The reference's frame: its run, with the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The four named reciprocals: the table gives `inv_1023` the value `1/1023` and `inv_255` the value `1/255`. -/
theorem preserves : Cert.preserves_Kernel_KernelIdeal :=
  ⟨IdealRules.named_const.statement Cert.KernelIdeal.κ "inv_1023" .f32 0x3A802008#32 ((1 / 1023 : ℝ) : EReal) rfl,
   IdealRules.named_const.statement Cert.KernelIdeal.κ "inv_255" .f32 0x3B808081#32 ((1 / 255 : ℝ) : EReal) rfl,
   IdealRules.named_const.statement Cert.KernelIdeal.κ "inv_1023" .f32 0x3A802008#32 ((1 / 1023 : ℝ) : EReal) rfl,
   IdealRules.named_const.statement Cert.KernelIdeal.κ "inv_255" .f32 0x3B808081#32 ((1 / 255 : ℝ) : EReal) rfl⟩

/-- Both programs end with equal results: the kernel's are the scaled-row products, the reference's the Gram entries,
    and on the finite inputs the precondition grants these are the same numbers. -/
theorem algebraic : Cert.algebraic_KernelIdeal_ReferenceIdeal := by
  intro m ρ m' ρ' hpre hagree
  refine ⟨_, _, _, _, Cert.KernelIdeal.CovValue.run m ρ, ?_⟩
  refine (θ_run Cert.ReferenceIdeal.defs _ _).mono (fun _ h c => ?_) (Cert.ReferenceIdeal.Value.run (F := Ideal) m' ρ')
  obtain ⟨⟨r0, h0⟩, ⟨r1, h1⟩, ⟨r2, h2⟩, ⟨r3, h3⟩⟩ := Cert.CovMA.Finite.real_of_pre _ _ _ _ _ (hpre c)
  obtain ⟨a0, a1, a2, a3, -⟩ := hagree c
  refine ⟨(h c).1.trans ?_, (h c).2.1.trans ?_, (h c).2.2.1.trans ?_, (h c).2.2.2.1.trans ?_, (h c).2.2.2.2⟩
  · rw [Cert.ReferenceIdeal.Read.val_main_v17_eq, a0, Cert.CovMA.Ref.ref_v17]
    exact (covScaled_eq_covGram rfl 64 1024 1023 (by norm_num) (by norm_num) (by norm_num) _ r0 h0).symm
  · rw [Cert.ReferenceIdeal.Read.val_main_v35_eq, a1, Cert.CovMA.Ref.ref_v35]
    exact (covScaled_eq_covGram rfl 128 256 255 (by norm_num) (by norm_num) (by norm_num) _ r1 h1).symm
  · rw [Cert.ReferenceIdeal.Read.val_main_v53_eq, a2, Cert.CovMA.Ref.ref_v53]
    exact (covScaled_eq_covGram rfl 32 1024 1023 (by norm_num) (by norm_num) (by norm_num) _ r2 h2).symm
  · rw [Cert.ReferenceIdeal.Read.val_main_v71_eq, a3, Cert.CovMA.Ref.ref_v71]
    exact (covScaled_eq_covGram rfl 64 256 255 (by norm_num) (by norm_num) (by norm_num) _ r3 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
